-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S1024x128 : Shape := ⟨2, ![1024, 128]⟩
abbrev S1024 : Shape := ⟨1, ![1024]⟩
abbrev S1024x1 : Shape := ⟨2, ![1024, 1]⟩
abbrev S8192x1 : Shape := ⟨2, ![8192, 1]⟩
abbrev S1x8192 : Shape := ⟨2, ![1, 8192]⟩
abbrev S512x128 : Shape := ⟨2, ![512, 128]⟩
abbrev S512x1 : Shape := ⟨2, ![512, 1]⟩
abbrev S1x512 : Shape := ⟨2, ![1, 512]⟩
abbrev S128x512 : Shape := ⟨2, ![128, 512]⟩
abbrev S512x512 : Shape := ⟨2, ![512, 512]⟩
abbrev S512 : Shape := ⟨1, ![512]⟩
abbrev S_ : Shape := ⟨0, ![]⟩

abbrev nBuf : Space → Nat
  | .hbm => 14
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x1, .i32⟩
  | .local _ .vmem, ⟨9, _⟩ => ⟨S512x1, .i32⟩
  | .local _ .vmem, ⟨10, _⟩ => ⟨S1x512, .i32⟩
  | .local _ .vmem, ⟨11, _⟩ => ⟨S1x512, .i32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v53 : BitVec 1 := Scalar.cmpi .eq arg1 c15_i32
  let v54 : BitVec 32 := Scalar.extui v53
  let c0_i32_21 : BitVec 32 := 0#32
  let v55 : BitVec 1 := Scalar.cmpi .ne v54 c0_i32_21
  v55

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  packedbf16_S1024x128_S1024x128_0_0 : (Rect.unit (s := S1024x128) ![0, 0] S1024x128.size inb_S1024x128_S1024x128_0_0).PackedRows (EltTy.packing .bf16)
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  iota_S512x1_d0_w32 : S512x1.Iotas .tc 32 [0]
  iota_S1x512_d1_w32 : S1x512.Iotas .tc 32 [1]
  broadcasts_S512x1_S512x512 : S512x1.Broadcasts S512x512
  broadcasts_S1x512_S512x512 : S1x512.Broadcasts S512x512
  natLt_1_32 : 1 < 32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x512_S512 : S512x512.Reduces [1] S512
  shapeCasts_S512_S512x1 : S512.ShapeCasts S512x1
  reducesTo_S8192x1_S_d0_1 : S8192x1.ReducesTo [0, 1] S_
  h_S_ : 0 < S_.numel
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x128.size a
  hwx1_0 : ∀ i : grid1.Coords, EltTy.bits .bf16 = 32 ∨ (Rect.block (s := S8192x128) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .bf16 = 32 ∨ (Rect.block (s := S8192x128) S512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .i32 = 32 ∨ (Rect.block (s := S8192x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .i32 = 32 ∨ (Rect.block (s := S1x8192) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S8192x1.size a
  hwx1_5 : ∀ i : grid1.Coords, EltTy.bits .f32 = 32 ∨ (Rect.block (s := S8192x1) S512x1.size (cc1_transform_5 i) (hinb1_5 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S512x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S512x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 67
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8192x8192, .f32⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .i1⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_v31 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_cst_8 : Ref sig .tc := ⟨.hbm, 58, rfl⟩
abbrev main_call3_v0 : Ref sig .tc := ⟨.hbm, 59, rfl⟩
abbrev main_call3_v1 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KReg0.lean ====
/- REGION 0 of @main (custom_call 0, the row-normalising kernel), at the contents `V` of the TensorCore's
   buffers when the region is entered: each window's block at a point, what the body leaves in the output
   window's buffer, the body's triple, the pipeline's proof data and its body obligation. -/
import proofs.«141171_j84284438217273_1_alg».proof.Proof.Gen.Kernel.Launch
import proofs.«141171_j84284438217273_1_alg».proof.Proof.Gen.Kernel.Skeleton
import proofs.«141171_j84284438217273_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x128 := Rect.unit (s := S1024x128) ![0, 0] S1024x128.size inb_S1024x128_S1024x128_0_0

/-! ## What the body leaves in the output window's buffer -/

/-- Window 1's staging buffer after the body, from the input window's block: its one store as pieces. -/
def out0_1 (x0 : Vec F S1024x128 .f32) : Vec F S1024x128 .bf16 :=
  View.canon [⟨r0_0, k0_pay1 (View.ld x0 r0_0)⟩]

/-- Its store tiles the buffer, so it covers it. -/
theorem cover0_1 (p0 : Vec F S1024x128 .bf16) (y : S1024x128.Idx) :
    ∃ pc ∈ ([⟨r0_0, p0⟩] : List (View.Piece (Elt F) S1024x128 .bf16)), y ∈ pc.1.set :=
  View.cover_of_tiled [⟨r0_0, p0⟩] S1024x128.size (by rfl) y

/-! ## The body's triple -/

set_option maxHeartbeats 1000000 in
/-- The kernel body on whole staging memrefs, the input's at read contents `x0` and the output's at anything, runs to
    the continuation holding the input's as it was and the output's at `out0_1` of the input's. The output's buffer is
    also loaded before the store; the value loaded is not used. -/
theorem sound_kernel0 (c : Dev nD) (E : Set ℕ) (i : grid0.Coords) (arg1 : Memref sig .tc .vmem S1024x128 .f32) (harg1 : arg1.IsWhole) (arg2 : Memref sig .tc .vmem S1024x128 .bf16) (harg2 : arg2.IsWhole)
    (x0 : Vec F S1024x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` the input's buffer at its block and the output's at `out0_1` of the input block; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block (`before0_0`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KReg1Runs.lean ====
/- Region 1 (the second pallas_call, two scratch accumulators carried over a 16x16 grid): what the three
   cases' runs share — the windows' blocks at the region's entry contents, the branch conditions in closed form,
   where the two output windows are idle, the staging and scratch memrefs. -/
import proofs.«141171_j84284438217273_1_alg».proof.Proof.Gen.Kernel.Launch
import proofs.«141171_j84284438217273_1_alg».proof.Proof.Gen.Kernel.Skeleton
import proofs.«141171_j84284438217273_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the first conditional (the column block is the first: zero both accumulators), from the
    grid coordinates. -/
abbrev cond1_0 (i : grid1.Coords) : Prop := (Scalar.cmpi .ne (Scalar.extui (Scalar.cmpi .eq (BitVec.ofNat 32 (i 1).val) 0#32)) 0#32) = 1#1
/-- It holds exactly at the points whose column block is 0. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the second conditional (the column block is the last: read the accumulators out). -/
abbrev cond1_1 (i : grid1.Coords) : Prop := k1_cond2 i = 1#1
/-- It holds exactly at the points whose column block is 15. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last column block the two outputs are idle and not written back. -/
theorem idleAt1_4 : ∀ t : Fin cfg1.N, ¬t.val % 16 = 15 → cfg1.idle 4 (grid1.coords t) = true :=
  (by decide +kernel : ∀ t : Fin grid1.N, ¬t.val % 16 = 15 → idle1 4 (grid1.coords t) = true)
theorem idleAt1_5 : ∀ t : Fin cfg1.N, ¬t.val % 16 = 15 → cfg1.idle 5 (grid1.coords t) = true :=
  (by decide +kernel : ∀ t : Fin grid1.N, ¬t.val % 16 = 15 → idle1 5 (grid1.coords t) = true)
theorem noFlush1_4 (t : Fin cfg1.N) (h : ¬t.val % 16 = 15) : (cfg1.win 4).flush t = false := by
  cases hf : (cfg1.win 4).flush t with
  | false => rfl
  | true => exact absurd ((flush1_4 t).mp hf) h
theorem noFlush1_5 (t : Fin cfg1.N) (h : ¬t.val % 16 = 15) : (cfg1.win 5).flush t = false := by
  cases hf : (cfg1.win 5).flush t with
  | false => rfl
  | true => exact absurd ((flush1_5 t).mp hf) h
/-- At the last column block they are live. -/
theorem liveAt1_4 : ∀ t : Fin cfg1.N, t.val % 16 = 15 → cfg1.idle 4 (grid1.coords t) = false :=
  (by decide +kernel : ∀ t : Fin grid1.N, t.val % 16 = 15 → idle1 4 (grid1.coords t) = false)
theorem liveAt1_5 : ∀ t : Fin cfg1.N, t.val % 16 = 15 → cfg1.idle 5 (grid1.coords t) = false :=
  (by decide +kernel : ∀ t : Fin grid1.N, t.val % 16 = 15 → idle1 5 (grid1.coords t) = false)

/-! ## The memrefs the body is called on -/

/-- One staging buffer of each output window, through which its contents are stated (the choice does not matter). -/
abbrev VO1_4 : View sig .tc .vmem S512x1 .f32 := (Memref.whole cc1_stg4_0 : Memref sig .tc .vmem S512x1 .f32).view
abbrev VO1_5 : View sig .tc .vmem S512x1 .f32 := (Memref.whole cc1_stg5_0 : Memref sig .tc .vmem S512x1 .f32).view
/-- Each window's current staging memref at point `t`, spelled as the pipeline passes it, and its wholeness. -/
abbrev ms1_0 (t : Fin cfg1.N) : Memref sig .tc .vmem S512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
/-- The two accumulators: whole scoped buffers of the kernel's own, passed beside the windows. -/
abbrev scM1_0 : Memref sig .tc .vmem S512x1 .f32 := Memref.whole cc1_scratch0
abbrev scM1_1 : Memref sig .tc .vmem S512x1 .f32 := Memref.whole cc1_scratch1
/-- The accumulators as views: what they hold is stated through these. -/
abbrev VS1_0 : View sig .tc .vmem S512x1 .f32 := scM1_0.view
abbrev VS1_1 : View sig .tc .vmem S512x1 .f32 := scM1_1.view

/-- The scoped buffers of the core that are neither a staging buffer of this pallas_call nor one of its two
    accumulators (the first pallas_call's staging buffers), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The scoped rest of this pallas_call with the two accumulators as memrefs owned at some contents. -/
theorem scopedRest1_owns (c : Dev nD) :
    (Pipeline.scopedRest (Ix := Unit) (Name := ℕ) (U := UR sig nD τ) (Lvl := ℕ) (Val := Elt F) spec1 c : sProp 𝕄)
      ⊣⊢ iprop(rest1 c ∗ (∃ d, owns (c : Thread nD τ) scM1_0 fullShare d) ∗ (∃ d, owns (c : Thread nD τ) scM1_1 fullShare d)) := by
  rw [scopedRest1_eq]; unfold rest1; simp only [scM1_0, scM1_1, owns_whole]
  constructor
  · iintro ⟨H0, H1, H2, H3, H4, H5⟩
    isplitl [H0 H1 H2 H3]
    · isplitl [H0]; · iexact H0
      isplitl [H1]; · iexact H1
      isplitl [H2]; · iexact H2
      iexact H3
    isplitl [H4]; · iexact H4
    iexact H5
  · iintro ⟨⟨H0, H1, H2, H3⟩, H4, H5⟩
    isplitl [H0]; · iexact H0
    isplitl [H1]; · iexact H1
    isplitl [H2]; · iexact H2
    isplitl [H3]; · iexact H3
    isplitl [H4]; · iexact H4
    iexact H5

end Cert.Kernel.Hand

end
-- ==== Proof.KReg1RunA.lean ====
/- Region 1, case A (the column block is the first: both accumulators are zeroed, then this block's row sums added; the two outputs are left untouched): the whole-body run. -/
import proofs.«141171_j84284438217273_1_alg».proof.Proof.KReg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the accumulators, as pieces (last first), in case A
    (the column block is the first: both accumulators are zeroed, then this block's row sums added; the two outputs are left untouched),
    with the proof that on whole memrefs — the inputs' at their contents, the outputs' at contents handed back untouched,
    the accumulators at anything — the body runs to the continuation holding the inputs' as they were and
    each stored buffer with its pieces written. -/
noncomputable def kernelRun1_A (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x128 .bf16) (x1 : Vec F S512x128 .bf16) (x2 : Vec F S512x1 .i32) (x3 : Vec F S1x512 .i32) :
    Σ' (LS0 : List (View.Piece (Elt F) S512x1 .f32)), { LS1 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__infonce_kernel i arg2 harg2 arg3 harg3 arg4 harg4 arg5 harg5 arg6 harg6 arg7 harg7 arg8 harg8 arg9 harg9) K } := by
  refine ⟨?_, ?_, fun xi4 xi5 E K => ?run⟩
  case run =>
    simp only [cc1__infonce_kernel_eq_skeleton]; unfold cc1__infonce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.KReg1RunB.lean ====
/- Region 1, case B (a column block strictly between the first and the last: this block's row sums are added onto both accumulators; the two outputs are left untouched): the whole-body run. -/
import proofs.«141171_j84284438217273_1_alg».proof.Proof.KReg1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the accumulators, as pieces (last first), in case B
    (a column block strictly between the first and the last: this block's row sums are added onto both accumulators; the two outputs are left untouched),
    with the proof that on whole memrefs — the inputs' at their contents, the outputs' at contents handed back untouched,
    the accumulators at what the point before left — the body runs to the continuation holding the inputs' as they were and
    each stored buffer with its pieces written. -/
noncomputable def kernelRun1_B (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x128 .bf16) (x1 : Vec F S512x128 .bf16) (x2 : Vec F S512x1 .i32) (x3 : Vec F S1x512 .i32) (xs0 : Vec F S512x1 .f32) (xs1 : Vec F S512x1 .f32) :
    Σ' (LS0 : List (View.Piece (Elt F) S512x1 .f32)), { LS1 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__infonce_kernel i arg2 harg2 arg3 harg3 arg4 harg4 arg5 harg5 arg6 harg6 arg7 harg7 arg8 harg8 arg9 harg9) K } := by
  refine ⟨?_, ?_, fun xi4 xi5 E K => ?run⟩
  case run =>
    simp only [cc1__infonce_kernel_eq_skeleton]; unfold cc1__infonce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.KReg1RunC.lean ====
/- Region 1, case C (the column block is the last: this block's row sums are added onto both accumulators, which are then read out into the two outputs): the whole-body run. -/
import proofs.«141171_j84284438217273_1_alg».proof.Proof.KReg1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the accumulators and in the two outputs' staging memrefs, as pieces (last first), in case C
    (the column block is the last: this block's row sums are added onto both accumulators, which are then read out into the two outputs),
    with the proof that on whole memrefs — the inputs' at their contents, the outputs' at anything,
    the accumulators at what the point before left — the body runs to the continuation holding the inputs' as they were and
    each stored buffer with its pieces written. -/
noncomputable def kernelRun1_C (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) :
    Σ' (L4 : List (View.Piece (Elt F) S512x1 .f32)) (L5 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__infonce_kernel i arg2 harg2 arg3 harg3 arg4 harg4 arg5 harg5 arg6 harg6 arg7 harg7 arg8 harg8 arg9 harg9) K } := by
  refine ⟨?_, ?_, ?_, ?_, fun E K => ?run⟩
  case run =>
    simp only [cc1__infonce_kernel_eq_skeleton]; unfold cc1__infonce_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Hand

end
-- ==== Proof.KReg1.lean ====
/- Region 1 (the second pallas_call): what the two accumulators and the two outputs hold point by point, the
   proof data at the region's entry contents `V`, and the body obligation. -/
import proofs.«141171_j84284438217273_1_alg».proof.Proof.KReg1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for the first accumulator cover it. -/
theorem scover1_A_0 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x128 .bf16) (x1 : Vec F S512x128 .bf16) (x2 : Vec F S512x1 .i32) (x3 : Vec F S1x512 .i32) (y : S512x1.Idx) :
    ∃ pc ∈ (kernelRun1_A c i arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg2 harg2 arg3 harg3 arg4 harg4 arg5 harg5 arg6 harg6 arg7 harg7 arg8 harg8 arg9 harg9 hc0 hc1 x0 x1 x2 x3).1 S512x1.size (by sl_kernel_rfl) y

/-- What case A leaves in the first accumulator: its pieces read back over junk. -/
def sout1_A_0 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x128 .bf16) (x1 : Vec F S512x128 .bf16) (x2 : Vec F S512x1 .i32) (x3 : Vec F S1x512 .i32) : Vec F S512x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).1)

/-- Case A's pieces for the second accumulator cover it. -/
theorem scover1_A_1 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x128 .bf16) (x1 : Vec F S512x128 .bf16) (x2 : Vec F S512x1 .i32) (x3 : Vec F S1x512 .i32) (y : S512x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S512x1.size (by sl_kernel_rfl) y

/-- What case A leaves in the second accumulator: its pieces read back over junk. -/
def sout1_A_1 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x128 .bf16) (x1 : Vec F S512x128 .bf16) (x2 : Vec F S512x1 .i32) (x3 : Vec F S1x512 .i32) : Vec F S512x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.1)

/-- Case B's pieces for the first accumulator cover it. -/
theorem scover1_B_0 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x128 .bf16) (x1 : Vec F S512x128 .bf16) (x2 : Vec F S512x1 .i32) (x3 : Vec F S1x512 .i32) (xs0 : Vec F S512x1 .f32) (xs1 : Vec F S512x1 .f32) (y : S512x1.Idx) :
    ∃ pc ∈ (kernelRun1_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).1 S512x1.size (by sl_kernel_rfl) y

/-- What case B leaves in the first accumulator: its pieces read back over junk. -/
def sout1_B_0 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x128 .bf16) (x1 : Vec F S512x128 .bf16) (x2 : Vec F S512x1 .i32) (x3 : Vec F S1x512 .i32) (xs0 : Vec F S512x1 .f32) (xs1 : Vec F S512x1 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1).1)

/-- Case B's pieces for the second accumulator cover it. -/
theorem scover1_B_1 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x128 .bf16) (x1 : Vec F S512x128 .bf16) (x2 : Vec F S512x1 .i32) (x3 : Vec F S1x512 .i32) (xs0 : Vec F S512x1 .f32) (xs1 : Vec F S512x1 .f32) (y : S512x1.Idx) :
    ∃ pc ∈ (kernelRun1_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).2.1 S512x1.size (by sl_kernel_rfl) y

/-- What case B leaves in the second accumulator: its pieces read back over junk. -/
def sout1_B_1 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x128 .bf16) (x1 : Vec F S512x128 .bf16) (x2 : Vec F S512x1 .i32) (x3 : Vec F S1x512 .i32) (xs0 : Vec F S512x1 .f32) (xs1 : Vec F S512x1 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1).2.1)

/-- Case C's pieces for output window 4's staging buffer cover it. -/
theorem cover1_C_4 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).1 S512x1.size (by sl_kernel_rfl) y

/-- What case C leaves in output window 4's staging buffer: its pieces read back over junk. -/
def out1_C_4 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) : Vec F S512x1 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1).1)

/-- Case C's pieces for output window 5's staging buffer cover it. -/
theorem cover1_C_5 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.1 S512x1.size (by sl_kernel_rfl) y

/-- What case C leaves in output window 5's staging buffer: its pieces read back over junk. -/
def out1_C_5 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) : Vec F S512x1 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 xs0 xs1).2.1)

/-- Case C's pieces for the first accumulator cover it. -/
theorem scover1_C_0 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.1 S512x1.size (by sl_kernel_rfl) y

/-- What case C leaves in the first accumulator: its pieces read back over junk. -/
def sout1_C_0 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1).2.2.1)

/-- Case C's pieces for the second accumulator cover it. -/
theorem scover1_C_1 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.2.1 S512x1.size (by sl_kernel_rfl) y

/-- What case C leaves in the second accumulator: its pieces read back over junk. -/
def sout1_C_1 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1).2.2.2.1)

/-! ## What the outputs and the accumulators hold after each point -/

/-- A placeholder for an output window's buffer at a point that stores nothing into it (nothing consults it: at
    such a point the window is neither written back nor read at the next point). -/
def junk1_4 : Vec F S512x1 .f32 := VO1_4.read (Elt F) (VO1_4.writes (Elt F) VO1_4.junk [])
def junk1_5 : Vec F S512x1 .f32 := VO1_5.read (Elt F) (VO1_5.writes (Elt F) VO1_5.junk [])

/-- The accumulators after a point of case A (column block 0): zeroed, then this block's row sums added. -/
def sAt1_A (c : Dev nD) (t : Fin cfg1.N) (h0 : t.val % 16 = 0) : Vec F S512x1 .f32 × Vec F S512x1 .f32 :=
  (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => by have := (hcond1_1 t).mp h; omega) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => by have := (hcond1_1 t).mp h; omega) (iblk1 V c 0 t) (iblk1 V c 1 t) (iblk1 V c 2 t) (iblk1 V c 3 t))

/-- The accumulators after a point of case B (0 < column block < 15), over what the point before left (`s`). -/
def sAt1_B (c : Dev nD) (t : Fin cfg1.N) (h0 : ¬t.val % 16 = 0) (h1 : ¬t.val % 16 = 15) (s : Vec F S512x1 .f32 × Vec F S512x1 .f32) : Vec F S512x1 .f32 × Vec F S512x1 .f32 :=
  (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) s.1 s.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) s.1 s.2)

/-- The two outputs and the accumulators after a point of case C (column block 15), over what the point before left. -/
def allAt1_C (c : Dev nD) (t : Fin cfg1.N) (h1 : t.val % 16 = 15) (s : Vec F S512x1 .f32 × Vec F S512x1 .f32) : Vec F S512x1 .f32 × Vec F S512x1 .f32 × Vec F S512x1 .f32 × Vec F S512x1 .f32 :=
  (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => by have := (hcond1_0 t).mp h; omega) ((hcond1_1 t).mpr h1) (iblk1 V c 0 t) (iblk1 V c 1 t) (iblk1 V c 2 t) (iblk1 V c 3 t) s.1 s.2,
   out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => by have := (hcond1_0 t).mp h; omega) ((hcond1_1 t).mpr h1) (iblk1 V c 0 t) (iblk1 V c 1 t) (iblk1 V c 2 t) (iblk1 V c 3 t) s.1 s.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => by have := (hcond1_0 t).mp h; omega) ((hcond1_1 t).mpr h1) (iblk1 V c 0 t) (iblk1 V c 1 t) (iblk1 V c 2 t) (iblk1 V c 3 t) s.1 s.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => by have := (hcond1_0 t).mp h; omega) ((hcond1_1 t).mpr h1) (iblk1 V c 0 t) (iblk1 V c 1 t) (iblk1 V c 2 t) (iblk1 V c 3 t) s.1 s.2)

/-- THE ACCUMULATION. What the two outputs' staging buffers and the two accumulators hold after the body at position
    `n` (output 4, output 5, accumulator 0, accumulator 1): the case the column block selects, run at the point's
    memrefs and input blocks, the accumulators at what position `n - 1` left. -/
def outsAt1 (c : Dev nD) : (n : ℕ) → n < cfg1.N → Vec F S512x1 .f32 × Vec F S512x1 .f32 × Vec F S512x1 .f32 × Vec F S512x1 .f32
  | 0, hn => (junk1_4, junk1_5, sAt1_A V c ⟨0, hn⟩ (Nat.zero_mod 16))
  | n + 1, hn =>
    if h0 : (n + 1) % 16 = 0 then (junk1_4, junk1_5, sAt1_A V c ⟨n + 1, hn⟩ h0)
    else if h1 : (n + 1) % 16 = 15 then allAt1_C V c ⟨n + 1, hn⟩ h1 (outsAt1 c n (Nat.lt_of_succ_lt hn)).2.2
    else (junk1_4, junk1_5, sAt1_B V c ⟨n + 1, hn⟩ h0 h1 (outsAt1 c n (Nat.lt_of_succ_lt hn)).2.2)

/-- What the accumulators hold after position `n`. -/
def soutsAt1 (c : Dev nD) (n : ℕ) (hn : n < cfg1.N) : Vec F S512x1 .f32 × Vec F S512x1 .f32 := (outsAt1 V c n hn).2.2

/-- `outsAt1` at a point of case A. -/
theorem outsAt1_A (c : Dev nD) (t : Fin cfg1.N) (h0 : t.val % 16 = 0) :
    outsAt1 V c t.val t.isLt = (junk1_4, junk1_5, sAt1_A V c t h0) := by
  obtain ⟨n, hn⟩ := t
  cases n with
  | zero => exact rfl
  | succ n => exact (dif_pos h0).trans rfl

/-- `outsAt1` at a point of case B: over what the point before left. -/
theorem outsAt1_B (c : Dev nD) (t : Fin cfg1.N) (h0 : ¬t.val % 16 = 0) (h1 : ¬t.val % 16 = 15) :
    outsAt1 V c t.val t.isLt = (junk1_4, junk1_5, sAt1_B V c t h0 h1 (soutsAt1 V c (t.val - 1) (Nat.lt_of_le_of_lt (Nat.sub_le _ _) t.isLt))) := by
  obtain ⟨n, hn⟩ := t
  cases n with
  | zero => exact absurd (Nat.zero_mod _) h0
  | succ n => exact (dif_neg h0).trans ((dif_neg h1).trans rfl)

/-- `outsAt1` at a point of case C: over what the point before left. -/
theorem outsAt1_C (c : Dev nD) (t : Fin cfg1.N) (h1 : t.val % 16 = 15) :
    outsAt1 V c t.val t.isLt = allAt1_C V c t h1 (soutsAt1 V c (t.val - 1) (Nat.lt_of_le_of_lt (Nat.sub_le _ _) t.isLt)) := by
  obtain ⟨n, hn⟩ := t
  cases n with
  | zero => exfalso; dsimp only at h1; omega
  | succ n => exact (dif_neg (by dsimp only at h1; omega)).trans ((dif_pos h1).trans rfl)

/-! ## The region invariant -/

/-- The region invariant before position `n`: before the first point the generator register at some state and the
    scoped rest (both accumulators at anything); afterwards the same with each accumulator at what the point before
    left in it. -/
def PhiS1 (c : Dev nD) : (n : ℕ) → n ≤ cfg1.N → sProp 𝕄
  | 0, _ => iprop((∃ r, prngReg c r) ∗ Pipeline.scopedRest (Ix := Unit) (Name := ℕ) (U := UR sig nD τ) (Lvl := ℕ) (Val := Elt F) spec1 c)
  | n + 1, hn => iprop((∃ r, prngReg c r) ∗ rest1 c ∗ owns (c : Thread nD τ) scM1_0 fullShare (outsAt1 V c n hn).2.2.1 ∗ owns (c : Thread nD τ) scM1_1 fullShare (outsAt1 V c n hn).2.2.2)

theorem PhiS1_zero (c : Dev nD) (n : ℕ) (h : n ≤ cfg1.N) (hz : n = 0) :
    PhiS1 V c n h = iprop((∃ r, prngReg c r) ∗ Pipeline.scopedRest (Ix := Unit) (Name := ℕ) (U := UR sig nD τ) (Lvl := ℕ) (Val := Elt F) spec1 c) := by
  subst hz; rfl

theorem PhiS1_succ (c : Dev nD) (n : ℕ) (hn : n < cfg1.N) :
    PhiS1 V c (n + 1) hn = iprop((∃ r, prngReg c r) ∗ rest1 c ∗ owns (c : Thread nD τ) scM1_0 fullShare (outsAt1 V c n hn).2.2.1 ∗ owns (c : Thread nD τ) scM1_1 fullShare (outsAt1 V c n hn).2.2.2) := rfl

theorem PhiS1_pos (c : Dev nD) (n : ℕ) (h : n ≤ cfg1.N) (hz : n ≠ 0) :
    PhiS1 V c n h = iprop((∃ r, prngReg c r) ∗ rest1 c ∗ owns (c : Thread nD τ) scM1_0 fullShare (outsAt1 V c (n - 1) (by omega)).2.2.1 ∗ owns (c : Thread nD τ) scM1_1 fullShare (outsAt1 V c (n - 1) (by omega)).2.2.2) := by
  cases n with
  | zero => exact absurd rfl hz
  | succ n => rfl

/-! ## The pipeline's proof data -/

/-- The proof data of this pipeline on core `c`: the arrays as the region finds them (`V`); after the body at
    point `t` each input's buffer at its block and the outputs' at `outsAt1`; the invariant `PhiS1`; nothing owed;
    the array read through windows 0 and 1 held half and half between them, the others whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q w := if w.val = 0 then fullShare.left else if w.val = 1 then fullShare.right else fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4' (c : Dev nD) (t : Fin cfg1.N) : (dat1 V c).after 4 t = (outsAt1 V c t.val t.isLt).1 := by dsimp only [dat1]
theorem after1_5' (c : Dev nD) (t : Fin cfg1.N) : (dat1 V c).after 5 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the column block says which case the point is in;
    the invariant hands the body the accumulators at what the point before left (at anything at the first point) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · have h1 : ¬t.val % 16 = 15 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [Dat.leavesExact_idle (dat1 V c) 4 t (idleAt1_4 t h1) (noFlush1_4 t h1)]
    rw [Dat.leavesExact_idle (dat1 V c) 5 t (idleAt1_5 t h1) (noFlush1_5 t h1)]
    rw [outsAt1_A V c t h0]
    unfold sAt1_A sout1_A_0 sout1_A_1; (try dsimp only)
    by_cases hz : t.val = 0
    · rw [PhiS1_castSucc V c t, PhiS1_zero V c _ _ hz]
      iintro ⟨⟨Hg, Hsr⟩, Ho, ⟨%d0, H0⟩, ⟨%d1, H1⟩, ⟨%d2, H2⟩, ⟨%d3, H3⟩, ⟨%d4, H4⟩, ⟨%d5, H5⟩⟩
      ihave Hsr' := (scopedRest1_owns c).1 $$ Hsr
      icases Hsr' with ⟨Hr, HS0, HS1⟩
      iapply ((kernelRun1_A c (grid1.coords t) _ _ _ _ _ _ _ _ _ _ _ _ _ _ _ _ ((hcond1_0 t).mpr h0) (fun h => by have := (hcond1_1 t).mp h; omega) (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [Hg Hr HS0 HS1]
      · isplitl [Hg]; · iexact Hg
        isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _)
        unfold owns; iexists _; isplitr
        swap; · iexact HS1
        ipureintro; exact View.read_writes_of_cover _ _ _ _ _ (scover1_A_1 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS1_castSucc V c t, PhiS1_pos V c _ _ hz]
      iintro ⟨⟨Hg, Hr, HS0, HS1⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (fun h => by have := (hcond1_1 t).mp h; omega) (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [Hg Hr HS0 HS1]
      · isplitl [Hg]; · iexact Hg
        isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _)
        unfold owns; iexists _; isplitr
        swap; · iexact HS1
        ipureintro; exact View.read_writes_of_cover _ _ _ _ _ (scover1_A_1 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t h1], after1_4']
      rw [show (dat1 V c).leavesExact 5 t = owns (c : Thread nD τ) (ms1_5 t) fullShare ((dat1 V c).after 5 t) from by
        unfold Dat.leavesExact; rw [liveAt1_5 t h1], after1_5']
      rw [outsAt1_C V c t h1]
      unfold allAt1_C out1_C_4 out1_C_5 sout1_C_0 sout1_C_1 soutsAt1; (try dsimp only)
      rw [PhiS1_castSucc V c t, PhiS1_pos V c _ _ hz]
      iintro ⟨⟨Hg, Hr, HS0, HS1⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => by have := (hcond1_0 t).mp h; omega) ((hcond1_1 t).mpr h1) (iblk1 V c 0 t) (iblk1 V c 1 t) (iblk1 V c 2 t) (iblk1 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [Hg Hr HS0 HS1]
      · isplitl [Hg]; · iexact Hg
        isplitl [Hr]; · iexact Hr
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _)
        unfold owns; iexists _; isplitr
        swap; · iexact HS1
        ipureintro; exact View.read_writes_of_cover _ _ _ _ _ (scover1_C_1 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t h1) (noFlush1_4 t h1)]
      rw [Dat.leavesExact_idle (dat1 V c) 5 t (idleAt1_5 t h1) (noFlush1_5 t h1)]
      rw [outsAt1_B V c t h0 h1]
      unfold sAt1_B sout1_B_0 sout1_B_1 soutsAt1; (try dsimp only)
      rw [PhiS1_castSucc V c t, PhiS1_pos V c _ _ hz]
      iintro ⟨⟨Hg, Hr, HS0, HS1⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [Hg Hr HS0 HS1]
      · isplitl [Hg]; · iexact Hg
        isplitl [Hr]; · iexact Hr
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _)
        unfold owns; iexists _; isplitr
        swap; · iexact HS1
        ipureintro; exact View.read_writes_of_cover _ _ _ _ _ (scover1_B_1 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Φ1_in (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulators' named contents are forgotten. -/
theorem Φ1_out (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega)]
  iintro ⟨Hg, Hr, HS0, HS1⟩
  isplitl [Hg]; · iexact Hg
  iapply (scopedRest1_owns c).2
  isplitl [Hr]; · iexact Hr
  isplitl [HS0]; · iexists _; iexact HS0
  iexists _; iexact HS1

end Cert.Kernel.Hand

end
-- ==== Proof.KRun.lean ====
/- THE RUN of @main: its four segments — region 0 (the row-normalising kernel), the two reshapes, region 1 (the
   contrastive-loss kernel, whose first two windows read ONE array), the seven closing host operations — over the
   regions' proof data, from the launch to the return, ending in one theorem that states what every unscoped buffer
   holds at the end. -/
import proofs.«141171_j84284438217273_1_alg».proof.Proof.Gen.Kernel.Launch
import proofs.«141171_j84284438217273_1_alg».proof.Proof.Gen.Kernel.Skeleton
import proofs.«141171_j84284438217273_1_alg».proof.Proof.Gen.Kernel.Points
import proofs.«141171_j84284438217273_1_alg».proof.Proof.Gen.Kernel.Regions
import proofs.«141171_j84284438217273_1_alg».proof.Proof.KReg0
import proofs.«141171_j84284438217273_1_alg».proof.Proof.KReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's arrays: two windows on one array

Windows 0 and 1 of custom_call 1 both read the array the first kernel wrote: the core, which holds that buffer whole at
the full share, hands each window a half (the left and the right half of the full share) and joins the halves back
at the exit, where both still hold the entry contents (an input array is never written). -/
section Arrays1
variable (V : (c : Dev nD) → (b : Ref sig .tc) → Buf (Elt F) ((c : Thread nD τ).loc b))

/-- The shares region 1's proof data hold the windows' arrays at: the two halves of the full share for the two windows
    on the shared array, the full share for every other window. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl
theorem share1_5 (c : Dev nD) : (dat1 V c).share 5 = fullShare := rfl

/-- The pipeline's arrays, each a whole buffer, window by window at its share. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2) ∗ (((c : Thread nD τ).loc main_v2) ↦{fullShare} Fa 3)
          ∗ (((c : Thread nD τ).loc main_v3_0) ↦{fullShare} Fa 4) ∗ (((c : Thread nD τ).loc main_v3_1) ↦{fullShare} Fa 5)) := by
  unfold Dat.arrays
  rw [bigSep_W1, (arr_whole1 0).set_eq_univ, (arr_whole1 2).set_eq_univ, (arr_whole1 3).set_eq_univ,
    (arr_whole1 4).set_eq_univ, (arr_whole1 5).set_eq_univ, share1_0, share1_1, share1_2, share1_3, share1_4, share1_5]

/-- The distinct buffers behind region 1's arrays, listed. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0) ↦{fullShare} V' main_v0) ∗ (((c : Thread nD τ).loc main_v1) ↦{fullShare} V' main_v1)
          ∗ (((c : Thread nD τ).loc main_v2) ↦{fullShare} V' main_v2) ∗ (((c : Thread nD τ).loc main_v3_0) ↦{fullShare} V' main_v3_0)
          ∗ (((c : Thread nD τ).loc main_v3_1) ↦{fullShare} V' main_v3_1)) := by
  unfold Pipeline.arrBufs
  exact bigSep_eq_bigSepL_of_eq [main_v0, main_v1, main_v2, main_v3_0, main_v3_1] (by decide) (by decide) _

/-- ENTRY: the core's unscoped buffers at the entry contents are region 1's arrays at the proof data's entry contents —
    the shared array split between its two windows along the share — and the unscoped rest. -/
theorem arrays1_of_unscopedBufs (c : Dev nD) :
    (unscopedBufs c (V c) : sProp 𝕄) ⊢ iprop((dat1 V c).arrays ((dat1 V c).arrAt · 0) ∗ Pipeline.unscopedRest spec1 c (V c)) := by
  rw [show (unscopedBufs c (V c) : sProp 𝕄) = iprop(Pipeline.arrBufs spec1 c (V c) ∗ Pipeline.unscopedRest spec1 c (V c))
    from Pipeline.unscopedBufs_split₀ cfgs 1 winFacts₀1.arr_unscoped c (V c)]
  refine sep_mono ?_ .rfl
  rw [arrBufs1_eq, arrays1_eq]
  rw [show (dat1 V c).arrAt 0 0 = V c main_v0 from A_eq1 V c 0, show (dat1 V c).arrAt 1 0 = V c main_v0 from A_eq1 V c 1,
    show (dat1 V c).arrAt 2 0 = V c main_v1 from A_eq1 V c 2, show (dat1 V c).arrAt 3 0 = V c main_v2 from A_eq1 V c 3,
    show (dat1 V c).arrAt 4 0 = V c main_v3_0 from A_eq1 V c 4, show (dat1 V c).arrAt 5 0 = V c main_v3_1 from A_eq1 V c 5]
  iintro ⟨H0, H1, H2, H3, H4⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H2]; · iexact H2
  isplitl [H3]; · iexact H3
  iexact H4

/-- EXIT: region 1's arrays at contents Fa — which are V' at each window's array — and the unscoped rest as entered
    are the core's unscoped buffers at V', which agrees with the entry contents off the arrays. -/
theorem unscopedBufs_of_arrays1 (c : Dev nD) (V' : (b : Ref sig .tc) → Buf (Elt F) ((c : Thread nD τ).loc b))
    (Fa : (w : Fin cfg1.W) → Buf (Elt F) ((cfg1.win w).arr.view.loc (c : Thread nD τ)))
    (hF : ∀ w, Fa w = V' (Pipeline.arrRef spec1 w))
    (hrest : ∀ b, b ∉ Finset.univ.image (Pipeline.arrRef spec1) → V' b = V c b) :
    (iprop((dat1 V c).arrays Fa ∗ Pipeline.unscopedRest spec1 c (V c)) : sProp 𝕄) ⊢ unscopedBufs c V' := by
  rw [show (unscopedBufs c V' : sProp 𝕄) = iprop(Pipeline.arrBufs spec1 c V' ∗ Pipeline.unscopedRest spec1 c V')
    from Pipeline.unscopedBufs_split₀ cfgs 1 winFacts₀1.arr_unscoped c V']
  refine sep_mono ?_ (Entails.of_eq ?_)
  · rw [arrBufs1_eq, arrays1_eq, hF 0, hF 1, hF 2, hF 3, hF 4, hF 5]
    iintro ⟨H0a, H0b, H1, H2, H3, H4⟩
    isplitl [H0a H0b]
    · iapply (pointsTo_share (PosShare.mem_left_op_right fullShare)).2
      isplitl [H0a]; · iexact H0a
      iexact H0b
    isplitl [H1]; · iexact H1
    isplitl [H2]; · iexact H2
    isplitl [H3]; · iexact H3
    iexact H4
  · unfold Pipeline.unscopedRest
    exact bigSep_congr fun b hb => by rw [hrest b (Finset.mem_sdiff.mp hb).2]

end Arrays1

/-! # THE RUN: @main's segments from the launch to the return

## The buffer contents at each segment boundary: a fold through @main -/

variable (m : (ℓ : Loc nD τ sig) → Buf (Elt F) ℓ) (ρ : Dev nD → PrngReg)

/-- Core c's buffers at launch (region 0's entry: no host operation precedes it). -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the input as entered, the output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- The first kernel's output array after region 0 is what its pipeline leaves there. -/
theorem W1_main_v0 (c : Dev nD) : W1 m ρ c (Proc.devRef .tc main_v0) = (dat0 (V0 m ρ) c).arrAt 1 cfg0.N :=
  W1_arr m ρ c 1

/-- After the two reshapes (region 1's entry). -/
abbrev W2 : Dev nD → Valuation τ sig (Elt F) := fun c => StableHlo.after hostOps1 (W1 m ρ c)
/-- The same read at the TensorCore's references (what region 1's proof data take). -/
abbrev V2 : (c : Dev nD) → (b : Ref sig .tc) → Buf (Elt F) ((c : Thread nD τ).loc b) := fun c b => W2 m ρ c b
/-- At region 1's exit: its two output arrays at what the pipeline leaves, every other buffer as entered (its four
    input windows write nothing). -/
def W3 (c : Dev nD) : Valuation τ sig (Elt F) :=
  Function.update (Function.update (W2 m ρ c) (Proc.devRef .tc main_v3_0) ((dat1 (V2 m ρ) c).arrAt 4 cfg1.N))
    (Proc.devRef .tc main_v3_1) ((dat1 (V2 m ρ) c).arrAt 5 cfg1.N)
theorem W3_main_v3_1 (c : Dev nD) : W3 m ρ c (Proc.devRef .tc main_v3_1) = (dat1 (V2 m ρ) c).arrAt 5 cfg1.N := by
  unfold W3; exact Function.update_self ..
theorem W3_main_v3_0 (c : Dev nD) : W3 m ρ c (Proc.devRef .tc main_v3_0) = (dat1 (V2 m ρ) c).arrAt 4 cfg1.N := by
  unfold W3
  rw [Function.update_of_ne (StableHlo.devRef_ne_of_ne (by decide))]
  exact Function.update_self ..
theorem W3_of_ne (c : Dev nD) (b : Ref sig .tc) (h0 : b ≠ main_v3_0) (h1 : b ≠ main_v3_1) :
    W3 m ρ c (Proc.devRef .tc b) = W2 m ρ c (Proc.devRef .tc b) := by
  unfold W3
  rw [Function.update_of_ne (StableHlo.devRef_ne_of_ne h1), Function.update_of_ne (StableHlo.devRef_ne_of_ne h0)]
/-- The same read at the TensorCore's references (region 1's exit contents). -/
abbrev V3 : (c : Dev nD) → (b : Ref sig .tc) → Buf (Elt F) ((c : Thread nD τ).loc b) := fun c b => W3 m ρ c b
/-- At region 1's exit each window's array holds what the pipeline leaves there — an input's the entry contents — and
    every other buffer what it held at entry. -/
theorem hF1 (c : Dev nD) (w : Fin cfg1.W) : (dat1 (V2 m ρ) c).arrAt w cfg1.N = V3 m ρ c (Pipeline.arrRef spec1 w) := by
  have hin (w : Fin cfg1.W) (hw : (cfg1.win w).isOut = false) (h0 : Pipeline.arrRef spec1 w ≠ main_v3_0) (h1 : Pipeline.arrRef spec1 w ≠ main_v3_1) :
      (dat1 (V2 m ρ) c).arrAt w cfg1.N = V3 m ρ c (Pipeline.arrRef spec1 w) :=
    (((dat1 (V2 m ρ) c).arrAt_in w hw _).trans (A_eq1 (V2 m ρ) c w)).trans (W3_of_ne m ρ c _ h0 h1).symm
  match w with
  | ⟨0, _⟩ => exact hin 0 rfl (by decide) (by decide)
  | ⟨1, _⟩ => exact hin 1 rfl (by decide) (by decide)
  | ⟨2, _⟩ => exact hin 2 rfl (by decide) (by decide)
  | ⟨3, _⟩ => exact hin 3 rfl (by decide) (by decide)
  | ⟨4, _⟩ => exact (W3_main_v3_0 m ρ c).symm
  | ⟨5, _⟩ => exact (W3_main_v3_1 m ρ c).symm
theorem hrest1 (c : Dev nD) : ∀ b, b ∉ Finset.univ.image (Pipeline.arrRef spec1) → V3 m ρ c b = V2 m ρ c b :=
  fun b hb => W3_of_ne m ρ c b (fun e => hb (Finset.mem_image.mpr ⟨4, Finset.mem_univ _, e.symm⟩))
    (fun e => hb (Finset.mem_image.mpr ⟨5, Finset.mem_univ _, e.symm⟩))

/-- After the seven closing host operations (what the launch reads at the end). -/
abbrev W4 : Dev nD → Valuation τ sig (Elt F) := fun c => StableHlo.after hostOps2 (W3 m ρ c)
/-- The same read at the TensorCore's references. -/
abbrev V4 : (c : Dev nD) → (b : Ref sig .tc) → Buf (Elt F) ((c : Thread nD τ).loc b) := fun c b => W4 m ρ c b

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide) (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide) (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

/-! ## The proof data family and the thread state -/

/-- Every pipeline's proof data, each at its region's entry contents — a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each region's
    invariant takes it in and gives it back) and its owes, at nothing. -/
abbrev R (c : Dev nD) : sProp 𝕄 := iprop((∃ r, prngReg c r) ∗ ∃ W, owes (c : Thread nD τ) (0 : CellTallies nD τ sig Unit) W)
/-- A host stretch as a segment over the unscoped references from the contents W, R riding along: it ends with those
    references at the contents after the stretch, the next boundary's by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 (custom_call 0) over the thread state: entered from every unscoped buffer at the launch contents, left at
    W1. Its arrays split out of the unscoped buffers and put back at the exit contents; the generator register into
    the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's proof data owe nothing at any point. -/
theorem owed1 (c : Dev nD) (t : Fin (cfg1.N + 1)) : (dat1 (V2 m ρ) c).owed t = 0 := rfl

set_option backward.isDefEq.respectTransparency.types false in
/-- REGION 1 (custom_call 1) over the thread state: entered from every unscoped buffer at W2, left at W3. Its arrays
    split out of the unscoped buffers — the array two windows share along the share — and put back at the exit
    contents; the generator register and the scoped rest (the two scratch buffers among it) into the region's
    invariant and out; nothing owed; no semaphore of the kernel's own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun c t => owed1 m ρ c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays1_of_unscopedBufs (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed1 m ρ c 0]
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (Φ1_in (V2 m ρ) c)
    isplitl [Hp]; · iexact Hp
    iexact Hr
  hout c := by
    rw [Pipeline.ownSems0_none, show (pdats m ρ 1 c).Φ (Fin.last _) = (dat1 (V2 m ρ) c).Φ (Fin.last cfg1.N) from rfl]
    refine (Φ1_out (V2 m ρ) c).trans ?_
    iintro ⟨Hp, Hr⟩
    isplitl [Hp]; · iexact Hp
    isplitr; · iempintro
    iexact Hr
  hexit c := by
    have hjoin := unscopedBufs_of_arrays1 (V2 m ρ) c (V3 m ρ c) ((dat1 (V2 m ρ) c).arrAt · cfg1.N) (hF1 m ρ c) (hrest1 m ρ c)
    rw [Pipeline.unscopedBufs_held] at hjoin
    rw [show (pdats m ρ 1 c).arrays ((pdats m ρ 1 c).arrAt · (Pipeline.pin (pcfgs (F := F)) adm 1).N)
      = (dat1 (V2 m ρ) c).arrays ((dat1 (V2 m ρ) c).arrAt · cfg1.N) from rfl]
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    rw [show (pdats m ρ 1 c).owed (Fin.last _) = 0 from owed1 m ρ c _]
    icases HO with ⟨%W, -, HO⟩; iexists W; iexact HO

/-! ## @main as segments, and the launch -/

/-- @main's 4 segments in order: a region per pallas_call, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main IS the run of the segments: its chain of items, then the segments' run against that chain by the kernel's
    definitional check. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state holds, in every unscoped buffer of every core, the
    last boundary's contents W4. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      show iprop(StableHlo.held (c : Thread nD τ) (Pipeline.ucRefs τ sig) (W4 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- info: 'Cert.Kernel.Hand.run_main' depends on axioms: [propext, Classical.choice, Quot.sound] -/
#guard_msgs in #print axioms run_main

end Cert.Kernel.Hand

end
-- ==== Proof.KIReg0.lean ====
/- REGION 0 of @main (custom_call 0, the row-normalising kernel), at the contents `V` of the TensorCore's
   buffers when the region is entered: each window's block at a point, what the body leaves in the output
   window's buffer, the body's triple, the pipeline's proof data and its body obligation. -/
import proofs.«141171_j84284438217273_1_alg».proof.Proof.Gen.KernelIdeal.Launch
import proofs.«141171_j84284438217273_1_alg».proof.Proof.Gen.KernelIdeal.Skeleton
import proofs.«141171_j84284438217273_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x128 := Rect.unit (s := S1024x128) ![0, 0] S1024x128.size inb_S1024x128_S1024x128_0_0

/-! ## What the body leaves in the output window's buffer -/

/-- Window 1's staging buffer after the body, from the input window's block: its one store as pieces. -/
def out0_1 (x0 : Vec F S1024x128 .f32) : Vec F S1024x128 .bf16 :=
  View.canon [⟨r0_0, k0_pay1 (View.ld x0 r0_0)⟩]

/-- Its store tiles the buffer, so it covers it. -/
theorem cover0_1 (p0 : Vec F S1024x128 .bf16) (y : S1024x128.Idx) :
    ∃ pc ∈ ([⟨r0_0, p0⟩] : List (View.Piece (Elt F) S1024x128 .bf16)), y ∈ pc.1.set :=
  View.cover_of_tiled [⟨r0_0, p0⟩] S1024x128.size (by rfl) y

/-! ## The body's triple -/

set_option maxHeartbeats 1000000 in
/-- The kernel body on whole staging memrefs, the input's at read contents `x0` and the output's at anything, runs to
    the continuation holding the input's as it was and the output's at `out0_1` of the input's. The output's buffer is
    also loaded before the store; the value loaded is not used. -/
theorem sound_kernel0 (c : Dev nD) (E : Set ℕ) (i : grid0.Coords) (arg1 : Memref sig .tc .vmem S1024x128 .f32) (harg1 : arg1.IsWhole) (arg2 : Memref sig .tc .vmem S1024x128 .bf16) (harg2 : arg2.IsWhole)
    (x0 : Vec F S1024x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` the input's buffer at its block and the output's at `out0_1` of the input block; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block (`before0_0`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIReg1Runs.lean ====
/- Region 1 (the second pallas_call, two scratch accumulators carried over a 16x16 grid): what the three
   cases' runs share — the windows' blocks at the region's entry contents, the branch conditions in closed form,
   where the two output windows are idle, the staging and scratch memrefs. -/
import proofs.«141171_j84284438217273_1_alg».proof.Proof.Gen.KernelIdeal.Launch
import proofs.«141171_j84284438217273_1_alg».proof.Proof.Gen.KernelIdeal.Skeleton
import proofs.«141171_j84284438217273_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the first conditional (the column block is the first: zero both accumulators), from the
    grid coordinates. -/
abbrev cond1_0 (i : grid1.Coords) : Prop := (Scalar.cmpi .ne (Scalar.extui (Scalar.cmpi .eq (BitVec.ofNat 32 (i 1).val) 0#32)) 0#32) = 1#1
/-- It holds exactly at the points whose column block is 0. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the second conditional (the column block is the last: read the accumulators out). -/
abbrev cond1_1 (i : grid1.Coords) : Prop := k1_cond2 i = 1#1
/-- It holds exactly at the points whose column block is 15. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last column block the two outputs are idle and not written back. -/
theorem idleAt1_4 : ∀ t : Fin cfg1.N, ¬t.val % 16 = 15 → cfg1.idle 4 (grid1.coords t) = true :=
  (by decide +kernel : ∀ t : Fin grid1.N, ¬t.val % 16 = 15 → idle1 4 (grid1.coords t) = true)
theorem idleAt1_5 : ∀ t : Fin cfg1.N, ¬t.val % 16 = 15 → cfg1.idle 5 (grid1.coords t) = true :=
  (by decide +kernel : ∀ t : Fin grid1.N, ¬t.val % 16 = 15 → idle1 5 (grid1.coords t) = true)
theorem noFlush1_4 (t : Fin cfg1.N) (h : ¬t.val % 16 = 15) : (cfg1.win 4).flush t = false := by
  cases hf : (cfg1.win 4).flush t with
  | false => rfl
  | true => exact absurd ((flush1_4 t).mp hf) h
theorem noFlush1_5 (t : Fin cfg1.N) (h : ¬t.val % 16 = 15) : (cfg1.win 5).flush t = false := by
  cases hf : (cfg1.win 5).flush t with
  | false => rfl
  | true => exact absurd ((flush1_5 t).mp hf) h
/-- At the last column block they are live. -/
theorem liveAt1_4 : ∀ t : Fin cfg1.N, t.val % 16 = 15 → cfg1.idle 4 (grid1.coords t) = false :=
  (by decide +kernel : ∀ t : Fin grid1.N, t.val % 16 = 15 → idle1 4 (grid1.coords t) = false)
theorem liveAt1_5 : ∀ t : Fin cfg1.N, t.val % 16 = 15 → cfg1.idle 5 (grid1.coords t) = false :=
  (by decide +kernel : ∀ t : Fin grid1.N, t.val % 16 = 15 → idle1 5 (grid1.coords t) = false)

/-! ## The memrefs the body is called on -/

/-- One staging buffer of each output window, through which its contents are stated (the choice does not matter). -/
abbrev VO1_4 : View sig .tc .vmem S512x1 .f32 := (Memref.whole cc1_stg4_0 : Memref sig .tc .vmem S512x1 .f32).view
abbrev VO1_5 : View sig .tc .vmem S512x1 .f32 := (Memref.whole cc1_stg5_0 : Memref sig .tc .vmem S512x1 .f32).view
/-- Each window's current staging memref at point `t`, spelled as the pipeline passes it, and its wholeness. -/
abbrev ms1_0 (t : Fin cfg1.N) : Memref sig .tc .vmem S512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
/-- The two accumulators: whole scoped buffers of the kernel's own, passed beside the windows. -/
abbrev scM1_0 : Memref sig .tc .vmem S512x1 .f32 := Memref.whole cc1_scratch0
abbrev scM1_1 : Memref sig .tc .vmem S512x1 .f32 := Memref.whole cc1_scratch1
/-- The accumulators as views: what they hold is stated through these. -/
abbrev VS1_0 : View sig .tc .vmem S512x1 .f32 := scM1_0.view
abbrev VS1_1 : View sig .tc .vmem S512x1 .f32 := scM1_1.view

/-- The scoped buffers of the core that are neither a staging buffer of this pallas_call nor one of its two
    accumulators (the first pallas_call's staging buffers), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The scoped rest of this pallas_call with the two accumulators as memrefs owned at some contents. -/
theorem scopedRest1_owns (c : Dev nD) :
    (Pipeline.scopedRest (Ix := Unit) (Name := ℕ) (U := UR sig nD τ) (Lvl := ℕ) (Val := Elt F) spec1 c : sProp 𝕄)
      ⊣⊢ iprop(rest1 c ∗ (∃ d, owns (c : Thread nD τ) scM1_0 fullShare d) ∗ (∃ d, owns (c : Thread nD τ) scM1_1 fullShare d)) := by
  rw [scopedRest1_eq]; unfold rest1; simp only [scM1_0, scM1_1, owns_whole]
  constructor
  · iintro ⟨H0, H1, H2, H3, H4, H5⟩
    isplitl [H0 H1 H2 H3]
    · isplitl [H0]; · iexact H0
      isplitl [H1]; · iexact H1
      isplitl [H2]; · iexact H2
      iexact H3
    isplitl [H4]; · iexact H4
    iexact H5
  · iintro ⟨⟨H0, H1, H2, H3⟩, H4, H5⟩
    isplitl [H0]; · iexact H0
    isplitl [H1]; · iexact H1
    isplitl [H2]; · iexact H2
    isplitl [H3]; · iexact H3
    isplitl [H4]; · iexact H4
    iexact H5

end Cert.KernelIdeal.Hand

end
-- ==== Proof.KIReg1RunA.lean ====
/- Region 1, case A (the column block is the first: both accumulators are zeroed, then this block's row sums added; the two outputs are left untouched): the whole-body run. -/
import proofs.«141171_j84284438217273_1_alg».proof.Proof.KIReg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the accumulators, as pieces (last first), in case A
    (the column block is the first: both accumulators are zeroed, then this block's row sums added; the two outputs are left untouched),
    with the proof that on whole memrefs — the inputs' at their contents, the outputs' at contents handed back untouched,
    the accumulators at anything — the body runs to the continuation holding the inputs' as they were and
    each stored buffer with its pieces written. -/
noncomputable def kernelRun1_A (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x128 .bf16) (x1 : Vec F S512x128 .bf16) (x2 : Vec F S512x1 .i32) (x3 : Vec F S1x512 .i32) :
    Σ' (LS0 : List (View.Piece (Elt F) S512x1 .f32)), { LS1 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__infonce_kernel i arg2 harg2 arg3 harg3 arg4 harg4 arg5 harg5 arg6 harg6 arg7 harg7 arg8 harg8 arg9 harg9) K } := by
  refine ⟨?_, ?_, fun xi4 xi5 E K => ?run⟩
  case run =>
    simp only [cc1__infonce_kernel_eq_skeleton]; unfold cc1__infonce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KIReg1RunB.lean ====
/- Region 1, case B (a column block strictly between the first and the last: this block's row sums are added onto both accumulators; the two outputs are left untouched): the whole-body run. -/
import proofs.«141171_j84284438217273_1_alg».proof.Proof.KIReg1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the accumulators, as pieces (last first), in case B
    (a column block strictly between the first and the last: this block's row sums are added onto both accumulators; the two outputs are left untouched),
    with the proof that on whole memrefs — the inputs' at their contents, the outputs' at contents handed back untouched,
    the accumulators at what the point before left — the body runs to the continuation holding the inputs' as they were and
    each stored buffer with its pieces written. -/
noncomputable def kernelRun1_B (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x128 .bf16) (x1 : Vec F S512x128 .bf16) (x2 : Vec F S512x1 .i32) (x3 : Vec F S1x512 .i32) (xs0 : Vec F S512x1 .f32) (xs1 : Vec F S512x1 .f32) :
    Σ' (LS0 : List (View.Piece (Elt F) S512x1 .f32)), { LS1 : List (View.Piece (Elt F) S512x1 .f32) //
      ∀ (xi4 xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__infonce_kernel i arg2 harg2 arg3 harg3 arg4 harg4 arg5 harg5 arg6 harg6 arg7 harg7 arg8 harg8 arg9 harg9) K } := by
  refine ⟨?_, ?_, fun xi4 xi5 E K => ?run⟩
  case run =>
    simp only [cc1__infonce_kernel_eq_skeleton]; unfold cc1__infonce_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KIReg1RunC.lean ====
/- Region 1, case C (the column block is the last: this block's row sums are added onto both accumulators, which are then read out into the two outputs): the whole-body run. -/
import proofs.«141171_j84284438217273_1_alg».proof.Proof.KIReg1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the accumulators and in the two outputs' staging memrefs, as pieces (last first), in case C
    (the column block is the last: this block's row sums are added onto both accumulators, which are then read out into the two outputs),
    with the proof that on whole memrefs — the inputs' at their contents, the outputs' at anything,
    the accumulators at what the point before left — the body runs to the continuation holding the inputs' as they were and
    each stored buffer with its pieces written. -/
noncomputable def kernelRun1_C (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) :
    Σ' (L4 : List (View.Piece (Elt F) S512x1 .f32)) (L5 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__infonce_kernel i arg2 harg2 arg3 harg3 arg4 harg4 arg5 harg5 arg6 harg6 arg7 harg7 arg8 harg8 arg9 harg9) K } := by
  refine ⟨?_, ?_, ?_, ?_, fun E K => ?run⟩
  case run =>
    simp only [cc1__infonce_kernel_eq_skeleton]; unfold cc1__infonce_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Hand

end
-- ==== Proof.KIReg1.lean ====
/- Region 1 (the second pallas_call): what the two accumulators and the two outputs hold point by point, the
   proof data at the region's entry contents `V`, and the body obligation. -/
import proofs.«141171_j84284438217273_1_alg».proof.Proof.KIReg1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Case A's pieces for the first accumulator cover it. -/
theorem scover1_A_0 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x128 .bf16) (x1 : Vec F S512x128 .bf16) (x2 : Vec F S512x1 .i32) (x3 : Vec F S1x512 .i32) (y : S512x1.Idx) :
    ∃ pc ∈ (kernelRun1_A c i arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg2 harg2 arg3 harg3 arg4 harg4 arg5 harg5 arg6 harg6 arg7 harg7 arg8 harg8 arg9 harg9 hc0 hc1 x0 x1 x2 x3).1 S512x1.size (by sl_kernel_rfl) y

/-- What case A leaves in the first accumulator: its pieces read back over junk. -/
def sout1_A_0 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x128 .bf16) (x1 : Vec F S512x128 .bf16) (x2 : Vec F S512x1 .i32) (x3 : Vec F S1x512 .i32) : Vec F S512x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).1)

/-- Case A's pieces for the second accumulator cover it. -/
theorem scover1_A_1 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x128 .bf16) (x1 : Vec F S512x128 .bf16) (x2 : Vec F S512x1 .i32) (x3 : Vec F S1x512 .i32) (y : S512x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S512x1.size (by sl_kernel_rfl) y

/-- What case A leaves in the second accumulator: its pieces read back over junk. -/
def sout1_A_1 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x128 .bf16) (x1 : Vec F S512x128 .bf16) (x2 : Vec F S512x1 .i32) (x3 : Vec F S1x512 .i32) : Vec F S512x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.1)

/-- Case B's pieces for the first accumulator cover it. -/
theorem scover1_B_0 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x128 .bf16) (x1 : Vec F S512x128 .bf16) (x2 : Vec F S512x1 .i32) (x3 : Vec F S1x512 .i32) (xs0 : Vec F S512x1 .f32) (xs1 : Vec F S512x1 .f32) (y : S512x1.Idx) :
    ∃ pc ∈ (kernelRun1_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).1 S512x1.size (by sl_kernel_rfl) y

/-- What case B leaves in the first accumulator: its pieces read back over junk. -/
def sout1_B_0 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x128 .bf16) (x1 : Vec F S512x128 .bf16) (x2 : Vec F S512x1 .i32) (x3 : Vec F S1x512 .i32) (xs0 : Vec F S512x1 .f32) (xs1 : Vec F S512x1 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1).1)

/-- Case B's pieces for the second accumulator cover it. -/
theorem scover1_B_1 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x128 .bf16) (x1 : Vec F S512x128 .bf16) (x2 : Vec F S512x1 .i32) (x3 : Vec F S1x512 .i32) (xs0 : Vec F S512x1 .f32) (xs1 : Vec F S512x1 .f32) (y : S512x1.Idx) :
    ∃ pc ∈ (kernelRun1_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).2.1 S512x1.size (by sl_kernel_rfl) y

/-- What case B leaves in the second accumulator: its pieces read back over junk. -/
def sout1_B_1 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x128 .bf16) (x1 : Vec F S512x128 .bf16) (x2 : Vec F S512x1 .i32) (x3 : Vec F S1x512 .i32) (xs0 : Vec F S512x1 .f32) (xs1 : Vec F S512x1 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1).2.1)

/-- Case C's pieces for output window 4's staging buffer cover it. -/
theorem cover1_C_4 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).1 S512x1.size (by sl_kernel_rfl) y

/-- What case C leaves in output window 4's staging buffer: its pieces read back over junk. -/
def out1_C_4 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) : Vec F S512x1 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1).1)

/-- Case C's pieces for output window 5's staging buffer cover it. -/
theorem cover1_C_5 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.1 S512x1.size (by sl_kernel_rfl) y

/-- What case C leaves in output window 5's staging buffer: its pieces read back over junk. -/
def out1_C_5 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) : Vec F S512x1 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 xs0 xs1).2.1)

/-- Case C's pieces for the first accumulator cover it. -/
theorem scover1_C_0 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.1 S512x1.size (by sl_kernel_rfl) y

/-- What case C leaves in the first accumulator: its pieces read back over junk. -/
def sout1_C_0 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1).2.2.1)

/-- Case C's pieces for the second accumulator cover it. -/
theorem scover1_C_1 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) (y : S512x1.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.2.1 S512x1.size (by sl_kernel_rfl) y

/-- What case C leaves in the second accumulator: its pieces read back over junk. -/
def sout1_C_1 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1).2.2.2.1)

/-! ## What the outputs and the accumulators hold after each point -/

/-- A placeholder for an output window's buffer at a point that stores nothing into it (nothing consults it: at
    such a point the window is neither written back nor read at the next point). -/
def junk1_4 : Vec F S512x1 .f32 := VO1_4.read (Elt F) (VO1_4.writes (Elt F) VO1_4.junk [])
def junk1_5 : Vec F S512x1 .f32 := VO1_5.read (Elt F) (VO1_5.writes (Elt F) VO1_5.junk [])

/-- The accumulators after a point of case A (column block 0): zeroed, then this block's row sums added. -/
def sAt1_A (c : Dev nD) (t : Fin cfg1.N) (h0 : t.val % 16 = 0) : Vec F S512x1 .f32 × Vec F S512x1 .f32 :=
  (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => by have := (hcond1_1 t).mp h; omega) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => by have := (hcond1_1 t).mp h; omega) (iblk1 V c 0 t) (iblk1 V c 1 t) (iblk1 V c 2 t) (iblk1 V c 3 t))

/-- The accumulators after a point of case B (0 < column block < 15), over what the point before left (`s`). -/
def sAt1_B (c : Dev nD) (t : Fin cfg1.N) (h0 : ¬t.val % 16 = 0) (h1 : ¬t.val % 16 = 15) (s : Vec F S512x1 .f32 × Vec F S512x1 .f32) : Vec F S512x1 .f32 × Vec F S512x1 .f32 :=
  (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) s.1 s.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) s.1 s.2)

/-- The two outputs and the accumulators after a point of case C (column block 15), over what the point before left. -/
def allAt1_C (c : Dev nD) (t : Fin cfg1.N) (h1 : t.val % 16 = 15) (s : Vec F S512x1 .f32 × Vec F S512x1 .f32) : Vec F S512x1 .f32 × Vec F S512x1 .f32 × Vec F S512x1 .f32 × Vec F S512x1 .f32 :=
  (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => by have := (hcond1_0 t).mp h; omega) ((hcond1_1 t).mpr h1) (iblk1 V c 0 t) (iblk1 V c 1 t) (iblk1 V c 2 t) (iblk1 V c 3 t) s.1 s.2,
   out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => by have := (hcond1_0 t).mp h; omega) ((hcond1_1 t).mpr h1) (iblk1 V c 0 t) (iblk1 V c 1 t) (iblk1 V c 2 t) (iblk1 V c 3 t) s.1 s.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => by have := (hcond1_0 t).mp h; omega) ((hcond1_1 t).mpr h1) (iblk1 V c 0 t) (iblk1 V c 1 t) (iblk1 V c 2 t) (iblk1 V c 3 t) s.1 s.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => by have := (hcond1_0 t).mp h; omega) ((hcond1_1 t).mpr h1) (iblk1 V c 0 t) (iblk1 V c 1 t) (iblk1 V c 2 t) (iblk1 V c 3 t) s.1 s.2)

/-- THE ACCUMULATION. What the two outputs' staging buffers and the two accumulators hold after the body at position
    `n` (output 4, output 5, accumulator 0, accumulator 1): the case the column block selects, run at the point's
    memrefs and input blocks, the accumulators at what position `n - 1` left. -/
def outsAt1 (c : Dev nD) : (n : ℕ) → n < cfg1.N → Vec F S512x1 .f32 × Vec F S512x1 .f32 × Vec F S512x1 .f32 × Vec F S512x1 .f32
  | 0, hn => (junk1_4, junk1_5, sAt1_A V c ⟨0, hn⟩ (Nat.zero_mod 16))
  | n + 1, hn =>
    if h0 : (n + 1) % 16 = 0 then (junk1_4, junk1_5, sAt1_A V c ⟨n + 1, hn⟩ h0)
    else if h1 : (n + 1) % 16 = 15 then allAt1_C V c ⟨n + 1, hn⟩ h1 (outsAt1 c n (Nat.lt_of_succ_lt hn)).2.2
    else (junk1_4, junk1_5, sAt1_B V c ⟨n + 1, hn⟩ h0 h1 (outsAt1 c n (Nat.lt_of_succ_lt hn)).2.2)

/-- What the accumulators hold after position `n`. -/
def soutsAt1 (c : Dev nD) (n : ℕ) (hn : n < cfg1.N) : Vec F S512x1 .f32 × Vec F S512x1 .f32 := (outsAt1 V c n hn).2.2

/-- `outsAt1` at a point of case A. -/
theorem outsAt1_A (c : Dev nD) (t : Fin cfg1.N) (h0 : t.val % 16 = 0) :
    outsAt1 V c t.val t.isLt = (junk1_4, junk1_5, sAt1_A V c t h0) := by
  obtain ⟨n, hn⟩ := t
  cases n with
  | zero => exact rfl
  | succ n => exact (dif_pos h0).trans rfl

/-- `outsAt1` at a point of case B: over what the point before left. -/
theorem outsAt1_B (c : Dev nD) (t : Fin cfg1.N) (h0 : ¬t.val % 16 = 0) (h1 : ¬t.val % 16 = 15) :
    outsAt1 V c t.val t.isLt = (junk1_4, junk1_5, sAt1_B V c t h0 h1 (soutsAt1 V c (t.val - 1) (Nat.lt_of_le_of_lt (Nat.sub_le _ _) t.isLt))) := by
  obtain ⟨n, hn⟩ := t
  cases n with
  | zero => exact absurd (Nat.zero_mod _) h0
  | succ n => exact (dif_neg h0).trans ((dif_neg h1).trans rfl)

/-- `outsAt1` at a point of case C: over what the point before left. -/
theorem outsAt1_C (c : Dev nD) (t : Fin cfg1.N) (h1 : t.val % 16 = 15) :
    outsAt1 V c t.val t.isLt = allAt1_C V c t h1 (soutsAt1 V c (t.val - 1) (Nat.lt_of_le_of_lt (Nat.sub_le _ _) t.isLt)) := by
  obtain ⟨n, hn⟩ := t
  cases n with
  | zero => exfalso; dsimp only at h1; omega
  | succ n => exact (dif_neg (by dsimp only at h1; omega)).trans ((dif_pos h1).trans rfl)

/-! ## The region invariant -/

/-- The region invariant before position `n`: before the first point the generator register at some state and the
    scoped rest (both accumulators at anything); afterwards the same with each accumulator at what the point before
    left in it. -/
def PhiS1 (c : Dev nD) : (n : ℕ) → n ≤ cfg1.N → sProp 𝕄
  | 0, _ => iprop((∃ r, prngReg c r) ∗ Pipeline.scopedRest (Ix := Unit) (Name := ℕ) (U := UR sig nD τ) (Lvl := ℕ) (Val := Elt F) spec1 c)
  | n + 1, hn => iprop((∃ r, prngReg c r) ∗ rest1 c ∗ owns (c : Thread nD τ) scM1_0 fullShare (outsAt1 V c n hn).2.2.1 ∗ owns (c : Thread nD τ) scM1_1 fullShare (outsAt1 V c n hn).2.2.2)

theorem PhiS1_zero (c : Dev nD) (n : ℕ) (h : n ≤ cfg1.N) (hz : n = 0) :
    PhiS1 V c n h = iprop((∃ r, prngReg c r) ∗ Pipeline.scopedRest (Ix := Unit) (Name := ℕ) (U := UR sig nD τ) (Lvl := ℕ) (Val := Elt F) spec1 c) := by
  subst hz; rfl

theorem PhiS1_succ (c : Dev nD) (n : ℕ) (hn : n < cfg1.N) :
    PhiS1 V c (n + 1) hn = iprop((∃ r, prngReg c r) ∗ rest1 c ∗ owns (c : Thread nD τ) scM1_0 fullShare (outsAt1 V c n hn).2.2.1 ∗ owns (c : Thread nD τ) scM1_1 fullShare (outsAt1 V c n hn).2.2.2) := rfl

theorem PhiS1_pos (c : Dev nD) (n : ℕ) (h : n ≤ cfg1.N) (hz : n ≠ 0) :
    PhiS1 V c n h = iprop((∃ r, prngReg c r) ∗ rest1 c ∗ owns (c : Thread nD τ) scM1_0 fullShare (outsAt1 V c (n - 1) (by omega)).2.2.1 ∗ owns (c : Thread nD τ) scM1_1 fullShare (outsAt1 V c (n - 1) (by omega)).2.2.2) := by
  cases n with
  | zero => exact absurd rfl hz
  | succ n => rfl

/-! ## The pipeline's proof data -/

/-- The proof data of this pipeline on core `c`: the arrays as the region finds them (`V`); after the body at
    point `t` each input's buffer at its block and the outputs' at `outsAt1`; the invariant `PhiS1`; nothing owed;
    the array read through windows 0 and 1 held half and half between them, the others whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q w := if w.val = 0 then fullShare.left else if w.val = 1 then fullShare.right else fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4' (c : Dev nD) (t : Fin cfg1.N) : (dat1 V c).after 4 t = (outsAt1 V c t.val t.isLt).1 := by dsimp only [dat1]
theorem after1_5' (c : Dev nD) (t : Fin cfg1.N) : (dat1 V c).after 5 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the column block says which case the point is in;
    the invariant hands the body the accumulators at what the point before left (at anything at the first point) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · have h1 : ¬t.val % 16 = 15 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [Dat.leavesExact_idle (dat1 V c) 4 t (idleAt1_4 t h1) (noFlush1_4 t h1)]
    rw [Dat.leavesExact_idle (dat1 V c) 5 t (idleAt1_5 t h1) (noFlush1_5 t h1)]
    rw [outsAt1_A V c t h0]
    unfold sAt1_A sout1_A_0 sout1_A_1; (try dsimp only)
    by_cases hz : t.val = 0
    · rw [PhiS1_castSucc V c t, PhiS1_zero V c _ _ hz]
      iintro ⟨⟨Hg, Hsr⟩, Ho, ⟨%d0, H0⟩, ⟨%d1, H1⟩, ⟨%d2, H2⟩, ⟨%d3, H3⟩, ⟨%d4, H4⟩, ⟨%d5, H5⟩⟩
      ihave Hsr' := (scopedRest1_owns c).1 $$ Hsr
      icases Hsr' with ⟨Hr, HS0, HS1⟩
      iapply ((kernelRun1_A c (grid1.coords t) _ _ _ _ _ _ _ _ _ _ _ _ _ _ _ _ ((hcond1_0 t).mpr h0) (fun h => by have := (hcond1_1 t).mp h; omega) (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [Hg Hr HS0 HS1]
      · isplitl [Hg]; · iexact Hg
        isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _)
        unfold owns; iexists _; isplitr
        swap; · iexact HS1
        ipureintro; exact View.read_writes_of_cover _ _ _ _ _ (scover1_A_1 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS1_castSucc V c t, PhiS1_pos V c _ _ hz]
      iintro ⟨⟨Hg, Hr, HS0, HS1⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (fun h => by have := (hcond1_1 t).mp h; omega) (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [Hg Hr HS0 HS1]
      · isplitl [Hg]; · iexact Hg
        isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _)
        unfold owns; iexists _; isplitr
        swap; · iexact HS1
        ipureintro; exact View.read_writes_of_cover _ _ _ _ _ (scover1_A_1 c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t h1], after1_4']
      rw [show (dat1 V c).leavesExact 5 t = owns (c : Thread nD τ) (ms1_5 t) fullShare ((dat1 V c).after 5 t) from by
        unfold Dat.leavesExact; rw [liveAt1_5 t h1], after1_5']
      rw [outsAt1_C V c t h1]
      unfold allAt1_C out1_C_4 out1_C_5 sout1_C_0 sout1_C_1 soutsAt1; (try dsimp only)
      rw [PhiS1_castSucc V c t, PhiS1_pos V c _ _ hz]
      iintro ⟨⟨Hg, Hr, HS0, HS1⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => by have := (hcond1_0 t).mp h; omega) ((hcond1_1 t).mpr h1) (iblk1 V c 0 t) (iblk1 V c 1 t) (iblk1 V c 2 t) (iblk1 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [Hg Hr HS0 HS1]
      · isplitl [Hg]; · iexact Hg
        isplitl [Hr]; · iexact Hr
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _)
        unfold owns; iexists _; isplitr
        swap; · iexact HS1
        ipureintro; exact View.read_writes_of_cover _ _ _ _ _ (scover1_C_1 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t h1) (noFlush1_4 t h1)]
      rw [Dat.leavesExact_idle (dat1 V c) 5 t (idleAt1_5 t h1) (noFlush1_5 t h1)]
      rw [outsAt1_B V c t h0 h1]
      unfold sAt1_B sout1_B_0 sout1_B_1 soutsAt1; (try dsimp only)
      rw [PhiS1_castSucc V c t, PhiS1_pos V c _ _ hz]
      iintro ⟨⟨Hg, Hr, HS0, HS1⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [Hg Hr HS0 HS1]
      · isplitl [Hg]; · iexact Hg
        isplitl [Hr]; · iexact Hr
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _)
        unfold owns; iexists _; isplitr
        swap; · iexact HS1
        ipureintro; exact View.read_writes_of_cover _ _ _ _ _ (scover1_B_1 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Φ1_in (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulators' named contents are forgotten. -/
theorem Φ1_out (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega)]
  iintro ⟨Hg, Hr, HS0, HS1⟩
  isplitl [Hg]; · iexact Hg
  iapply (scopedRest1_owns c).2
  isplitl [Hr]; · iexact Hr
  isplitl [HS0]; · iexists _; iexact HS0
  iexists _; iexact HS1

end Cert.KernelIdeal.Hand

end
-- ==== Proof.KIRun.lean ====
/- THE RUN of @main: its four segments — region 0 (the row-normalising kernel), the two reshapes, region 1 (the
   contrastive-loss kernel, whose first two windows read ONE array), the seven closing host operations — over the
   regions' proof data, from the launch to the return, ending in one theorem that states what every unscoped buffer
   holds at the end. -/
import proofs.«141171_j84284438217273_1_alg».proof.Proof.Gen.KernelIdeal.Launch
import proofs.«141171_j84284438217273_1_alg».proof.Proof.Gen.KernelIdeal.Skeleton
import proofs.«141171_j84284438217273_1_alg».proof.Proof.Gen.KernelIdeal.Points
import proofs.«141171_j84284438217273_1_alg».proof.Proof.Gen.KernelIdeal.Regions
import proofs.«141171_j84284438217273_1_alg».proof.Proof.KIReg0
import proofs.«141171_j84284438217273_1_alg».proof.Proof.KIReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1's arrays: two windows on one array

Windows 0 and 1 of custom_call 1 both read the array the first kernel wrote: the core, which holds that buffer whole at
the full share, hands each window a half (the left and the right half of the full share) and joins the halves back
at the exit, where both still hold the entry contents (an input array is never written). -/
section Arrays1
variable (V : (c : Dev nD) → (b : Ref sig .tc) → Buf (Elt F) ((c : Thread nD τ).loc b))

/-- The shares region 1's proof data hold the windows' arrays at: the two halves of the full share for the two windows
    on the shared array, the full share for every other window. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl
theorem share1_5 (c : Dev nD) : (dat1 V c).share 5 = fullShare := rfl

/-- The pipeline's arrays, each a whole buffer, window by window at its share. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2) ∗ (((c : Thread nD τ).loc main_v2) ↦{fullShare} Fa 3)
          ∗ (((c : Thread nD τ).loc main_v3_0) ↦{fullShare} Fa 4) ∗ (((c : Thread nD τ).loc main_v3_1) ↦{fullShare} Fa 5)) := by
  unfold Dat.arrays
  rw [bigSep_W1, (arr_whole1 0).set_eq_univ, (arr_whole1 2).set_eq_univ, (arr_whole1 3).set_eq_univ,
    (arr_whole1 4).set_eq_univ, (arr_whole1 5).set_eq_univ, share1_0, share1_1, share1_2, share1_3, share1_4, share1_5]

/-- The distinct buffers behind region 1's arrays, listed. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0) ↦{fullShare} V' main_v0) ∗ (((c : Thread nD τ).loc main_v1) ↦{fullShare} V' main_v1)
          ∗ (((c : Thread nD τ).loc main_v2) ↦{fullShare} V' main_v2) ∗ (((c : Thread nD τ).loc main_v3_0) ↦{fullShare} V' main_v3_0)
          ∗ (((c : Thread nD τ).loc main_v3_1) ↦{fullShare} V' main_v3_1)) := by
  unfold Pipeline.arrBufs
  exact bigSep_eq_bigSepL_of_eq [main_v0, main_v1, main_v2, main_v3_0, main_v3_1] (by decide) (by decide) _

/-- ENTRY: the core's unscoped buffers at the entry contents are region 1's arrays at the proof data's entry contents —
    the shared array split between its two windows along the share — and the unscoped rest. -/
theorem arrays1_of_unscopedBufs (c : Dev nD) :
    (unscopedBufs c (V c) : sProp 𝕄) ⊢ iprop((dat1 V c).arrays ((dat1 V c).arrAt · 0) ∗ Pipeline.unscopedRest spec1 c (V c)) := by
  rw [show (unscopedBufs c (V c) : sProp 𝕄) = iprop(Pipeline.arrBufs spec1 c (V c) ∗ Pipeline.unscopedRest spec1 c (V c))
    from Pipeline.unscopedBufs_split₀ cfgs 1 winFacts₀1.arr_unscoped c (V c)]
  refine sep_mono ?_ .rfl
  rw [arrBufs1_eq, arrays1_eq]
  rw [show (dat1 V c).arrAt 0 0 = V c main_v0 from A_eq1 V c 0, show (dat1 V c).arrAt 1 0 = V c main_v0 from A_eq1 V c 1,
    show (dat1 V c).arrAt 2 0 = V c main_v1 from A_eq1 V c 2, show (dat1 V c).arrAt 3 0 = V c main_v2 from A_eq1 V c 3,
    show (dat1 V c).arrAt 4 0 = V c main_v3_0 from A_eq1 V c 4, show (dat1 V c).arrAt 5 0 = V c main_v3_1 from A_eq1 V c 5]
  iintro ⟨H0, H1, H2, H3, H4⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H2]; · iexact H2
  isplitl [H3]; · iexact H3
  iexact H4

/-- EXIT: region 1's arrays at contents Fa — which are V' at each window's array — and the unscoped rest as entered
    are the core's unscoped buffers at V', which agrees with the entry contents off the arrays. -/
theorem unscopedBufs_of_arrays1 (c : Dev nD) (V' : (b : Ref sig .tc) → Buf (Elt F) ((c : Thread nD τ).loc b))
    (Fa : (w : Fin cfg1.W) → Buf (Elt F) ((cfg1.win w).arr.view.loc (c : Thread nD τ)))
    (hF : ∀ w, Fa w = V' (Pipeline.arrRef spec1 w))
    (hrest : ∀ b, b ∉ Finset.univ.image (Pipeline.arrRef spec1) → V' b = V c b) :
    (iprop((dat1 V c).arrays Fa ∗ Pipeline.unscopedRest spec1 c (V c)) : sProp 𝕄) ⊢ unscopedBufs c V' := by
  rw [show (unscopedBufs c V' : sProp 𝕄) = iprop(Pipeline.arrBufs spec1 c V' ∗ Pipeline.unscopedRest spec1 c V')
    from Pipeline.unscopedBufs_split₀ cfgs 1 winFacts₀1.arr_unscoped c V']
  refine sep_mono ?_ (Entails.of_eq ?_)
  · rw [arrBufs1_eq, arrays1_eq, hF 0, hF 1, hF 2, hF 3, hF 4, hF 5]
    iintro ⟨H0a, H0b, H1, H2, H3, H4⟩
    isplitl [H0a H0b]
    · iapply (pointsTo_share (PosShare.mem_left_op_right fullShare)).2
      isplitl [H0a]; · iexact H0a
      iexact H0b
    isplitl [H1]; · iexact H1
    isplitl [H2]; · iexact H2
    isplitl [H3]; · iexact H3
    iexact H4
  · unfold Pipeline.unscopedRest
    exact bigSep_congr fun b hb => by rw [hrest b (Finset.mem_sdiff.mp hb).2]

end Arrays1

/-! # THE RUN: @main's segments from the launch to the return

## The buffer contents at each segment boundary: a fold through @main -/

variable (m : (ℓ : Loc nD τ sig) → Buf (Elt F) ℓ) (ρ : Dev nD → PrngReg)

/-- Core c's buffers at launch (region 0's entry: no host operation precedes it). -/
abbrev W0 : Dev nD → Valuation τ sig (Elt F) := fun c b => (s₀ m ρ).mem ((c : Dev nD), b)
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the input as entered, the output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- The first kernel's output array after region 0 is what its pipeline leaves there. -/
theorem W1_main_v0 (c : Dev nD) : W1 m ρ c (Proc.devRef .tc main_v0) = (dat0 (V0 m ρ) c).arrAt 1 cfg0.N :=
  W1_arr m ρ c 1

/-- After the two reshapes (region 1's entry). -/
abbrev W2 : Dev nD → Valuation τ sig (Elt F) := fun c => StableHlo.after hostOps1 (W1 m ρ c)
/-- The same read at the TensorCore's references (what region 1's proof data take). -/
abbrev V2 : (c : Dev nD) → (b : Ref sig .tc) → Buf (Elt F) ((c : Thread nD τ).loc b) := fun c b => W2 m ρ c b
/-- At region 1's exit: its two output arrays at what the pipeline leaves, every other buffer as entered (its four
    input windows write nothing). -/
def W3 (c : Dev nD) : Valuation τ sig (Elt F) :=
  Function.update (Function.update (W2 m ρ c) (Proc.devRef .tc main_v3_0) ((dat1 (V2 m ρ) c).arrAt 4 cfg1.N))
    (Proc.devRef .tc main_v3_1) ((dat1 (V2 m ρ) c).arrAt 5 cfg1.N)
theorem W3_main_v3_1 (c : Dev nD) : W3 m ρ c (Proc.devRef .tc main_v3_1) = (dat1 (V2 m ρ) c).arrAt 5 cfg1.N := by
  unfold W3; exact Function.update_self ..
theorem W3_main_v3_0 (c : Dev nD) : W3 m ρ c (Proc.devRef .tc main_v3_0) = (dat1 (V2 m ρ) c).arrAt 4 cfg1.N := by
  unfold W3
  rw [Function.update_of_ne (StableHlo.devRef_ne_of_ne (by decide))]
  exact Function.update_self ..
theorem W3_of_ne (c : Dev nD) (b : Ref sig .tc) (h0 : b ≠ main_v3_0) (h1 : b ≠ main_v3_1) :
    W3 m ρ c (Proc.devRef .tc b) = W2 m ρ c (Proc.devRef .tc b) := by
  unfold W3
  rw [Function.update_of_ne (StableHlo.devRef_ne_of_ne h1), Function.update_of_ne (StableHlo.devRef_ne_of_ne h0)]
/-- The same read at the TensorCore's references (region 1's exit contents). -/
abbrev V3 : (c : Dev nD) → (b : Ref sig .tc) → Buf (Elt F) ((c : Thread nD τ).loc b) := fun c b => W3 m ρ c b
/-- At region 1's exit each window's array holds what the pipeline leaves there — an input's the entry contents — and
    every other buffer what it held at entry. -/
theorem hF1 (c : Dev nD) (w : Fin cfg1.W) : (dat1 (V2 m ρ) c).arrAt w cfg1.N = V3 m ρ c (Pipeline.arrRef spec1 w) := by
  have hin (w : Fin cfg1.W) (hw : (cfg1.win w).isOut = false) (h0 : Pipeline.arrRef spec1 w ≠ main_v3_0) (h1 : Pipeline.arrRef spec1 w ≠ main_v3_1) :
      (dat1 (V2 m ρ) c).arrAt w cfg1.N = V3 m ρ c (Pipeline.arrRef spec1 w) :=
    (((dat1 (V2 m ρ) c).arrAt_in w hw _).trans (A_eq1 (V2 m ρ) c w)).trans (W3_of_ne m ρ c _ h0 h1).symm
  match w with
  | ⟨0, _⟩ => exact hin 0 rfl (by decide) (by decide)
  | ⟨1, _⟩ => exact hin 1 rfl (by decide) (by decide)
  | ⟨2, _⟩ => exact hin 2 rfl (by decide) (by decide)
  | ⟨3, _⟩ => exact hin 3 rfl (by decide) (by decide)
  | ⟨4, _⟩ => exact (W3_main_v3_0 m ρ c).symm
  | ⟨5, _⟩ => exact (W3_main_v3_1 m ρ c).symm
theorem hrest1 (c : Dev nD) : ∀ b, b ∉ Finset.univ.image (Pipeline.arrRef spec1) → V3 m ρ c b = V2 m ρ c b :=
  fun b hb => W3_of_ne m ρ c b (fun e => hb (Finset.mem_image.mpr ⟨4, Finset.mem_univ _, e.symm⟩))
    (fun e => hb (Finset.mem_image.mpr ⟨5, Finset.mem_univ _, e.symm⟩))

/-- After the seven closing host operations (what the launch reads at the end). -/
abbrev W4 : Dev nD → Valuation τ sig (Elt F) := fun c => StableHlo.after hostOps2 (W3 m ρ c)
/-- The same read at the TensorCore's references. -/
abbrev V4 : (c : Dev nD) → (b : Ref sig .tc) → Buf (Elt F) ((c : Thread nD τ).loc b) := fun c b => W4 m ρ c b

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide) (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide) (by decide)
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

/-! ## The proof data family and the thread state -/

/-- Every pipeline's proof data, each at its region's entry contents — a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each region's
    invariant takes it in and gives it back) and its owes, at nothing. -/
abbrev R (c : Dev nD) : sProp 𝕄 := iprop((∃ r, prngReg c r) ∗ ∃ W, owes (c : Thread nD τ) (0 : CellTallies nD τ sig Unit) W)
/-- A host stretch as a segment over the unscoped references from the contents W, R riding along: it ends with those
    references at the contents after the stretch, the next boundary's by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 (custom_call 0) over the thread state: entered from every unscoped buffer at the launch contents, left at
    W1. Its arrays split out of the unscoped buffers and put back at the exit contents; the generator register into
    the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1's proof data owe nothing at any point. -/
theorem owed1 (c : Dev nD) (t : Fin (cfg1.N + 1)) : (dat1 (V2 m ρ) c).owed t = 0 := rfl

set_option backward.isDefEq.respectTransparency.types false in
/-- REGION 1 (custom_call 1) over the thread state: entered from every unscoped buffer at W2, left at W3. Its arrays
    split out of the unscoped buffers — the array two windows share along the share — and put back at the exit
    contents; the generator register and the scoped rest (the two scratch buffers among it) into the region's
    invariant and out; nothing owed; no semaphore of the kernel's own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun c t => owed1 m ρ c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays1_of_unscopedBufs (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed1 m ρ c 0]
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (Φ1_in (V2 m ρ) c)
    isplitl [Hp]; · iexact Hp
    iexact Hr
  hout c := by
    rw [Pipeline.ownSems0_none, show (pdats m ρ 1 c).Φ (Fin.last _) = (dat1 (V2 m ρ) c).Φ (Fin.last cfg1.N) from rfl]
    refine (Φ1_out (V2 m ρ) c).trans ?_
    iintro ⟨Hp, Hr⟩
    isplitl [Hp]; · iexact Hp
    isplitr; · iempintro
    iexact Hr
  hexit c := by
    have hjoin := unscopedBufs_of_arrays1 (V2 m ρ) c (V3 m ρ c) ((dat1 (V2 m ρ) c).arrAt · cfg1.N) (hF1 m ρ c) (hrest1 m ρ c)
    rw [Pipeline.unscopedBufs_held] at hjoin
    rw [show (pdats m ρ 1 c).arrays ((pdats m ρ 1 c).arrAt · (Pipeline.pin (pcfgs (F := F)) adm 1).N)
      = (dat1 (V2 m ρ) c).arrays ((dat1 (V2 m ρ) c).arrAt · cfg1.N) from rfl]
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    rw [show (pdats m ρ 1 c).owed (Fin.last _) = 0 from owed1 m ρ c _]
    icases HO with ⟨%W, -, HO⟩; iexists W; iexact HO

/-! ## @main as segments, and the launch -/

/-- @main's 4 segments in order: a region per pallas_call, a host segment per stretch from its boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main IS the run of the segments: its chain of items, then the segments' run against that chain by the kernel's
    definitional check. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state holds, in every unscoped buffer of every core, the
    last boundary's contents W4. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      show iprop(StableHlo.held (c : Thread nD τ) (Pipeline.ucRefs τ sig) (W4 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- info: 'Cert.KernelIdeal.Hand.run_main' depends on axioms: [propext, Classical.choice, Quot.sound] -/
#guard_msgs in #print axioms run_main

end Cert.KernelIdeal.Hand

end
-- ==== Proof.Frames.lean ====
/- The three frame claims — each program runs and its argument arrays end as launched — and the ledger entry of the
   one idealization. The two kernel programs' claims are read off their runs: every unscoped buffer ends at the
   last boundary's contents, which at an argument array are the launch contents. The reference's is its run's. -/
import proofs.«141171_j84284438217273_1_alg».proof.Defs
import proofs.«141171_j84284438217273_1_alg».proof.Proof.Gen.Kernel
import proofs.«141171_j84284438217273_1_alg».proof.Proof.Gen.KernelIdeal
import proofs.«141171_j84284438217273_1_alg».proof.Proof.Gen.ReferenceIdeal
import proofs.«141171_j84284438217273_1_alg».proof.Proof.Gen.Pre_finite_inputs
import proofs.«141171_j84284438217273_1_alg».proof.Proof.Gen.ReferenceIdeal.Run
import proofs.«141171_j84284438217273_1_alg».proof.Proof.KRun
import proofs.«141171_j84284438217273_1_alg».proof.Proof.KIRun

noncomputable section

namespace Cert.Proof.Frames

open Idealize.ShloMosaic Idealize.ShloMosaic.TcCoe Idealize.SL.Sem

/-- The word-level kernel program runs and keeps its arguments. -/
theorem frame_k : Cert.frame_Kernel := fun m ρ _ =>
  (θ_run Cert.Kernel.defs _ _).mono (fun _ h c =>
      ⟨(h c _ (Cert.Kernel.Hand.mem_uc Cert.Kernel.main_arg0 (by decide))).trans (Cert.Kernel.Hand.W4_main_arg0 m ρ c),
        (h c _ (Cert.Kernel.Hand.mem_uc Cert.Kernel.main_arg1 (by decide))).trans (Cert.Kernel.Hand.W4_main_arg1 m ρ c)⟩)
    (Cert.Kernel.Hand.run_main (F := Bits) m ρ)

/-- The idealized kernel program runs and keeps its arguments. -/
theorem frame_ki : Cert.frame_KernelIdeal := fun m ρ _ =>
  (θ_run Cert.KernelIdeal.defs _ _).mono (fun _ h c =>
      ⟨(h c _ (Cert.KernelIdeal.Hand.mem_uc Cert.KernelIdeal.main_arg0 (by decide))).trans (Cert.KernelIdeal.Hand.W4_main_arg0 m ρ c),
        (h c _ (Cert.KernelIdeal.Hand.mem_uc Cert.KernelIdeal.main_arg1 (by decide))).trans (Cert.KernelIdeal.Hand.W4_main_arg1 m ρ c)⟩)
    (Cert.KernelIdeal.Hand.run_main (F := Ideal) m ρ)

/-- The idealized reference runs and keeps its arguments. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the table gives the named constant its rational value, and the printed constant is that
    value at the ideal instance. -/
theorem preserves : Cert.preserves_Kernel_KernelIdeal :=
  IdealRules.named_const.statement Cert.KernelIdeal.κ "inv_temperature" .f32 0x41200000#32 ((134217728 / 13421773 : ℝ) : EReal) rfl

end Cert.Proof.Frames

end
-- ==== Proof.Spec.lean ====
/- The loss the two programs compute, as ONE function of the argument arrays over plain index types:
   rows of `x` are scaled to unit length (the length floored at `eps`), `sim` is the matrix of their
   inner products divided by the temperature, and a row's loss is minus the logarithm of the share of
   `exp sim` that falls on the other rows carrying the same label, among all the other rows. Rows with
   no such share are skipped, and the loss is the mean over the rows that are kept. Every operation is
   the extended reals' own (the instance `Ideal`), so that each program's stage lands on these
   definitions by the instance's `_def` equations. -/
import Idealize.ShloMosaic.PureOps.Ideal
import Idealize.ShloMosaic.PureOps.Ideal.Laws
import Idealize.ShloMosaic.Lib.ValueIdx

noncomputable section

namespace Cert.Spec

open Idealize.ShloMosaic
open scoped BigOperators

/-- The floor of a row's length: the pattern of `1e-12`. -/
def eps : EReal := Ideal.ofBits .f32 0x2B8CBCCC#32

/-- The temperature, the pattern of `0.1`. -/
def tempD : EReal := Ideal.ofBits .f32 0x3DCCCCCD#32

/-- Row `i`'s length, floored at `eps`. -/
def nrm (x : Fin 8192 → Fin 128 → EReal) (i : Fin 8192) : EReal :=
  max (Ideal.sqrt (∑ k : Fin 128, x i k * x i k)) eps

/-- Row `i` scaled to unit length. -/
def emb (x : Fin 8192 → Fin 128 → EReal) (i : Fin 8192) (k : Fin 128) : EReal :=
  Ideal.div (x i k) (nrm x i)

/-- The inner product of the scaled rows `i` and `j`. -/
def dots (x : Fin 8192 → Fin 128 → EReal) (i j : Fin 8192) : EReal :=
  ∑ k : Fin 128, emb x i k * emb x j k

/-- The similarity: the inner product over the temperature. -/
def sim (x : Fin 8192 → Fin 128 → EReal) (i j : Fin 8192) : EReal :=
  Ideal.div (dots x i j) tempD

/-- The identity matrix. -/
def eye (i j : Fin 8192) : EReal := if i = j then 1 else 0

/-- `1` where rows `i` and `j` carry the same label. -/
def same (lab : Fin 8192 → BitVec 32) (i j : Fin 8192) : EReal := if lab i = lab j then 1 else 0

def ex (x : Fin 8192 → Fin 128 → EReal) (i j : Fin 8192) : EReal :=
  Ideal.exp (sim x i j)

/-- The weight of row `i`'s positives: the other rows with `i`'s label. -/
def posSum (x : Fin 8192 → Fin 128 → EReal) (lab : Fin 8192 → BitVec 32) (i : Fin 8192) : EReal :=
  ∑ j : Fin 8192, ex x i j * (same lab i j - eye i j)

/-- The weight of all the other rows. -/
def allSum (x : Fin 8192 → Fin 128 → EReal) (i : Fin 8192) : EReal :=
  ∑ j : Fin 8192, ex x i j * (1 - eye i j)

/-- Row `i` is kept when its positives weigh something. -/
def valid (x : Fin 8192 → Fin 128 → EReal) (lab : Fin 8192 → BitVec 32) (i : Fin 8192) : Prop :=
  0 < posSum x lab i

instance (x : Fin 8192 → Fin 128 → EReal) (lab : Fin 8192 → BitVec 32) (i : Fin 8192) : Decidable (valid x lab i) :=
  inferInstanceAs (Decidable (0 < posSum x lab i))

def rowLoss (x : Fin 8192 → Fin 128 → EReal) (lab : Fin 8192 → BitVec 32) (i : Fin 8192) : EReal :=
  -(Ideal.log (Ideal.div (if valid x lab i then posSum x lab i else 1) (if valid x lab i then allSum x i else 1)))

/-- The number of rows kept. -/
def nValid (x : Fin 8192 → Fin 128 → EReal) (lab : Fin 8192 → BitVec 32) : EReal :=
  ∑ i : Fin 8192, (if valid x lab i then 1 else 0)

/-- The loss: the mean of the kept rows' losses (over `1` when no row is kept). -/
def refLoss (x : Fin 8192 → Fin 128 → EReal) (lab : Fin 8192 → BitVec 32) : EReal :=
  Ideal.div (∑ i : Fin 8192, if valid x lab i then rowLoss x lab i else 0) (max (nValid x lab) 1)

/-- The pattern of `1.0` denotes `1`. -/
theorem ofBits_one : Ideal.ofBits .f32 0x3F800000#32 = 1 := by
  simp [Ideal.ofBits, Ideal.ieee, -EReal.coe_mul]; norm_num

end Cert.Spec

end
-- ==== Proof.RefValue.lean ====
/- The reference program computes `Cert.Spec.refLoss`: its last stage, read back one operation at a
   time at explicit coordinates, is the specification's loss of the embeddings and labels. Each lemma
   below reads one array of the program at an index `ix2 i j` / `ix1 i` and names it by the
   specification's function; sums come as the zero word plus a sum over the reduced axis, and the
   zero is absorbed here. -/
import proofs.«141171_j84284438217273_1_alg».proof.Proof.Gen.ReferenceIdeal.Run
import proofs.«141171_j84284438217273_1_alg».proof.Proof.Gen.ReferenceIdeal.Read
import proofs.«141171_j84284438217273_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read Cert.Spec
open scoped BigOperators

/-- The embeddings by plain coordinates. -/
abbrev X (a0 : (⟨S8192x128, .f32⟩ : BufTy).Contents (Elt Ideal)) : Fin 8192 → Fin 128 → EReal :=
  fun i k => a0 (ix2 i k)

/-- The labels by a plain coordinate. -/
abbrev L (a1 : (⟨S8192, .i32⟩ : BufTy).Contents (Elt Ideal)) : Fin 8192 → BitVec 32 :=
  fun i => a1 (ix1 i)

/-! ## The scaled rows and their inner products -/

/-- A row's sum of squares. -/
theorem sumsq_at (a0 : (⟨S8192x128, .f32⟩ : BufTy).Contents (Elt Ideal)) (i : Fin 8192) :
    val_main_call0_v1 (F := Ideal) a0 (ix1 i) = ∑ k : Fin 128, X a0 i k * X a0 i k := by
  rw [val_main_call0_v1_apply, val_main_call0_cst_apply, Ideal.ofBits_def, Ideal.ofBits_zero_f32, zero_add]
  refine Finset.sum_congr rfl fun k _ => ?_
  have e : idx_main_call0_v1 (ix1 i) k = ix2 i k :=
    funext fun a => Fin.ext (by match a with | ⟨0, _⟩ => rfl | ⟨1, _⟩ => rfl)
  rw [e, val_main_call0_v0_apply]
  rfl

/-- A row's length, floored. -/
theorem nrm_at (a0 : (⟨S8192x128, .f32⟩ : BufTy).Contents (Elt Ideal)) (i : Fin 8192) (z : Fin 1) :
    val_main_v2 (F := Ideal) a0 (ix2 i z) = nrm (X a0) i := by
  have e : idx_main_call0_v2 (ix2 i z) = ix1 i :=
    funext fun a => Fin.ext (by match a with | ⟨0, _⟩ => rfl)
  rw [val_main_v2_apply, val_main_v0_apply, val_main_call0_v2_apply, val_main_v1_apply, val_main_cst_apply, e, sumsq_at]
  rfl

/-- The scaled rows. -/
theorem emb_at (a0 : (⟨S8192x128, .f32⟩ : BufTy).Contents (Elt Ideal)) (i : Fin 8192) (k : Fin 128) :
    val_main_v4 (F := Ideal) a0 (ix2 i k) = emb (X a0) i k := by
  have e : idx_main_v3 (ix2 i k) = ix2 i (0 : Fin 1) :=
    funext fun a => Fin.ext (by match a with | ⟨0, _⟩ => rfl | ⟨1, _⟩ => rfl)
  rw [val_main_v4_apply, val_main_v3_apply, e, nrm_at]
  rfl

/-- Their inner products: the contraction of the scaled rows with their transpose. -/
theorem dots_at (a0 : (⟨S8192x128, .f32⟩ : BufTy).Contents (Elt Ideal)) (i j : Fin 8192) :
    val_main_v6 (F := Ideal) a0 (ix2 i j) = dots (X a0) i j := by
  rw [val_main_v6_apply]
  refine Finset.sum_congr rfl fun k _ => ?_
  have el : lidx_main_v6 (ix2 i j) k = ix2 i k :=
    funext fun a => Fin.ext (by match a with | ⟨0, _⟩ => rfl | ⟨1, _⟩ => rfl)
  have er : idx_main_v5 (ridx_main_v6 (ix2 i j) k) = ix2 j k :=
    funext fun a => Fin.ext (by match a with | ⟨0, _⟩ => rfl | ⟨1, _⟩ => rfl)
  rw [val_main_v5_apply, el, er, emb_at, emb_at]

/-- The exponential of the similarity. -/
theorem ex_at (a0 : (⟨S8192x128, .f32⟩ : BufTy).Contents (Elt Ideal)) (i j : Fin 8192) :
    val_main_v24 (F := Ideal) a0 (ix2 i j) = ex (X a0) i j := by
  rw [val_main_v24_apply, val_main_v8_apply, val_main_v7_apply, val_main_cst_0_apply, dots_at]
  rfl

/-! ## The two masks -/

/-- A decided bit converted to a float is `1` or `0`. -/
theorem uitofp_ofBool (b : Bool) :
    FloatOps.uitofp (F := Ideal) .f32 (BitVec.ofBool b) = if b then (1 : EReal) else 0 := by
  cases b
  · show (((0 : ℕ) : ℝ) : EReal) = 0
    rw [Nat.cast_zero, EReal.coe_zero]
  · show (((1 : ℕ) : ℝ) : EReal) = 1
    rw [Nat.cast_one, EReal.coe_one]

/-- Two row numbers below `2^32` are equal as 32-bit words exactly when they are equal. -/
theorem ofNat_beq (i j : Fin 8192) :
    (IntOp.addi (BitVec.ofNat 32 i.val) 0#32 == BitVec.ofNat 32 j.val) = decide (i = j) := by
  have hi : i.val < 2 ^ 32 := lt_trans i.isLt (by norm_num)
  have hj : j.val < 2 ^ 32 := lt_trans j.isLt (by norm_num)
  unfold IntOp.addi
  rw [BitVec.add_zero, Bool.eq_iff_iff, beq_iff_eq, decide_eq_true_iff]
  constructor
  · intro h
    have := congrArg BitVec.toNat h
    rw [BitVec.toNat_ofNat, BitVec.toNat_ofNat, Nat.mod_eq_of_lt hi, Nat.mod_eq_of_lt hj] at this
    exact Fin.ext this
  · rintro rfl; rfl

/-- The identity matrix: row number equal to column number. -/
theorem eye_at (i j : Fin 8192) : val_main_v14 (F := Ideal) (ix2 i j) = eye i j := by
  rw [val_main_v14_apply, val_main_v13_apply, val_main_v12_apply, val_main_v9_apply, val_main_v10_apply,
    val_main_v11_apply, val_main_c_apply]
  show FloatOps.uitofp (F := Ideal) .f32 (BitVec.ofBool (IntOp.addi (BitVec.ofNat 32 i.val) 0#32 == BitVec.ofNat 32 j.val)) = _
  rw [ofNat_beq, uitofp_ofBool]
  unfold eye
  by_cases h : i = j <;> simp [h]

/-- The label mask: the column of labels against the row of labels. -/
theorem same_at (a1 : (⟨S8192, .i32⟩ : BufTy).Contents (Elt Ideal)) (i j : Fin 8192) :
    val_main_v20 (F := Ideal) a1 (ix2 i j) = same (L a1) i j := by
  have e1 : idx_main_v15 (idx_main_v17 (ix2 i j)) = ix1 i :=
    funext fun a => Fin.ext (by match a with | ⟨0, _⟩ => rfl)
  have e2 : idx_main_v16 (idx_main_v18 (ix2 i j)) = ix1 j :=
    funext fun a => Fin.ext (by match a with | ⟨0, _⟩ => rfl)
  rw [val_main_v20_apply, val_main_v19_apply, val_main_v17_apply, val_main_v18_apply, val_main_v15_apply,
    val_main_v16_apply, e1, e2]
  show FloatOps.uitofp (F := Ideal) .f32 (BitVec.ofBool (a1 (ix1 i) == a1 (ix1 j))) = _
  rw [uitofp_ofBool]
  unfold same
  by_cases h : a1 (ix1 i) = a1 (ix1 j) <;> simp [h]

/-! ## The row sums -/

/-- The weight of a row's positives. -/
theorem posSum_at (a0 : (⟨S8192x128, .f32⟩ : BufTy).Contents (Elt Ideal)) (a1 : (⟨S8192, .i32⟩ : BufTy).Contents (Elt Ideal))
    (i : Fin 8192) : val_main_v26 (F := Ideal) a0 a1 (ix1 i) = posSum (X a0) (L a1) i := by
  rw [val_main_v26_apply, val_main_cst_2_apply, Ideal.ofBits_def, Ideal.ofBits_zero_f32, zero_add]
  refine Finset.sum_congr rfl fun k _ => ?_
  have e : idx_main_v26 (ix1 i) k = ix2 i k :=
    funext fun a => Fin.ext (by match a with | ⟨0, _⟩ => rfl | ⟨1, _⟩ => rfl)
  rw [e, val_main_v25_apply, val_main_v21_apply, ex_at, same_at, eye_at]
  rfl

/-- The weight of all the other rows. -/
theorem allSum_at (a0 : (⟨S8192x128, .f32⟩ : BufTy).Contents (Elt Ideal)) (i : Fin 8192) :
    val_main_v28 (F := Ideal) a0 (ix1 i) = allSum (X a0) i := by
  rw [val_main_v28_apply, val_main_cst_3_apply, Ideal.ofBits_def, Ideal.ofBits_zero_f32, zero_add]
  refine Finset.sum_congr rfl fun k _ => ?_
  have e : idx_main_v28 (ix1 i) k = ix2 i k :=
    funext fun a => Fin.ext (by match a with | ⟨0, _⟩ => rfl | ⟨1, _⟩ => rfl)
  rw [e, val_main_v27_apply, val_main_v23_apply, val_main_v22_apply, val_main_cst_1_apply, ex_at, eye_at,
    Ideal.ofBits_def, ofBits_one]
  rfl

/-! ## The kept rows and the mean -/

/-- A sum over a rank-1 index set is the sum over its coordinate. -/
theorem sum_idx1 {M : Type*} [AddCommMonoid M] {n : Nat} (f : (⟨1, ![n]⟩ : Shape).Idx → M) :
    ∑ j, f j = ∑ a : Fin n, f (ix1 a) := by
  let e : (⟨1, ![n]⟩ : Shape).Idx ≃ Fin n :=
    { toFun := fun j => j 0, invFun := ix1, left_inv := fun j => (eq_ix1 j).symm, right_inv := fun _ => rfl }
  exact (Equiv.sum_comp e.symm f).symm

/-- A select on a decided bit is the `if`. -/
theorem select_decide {α : Type} (P : Prop) [Decidable P] (a b : α) :
    Scalar.select (BitVec.ofBool (decide P)) a b = if P then a else b := by
  by_cases h : P
  · rw [decide_eq_true h, if_pos h]; exact select_one a b
  · rw [decide_eq_false h, if_neg h]; exact select_zero a b

/-- The comparison bit of a row: its positives weigh more than zero. -/
theorem valid_at (a0 : (⟨S8192x128, .f32⟩ : BufTy).Contents (Elt Ideal)) (a1 : (⟨S8192, .i32⟩ : BufTy).Contents (Elt Ideal))
    (i : Fin 8192) : val_main_v30 (F := Ideal) a0 a1 (ix1 i) = BitVec.ofBool (decide (valid (X a0) (L a1) i)) := by
  rw [val_main_v30_apply, val_main_v29_apply, val_main_cst_4_apply, posSum_at, Ideal.ofBits_def, Ideal.ofBits_zero_f32]
  rfl

/-- The numerator under the logarithm. -/
theorem posSafe_at (a0 : (⟨S8192x128, .f32⟩ : BufTy).Contents (Elt Ideal)) (a1 : (⟨S8192, .i32⟩ : BufTy).Contents (Elt Ideal))
    (i : Fin 8192) :
    val_main_v31 (F := Ideal) a0 a1 (ix1 i) = if valid (X a0) (L a1) i then posSum (X a0) (L a1) i else 1 := by
  rw [val_main_v31_apply, valid_at, posSum_at, val_main_call1_v1_apply, val_main_call1_v0_apply, val_main_cst_5_apply,
    Ideal.ofBits_def, ofBits_one, select_decide]

/-- The denominator under the logarithm. -/
theorem allSafe_at (a0 : (⟨S8192x128, .f32⟩ : BufTy).Contents (Elt Ideal)) (a1 : (⟨S8192, .i32⟩ : BufTy).Contents (Elt Ideal))
    (i : Fin 8192) :
    val_main_v32 (F := Ideal) a0 a1 (ix1 i) = if valid (X a0) (L a1) i then allSum (X a0) i else 1 := by
  rw [val_main_v32_apply, valid_at, allSum_at, val_main_call2_v1_apply, val_main_call2_v0_apply, val_main_cst_6_apply,
    Ideal.ofBits_def, ofBits_one, select_decide]

/-- A row's loss. -/
theorem rowLoss_at (a0 : (⟨S8192x128, .f32⟩ : BufTy).Contents (Elt Ideal)) (a1 : (⟨S8192, .i32⟩ : BufTy).Contents (Elt Ideal))
    (i : Fin 8192) : val_main_v35 (F := Ideal) a0 a1 (ix1 i) = rowLoss (X a0) (L a1) i := by
  rw [val_main_v35_apply, val_main_v34_apply, val_main_v33_apply, posSafe_at, allSafe_at]
  rfl

/-- A kept row counts one. -/
theorem kept_at (a0 : (⟨S8192x128, .f32⟩ : BufTy).Contents (Elt Ideal)) (a1 : (⟨S8192, .i32⟩ : BufTy).Contents (Elt Ideal))
    (i : Fin 8192) : val_main_v36 (F := Ideal) a0 a1 (ix1 i) = if valid (X a0) (L a1) i then 1 else 0 := by
  rw [val_main_v36_apply, valid_at, uitofp_ofBool]
  by_cases h : valid (X a0) (L a1) i <;> simp [h]

/-- A kept row contributes its loss, a skipped row nothing. -/
theorem masked_at (a0 : (⟨S8192x128, .f32⟩ : BufTy).Contents (Elt Ideal)) (a1 : (⟨S8192, .i32⟩ : BufTy).Contents (Elt Ideal))
    (i : Fin 8192) :
    val_main_v38 (F := Ideal) a0 a1 (ix1 i) = if valid (X a0) (L a1) i then rowLoss (X a0) (L a1) i else 0 := by
  rw [val_main_v38_apply, valid_at, rowLoss_at, val_main_call3_v1_apply, val_main_call3_v0_apply, val_main_cst_8_apply,
    Ideal.ofBits_def, Ideal.ofBits_zero_f32, select_decide]

/-- The number of kept rows. -/
theorem nValid_at (a0 : (⟨S8192x128, .f32⟩ : BufTy).Contents (Elt Ideal)) (a1 : (⟨S8192, .i32⟩ : BufTy).Contents (Elt Ideal))
    (i : S_.Idx) : val_main_v37 (F := Ideal) a0 a1 i = nValid (X a0) (L a1) := by
  rw [val_main_v37_apply, val_main_cst_7_apply, Ideal.ofBits_def, Ideal.ofBits_zero_f32, zero_add]
  refine (sum_idx1 (n := 8192) _).trans ?_
  exact Finset.sum_congr rfl fun j _ => kept_at a0 a1 j

/-- The sum of the kept rows' losses. -/
theorem lossSum_at (a0 : (⟨S8192x128, .f32⟩ : BufTy).Contents (Elt Ideal)) (a1 : (⟨S8192, .i32⟩ : BufTy).Contents (Elt Ideal))
    (i : S_.Idx) :
    val_main_v39 (F := Ideal) a0 a1 i = ∑ r : Fin 8192, if valid (X a0) (L a1) r then rowLoss (X a0) (L a1) r else 0 := by
  rw [val_main_v39_apply, val_main_cst_9_apply, Ideal.ofBits_def, Ideal.ofBits_zero_f32, zero_add]
  refine (sum_idx1 (n := 8192) _).trans ?_
  exact Finset.sum_congr rfl fun j _ => masked_at a0 a1 j

/-- The reference's result is the specification's loss of the embeddings and the labels. -/
theorem ref_eq (a0 : (⟨S8192x128, .f32⟩ : BufTy).Contents (Elt Ideal)) (a1 : (⟨S8192, .i32⟩ : BufTy).Contents (Elt Ideal)) :
    val_main_v41 (F := Ideal) a0 a1
      = fun _ => Cert.Spec.refLoss (fun i k => a0 (ix2 i k)) (fun i => a1 (ix1 i)) := by
  funext i
  rw [val_main_v41_apply, val_main_v40_apply, nValid_at, lossSum_at, val_main_cst_10_apply, Ideal.ofBits_def, ofBits_one]
  rfl

/-- The same, on the term the reference's run names for its result. -/
theorem res_eq (m : (ℓ : Loc nD τ sig) → Buf (Elt Ideal) ℓ) (c : Dev nD) :
    Cert.ReferenceIdeal.Value.res_main_v41 m c
      = fun _ => Cert.Spec.refLoss (fun i k => m ((c.tc : Thread nD τ).loc main_arg0) (ix2 i k))
          (fun i => m ((c.tc : Thread nD τ).loc main_arg1) (ix1 i)) :=
  (val_main_v41_eq m c).trans (ref_eq _ _)

end Cert.ReferenceIdeal.RefValue

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.KIReg0Value.lean ====
/- The VALUE of region 0's output at the ideal values: after the region, the output array holds the input array
   with every row divided by the larger of the row's Euclidean norm and a small constant. -/
import proofs.«141171_j84284438217273_1_alg».proof.Proof.KIReg0
import proofs.«141171_j84284438217273_1_alg».proof.Proof.LibRowOps
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The specification: a row-normalised array -/

/-- An a × b array with every entry divided by the larger of its row's Euclidean norm and the small constant. -/
def rowNormalise {a b : ℕ} (X : (⟨2, ![a, b]⟩ : Shape).Idx → EReal) : (⟨2, ![a, b]⟩ : Shape).Idx → EReal := fun y =>
  Ideal.div (X y) (max (Ideal.sqrt (∑ k : Fin b, X (ix2 (y 0) k) * X (ix2 (y 0) k))) (Ideal.ofBits .f32 0x2B8CBCCC#32))

/-- Read at row i, column j. -/
theorem rowNormalise_apply {a b : ℕ} (X : (⟨2, ![a, b]⟩ : Shape).Idx → EReal) (i : Fin a) (j : Fin b) :
    rowNormalise X (ix2 i j)
      = Ideal.div (X (ix2 i j)) (max (Ideal.sqrt (∑ k : Fin b, X (ix2 i k) * X (ix2 i k))) (Ideal.ofBits .f32 0x2B8CBCCC#32)) := rfl

/-! ## The payload at an index -/

/-- A length-a array cast to an a × 1 column reads, at (p, u), its entry p. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- What the body stores, read at (p, q): the loaded block's entry divided by the larger of its row's norm and the
    constant. -/
theorem pay_apply (x0 : Vec Ideal S1024x128 .f32) (p : Fin 1024) (q : Fin 128) :
    k0_pay1 (F := Ideal) x0 (ix2 p q) = rowNormalise (a := 1024) (b := 128) x0 (ix2 p q) := by
  unfold k0_pay1
  refine (congrArg (fun z => Ideal.div (x0 (ix2 p q)) z) ?_ :
    Ideal.div (x0 (ix2 p q)) _ = Ideal.div (x0 (ix2 p q)) _)
  refine (Cert.LibRowOps.col_bcast_apply _ broadcasts_S1024x1_S1024x128 p q).trans ?_
  refine (congrArg (fun z => max (Ideal.sqrt z) (Ideal.ofBits .f32 0x2B8CBCCC#32)) ?_ :
    max (Ideal.sqrt _) (Ideal.ofBits .f32 0x2B8CBCCC#32) = max (Ideal.sqrt _) (Ideal.ofBits .f32 0x2B8CBCCC#32))
  refine (shapeCast_a_a1_apply _ shapeCasts_S1024_S1024x1 p (0 : Fin 1)).trans ?_
  exact congrFun (Cert.LibRowOps.rowsum (mulf x0 x0) reduces_S1024x128_S1024 (.inl rfl) rfl) (ix1 p)

/-! ## From blocks to the array -/

theorem hz0 : (![0, 0] : Fin 2 → Nat) = fun _ => 0 := funext fun a => by fin_cases a <;> rfl

/-- The body's store as a block of the row-normalised array: for a block whose entries are those of X at the rows
    b·1024 …, every column, what is stored at j is the row-normalised X at j's place in the array. -/
theorem block_eq (x0 : Vec Ideal S1024x128 .f32) (X : S8192x128.Idx → EReal) (b : ℕ)
    (e : S1024x128.Idx → S8192x128.Idx)
    (he0 : ∀ j, (e j 0).val = b * 1024 + 1 * (j 0).val) (he1 : ∀ j, (e j 1).val = 0 * 128 + 1 * (j 1).val)
    (hx : ∀ j, x0 j = X (e j)) (j : S1024x128.Idx) :
    k0_pay1 (F := Ideal) x0 j = rowNormalise (a := 8192) (b := 128) X (e j) := by
  obtain ⟨p, q, rfl⟩ : ∃ (p : Fin 1024) (q : Fin 128), j = ix2 p q := ⟨j 0, j 1, eq_ix2 j⟩
  refine (pay_apply x0 p q).trans ?_
  have key : ∀ k : Fin 128, x0 (ix2 p k) = X (ix2 (e (ix2 p q) 0) k) := fun k =>
    (hx (ix2 p k)).trans (congrArg X (funext fun a => Fin.ext (by
      match a with
      | ⟨0, _⟩ => show (e (ix2 p k) 0).val = (e (ix2 p q) 0).val; rw [he0, he0]
      | ⟨1, _⟩ => show (e (ix2 p k) 1).val = k.val; rw [he1]; show 0 * 128 + 1 * k.val = k.val; omega)))
  show Ideal.div (x0 (ix2 p q)) (max (Ideal.sqrt (∑ k : Fin 128, x0 (ix2 p k) * x0 (ix2 p k))) _)
    = Ideal.div (X (e (ix2 p q))) (max (Ideal.sqrt (∑ k : Fin 128, X (ix2 (e (ix2 p q) 0) k) * X (ix2 (e (ix2 p q) 0) k))) _)
  rw [hx (ix2 p q), Finset.sum_congr rfl fun k _ => by rw [key k]]

/-- The printed index maps over the grid: both windows' block at point t is row block t, column block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

section Region0
variable (V : (c : Dev nD) → (b : Ref sig .tc) → Buf (Elt Ideal) ((c : Thread nD τ).loc b))

/-- WHAT POINT t WRITES BACK is block t of the row-normalised input array. -/
theorem flushed0_eq (c : Dev nD) (t : Fin cfg0.N) :
    (dat0 (F := Ideal) V c).flushed 1 t
      = ((cfg0.win 1).blk t).view.read (Elt Ideal) (rowNormalise (a := 8192) (b := 128) (V c main_arg0)) := by
  show (cfg0.win 1).cut (grid0.coords t) ((dat0 V c).after 1 t) = _
  rw [after0_1]
  unfold out0_1
  rw [View.canon_unit_zero hz0]
  simp only [View.ld_unit_zero (S := S1024x128) hz0]
  obtain ⟨e0, e1, e2, e3⟩ := idx_facts0 t
  funext j
  show k0_pay1 (F := Ideal) (iblk0 V c 0 t) j = rowNormalise (a := 8192) (b := 128) (V c main_arg0) (((cfg0.win 1).blk t).view.emb j)
  refine block_eq (iblk0 V c 0 t) (V c main_arg0) t.val (fun j => ((cfg0.win 1).blk t).view.emb j) (fun j => ?_) (fun j => ?_) (fun j => ?_) j
  · show win0_1.index t (0 : Fin 2) * 1024 + 1 * (j 0).val = _
    rw [e2]
  · show win0_1.index t (1 : Fin 2) * 128 + 1 * (j 1).val = _
    rw [e3]
  · show V c main_arg0 (((cfg0.win 0).blk t).view.emb j) = V c main_arg0 (((cfg0.win 1).blk t).view.emb j)
    refine congrArg _ (funext fun a => Fin.ext ?_)
    match a with
    | ⟨0, _⟩ => show win0_0.index t (0 : Fin 2) * 1024 + 1 * (j 0).val = win0_1.index t (0 : Fin 2) * 1024 + 1 * (j 0).val; rw [e0, e2]
    | ⟨1, _⟩ => show win0_0.index t (1 : Fin 2) * 128 + 1 * (j 1).val = win0_1.index t (1 : Fin 2) * 128 + 1 * (j 1).val; rw [e1, e3]

/-- An index of the array is in point t's block iff each coordinate is in the block's range on its axis. -/
theorem mem_blk0 (t : Fin cfg0.N) (i : S8192x128.Idx) :
    i ∈ ((cfg0.win 1).blk t).view.set ↔ ∀ a : Fin 2, win0_1.index t a * S1024x128.size a ≤ (i a).val ∧ (i a).val < win0_1.index t a * S1024x128.size a + S1024x128.size a := by
  show i ∈ ((View.whole main_v0).slice (win0_1.rect t)).set ↔ _
  rw [View.set_slice_whole, Rect.mem_set_unit]
  exact Iff.rfl

/-- Every index of the array is in some point's block: row r is in the block of point r / 1024. -/
theorem covered0 (i : S8192x128.Idx) :
    ∃ t : Fin cfg0.N, (cfg0.win 1).flush t = true ∧ i ∈ ((cfg0.win 1).blk t).view.set := by
  have hi0 : (i 0).val < 8192 := (i 0).isLt
  have hi1 : (i 1).val < 128 := (i 1).isLt
  have hN : cfg0.N = 8 := N_0
  let t : Fin cfg0.N := ⟨(i 0).val / 1024, by rw [hN]; omega⟩
  obtain ⟨e0, e1, e2, e3⟩ := idx_facts0 t
  have ht : t.val = (i 0).val / 1024 := rfl
  refine ⟨t, flush0_1 t, ?_⟩
  rw [mem_blk0]
  intro a
  match a with
  | ⟨0, _⟩ => show win0_1.index t (0 : Fin 2) * 1024 ≤ (i 0).val ∧ (i 0).val < win0_1.index t (0 : Fin 2) * 1024 + 1024; rw [e2, ht]; omega
  | ⟨1, _⟩ => show win0_1.index t (1 : Fin 2) * 128 ≤ (i 1).val ∧ (i 1).val < win0_1.index t (1 : Fin 2) * 128 + 128; rw [e3]; omega

/-- THE ARRAY after the region: the row-normalised input array. -/
theorem final0 (c : Dev nD) :
    (dat0 (F := Ideal) V c).arrAt 1 cfg0.N = rowNormalise (a := 8192) (b := 128) (V c main_arg0) :=
  (dat0 (F := Ideal) V c).arrAt_eq_of_cover 1 (rowNormalise (a := 8192) (b := 128) (V c main_arg0)) (fun t _ => flushed0_eq V c t) covered0

/-- The input array as the region finds it, as a function of the index. -/
abbrev input0 (c : Dev nD) : S8192x128.Idx → EReal := V c main_arg0

/-- Index by index: after the region the output array holds, at row i and column j, the input's entry divided by the
    larger of the Euclidean norm of the input's row i and the small constant. -/
theorem normalised_eq (c : Dev nD) (i : Fin 8192) (j : Fin 128) :
    ((dat0 (F := Ideal) V c).arrAt 1 cfg0.N : S8192x128.Idx → EReal) (ix2 i j)
      = Ideal.div (input0 V c (ix2 i j))
          (max (Ideal.sqrt (∑ k : Fin 128, input0 V c (ix2 i k) * input0 V c (ix2 i k))) (Ideal.ofBits .f32 0x2B8CBCCC#32)) :=
  (congrFun (final0 V c) (ix2 i j)).trans (rowNormalise_apply (a := 8192) (b := 128) (V c main_arg0) i j)

end Region0

end Cert.KernelIdeal.Hand

end
-- ==== Proof.KIReg1Pieces.lean ====
/- Region 1: each piece the three cases' runs leave, as the kernel's payload of the case's inputs, and what the
   accumulators and the two outputs hold point by point in those terms. -/
import proofs.«141171_j84284438217273_1_alg».proof.Proof.KIReg1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

/-! ## The found pieces as payloads -/

/-- Column block 0, first accumulator: the zero payload stored, read back, and this block's row sums (of `k1_pay11`) added onto it. -/
theorem sout1_A_0_eq (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x128 .bf16) (x1 : Vec F S512x128 .bf16) (x2 : Vec F S512x1 .i32) (x3 : Vec F S1x512 .i32) :
    sout1_A_0 c i arg2 harg2 arg3 harg3 arg4 harg4 arg5 harg5 arg6 harg6 arg7 harg7 arg8 harg8 arg9 harg9 hc0 hc1 x0 x1 x2 x3 = k1_pay1 (k1_pay6 (F := F)) (k1_pay11 i x0 x1 x2 x3) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  try sl_unfold_words
  rw [View.canon_cons_unit_zero (S := S512x1) hz, View.readCov_unit_zero (S := S512x1) _ hz]
  simp only [View.readAt_eq_ld, harg2.read_unread, harg3.read_unread, harg4.read_unread, harg5.read_unread, harg8.read_unread, harg9.read_unread, View.ld_unit_zero (S := S512x128) hz, View.ld_unit_zero (S := S512x1) hz, View.ld_unit_zero (S := S1x512) hz]

/-- Column block 0, second accumulator: the zero payload stored, read back, and this block's row sums (of `k1_pay10` times `k1_pay9`) added onto it. -/
theorem sout1_A_1_eq (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond1_0 i) (hc1 : ¬cond1_1 i)
    (x0 : Vec F S512x128 .bf16) (x1 : Vec F S512x128 .bf16) (x2 : Vec F S512x1 .i32) (x3 : Vec F S1x512 .i32) :
    sout1_A_1 c i arg2 harg2 arg3 harg3 arg4 harg4 arg5 harg5 arg6 harg6 arg7 harg7 arg8 harg8 arg9 harg9 hc0 hc1 x0 x1 x2 x3 = k1_pay2 (k1_pay9 (F := F) i) (k1_pay10 x0 x1) (k1_pay7 (F := F)) := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  try sl_unfold_words
  rw [View.canon_cons_unit_zero (S := S512x1) hz, View.readCov_unit_zero (S := S512x1) _ hz]
  simp only [View.readAt_eq_ld, harg2.read_unread, harg3.read_unread, harg4.read_unread, harg5.read_unread, harg8.read_unread, harg9.read_unread, View.ld_unit_zero (S := S512x128) hz, View.ld_unit_zero (S := S512x1) hz, View.ld_unit_zero (S := S1x512) hz]

/-- A middle column block adds its row sums (of `k1_pay11`) onto what the first accumulator held. -/
theorem sout1_B_0_eq (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x128 .bf16) (x1 : Vec F S512x128 .bf16) (x2 : Vec F S512x1 .i32) (x3 : Vec F S1x512 .i32) (xs0 : Vec F S512x1 .f32) (xs1 : Vec F S512x1 .f32) :
    sout1_B_0 c i arg2 harg2 arg3 harg3 arg4 harg4 arg5 harg5 arg6 harg6 arg7 harg7 arg8 harg8 arg9 harg9 hc0 hc1 x0 x1 x2 x3 xs0 xs1 = k1_pay1 xs0 (k1_pay11 i x0 x1 x2 x3) := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 xs0 xs1)]
  unfold kernelRun1_B
  dsimp only
  try sl_unfold_words
  rw [View.canon_unit_zero hz]
  simp only [View.readAt_eq_ld, harg2.read_unread, harg3.read_unread, harg4.read_unread, harg5.read_unread, harg8.read_unread, harg9.read_unread, View.ld_unit_zero (S := S512x128) hz, View.ld_unit_zero (S := S512x1) hz, View.ld_unit_zero (S := S1x512) hz]

/-- A middle column block adds its row sums (of `k1_pay10` times `k1_pay9`) onto what the second accumulator held. -/
theorem sout1_B_1_eq (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : ¬cond1_1 i)
    (x0 : Vec F S512x128 .bf16) (x1 : Vec F S512x128 .bf16) (x2 : Vec F S512x1 .i32) (x3 : Vec F S1x512 .i32) (xs0 : Vec F S512x1 .f32) (xs1 : Vec F S512x1 .f32) :
    sout1_B_1 c i arg2 harg2 arg3 harg3 arg4 harg4 arg5 harg5 arg6 harg6 arg7 harg7 arg8 harg8 arg9 harg9 hc0 hc1 x0 x1 x2 x3 xs0 xs1 = k1_pay2 (k1_pay9 (F := F) i) (k1_pay10 x0 x1) xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 xs0 xs1)]
  unfold kernelRun1_B
  dsimp only
  try sl_unfold_words
  rw [View.canon_unit_zero hz]
  simp only [View.readAt_eq_ld, harg2.read_unread, harg3.read_unread, harg4.read_unread, harg5.read_unread, harg8.read_unread, harg9.read_unread, View.ld_unit_zero (S := S512x128) hz, View.ld_unit_zero (S := S512x1) hz, View.ld_unit_zero (S := S1x512) hz]

/-- The last column block adds its row sums (of `k1_pay11`) onto what the first accumulator held. -/
theorem sout1_C_0_eq (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) :
    sout1_C_0 c i arg2 harg2 arg3 harg3 arg4 harg4 arg5 harg5 arg6 harg6 arg7 harg7 arg8 harg8 arg9 harg9 hc0 hc1 x0 x1 x2 x3 xs0 xs1 = k1_pay1 xs0 (k1_pay11 i x0 x1 x2 x3) := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 xs0 xs1)]
  unfold kernelRun1_C
  dsimp only
  try sl_unfold_words
  rw [View.canon_unit_zero hz]
  simp only [View.readAt_eq_ld, harg2.read_unread, harg3.read_unread, harg4.read_unread, harg5.read_unread, harg8.read_unread, harg9.read_unread, View.ld_unit_zero (S := S512x128) hz, View.ld_unit_zero (S := S512x1) hz, View.ld_unit_zero (S := S1x512) hz]

/-- The last column block adds its row sums (of `k1_pay10` times `k1_pay9`) onto what the second accumulator held. -/
theorem sout1_C_1_eq (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) :
    sout1_C_1 c i arg2 harg2 arg3 harg3 arg4 harg4 arg5 harg5 arg6 harg6 arg7 harg7 arg8 harg8 arg9 harg9 hc0 hc1 x0 x1 x2 x3 xs0 xs1 = k1_pay2 (k1_pay9 (F := F) i) (k1_pay10 x0 x1) xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 xs0 xs1)]
  unfold kernelRun1_C
  dsimp only
  try sl_unfold_words
  rw [View.canon_unit_zero hz]
  simp only [View.readAt_eq_ld, harg2.read_unread, harg3.read_unread, harg4.read_unread, harg5.read_unread, harg8.read_unread, harg9.read_unread, View.ld_unit_zero (S := S512x128) hz, View.ld_unit_zero (S := S512x1) hz, View.ld_unit_zero (S := S1x512) hz]

/-- The last column block's first output: `k1_pay4` of the two accumulators as just updated. -/
theorem out1_C_4_eq (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) :
    out1_C_4 c i arg2 harg2 arg3 harg3 arg4 harg4 arg5 harg5 arg6 harg6 arg7 harg7 arg8 harg8 arg9 harg9 hc0 hc1 x0 x1 x2 x3 xs0 xs1 = k1_pay4 (k1_pay1 xs0 (k1_pay11 i x0 x1 x2 x3)) (k1_pay2 (k1_pay9 (F := F) i) (k1_pay10 x0 x1) xs1) := by
  unfold out1_C_4
  rw [View.read_writes_eq_canon _ _ _ (cover1_C_4 c i arg2 harg2 arg3 harg3 arg4 harg4 arg5 harg5 arg6 harg6 arg7 harg7 arg8 harg8 arg9 harg9 hc0 hc1 x0 x1 x2 x3 xs0 xs1)]
  unfold kernelRun1_C
  dsimp only
  try sl_unfold_words
  rw [View.canon_unit_zero hz, View.readCov_unit_zero (S := S512x1) _ hz, View.readCov_unit_zero (S := S512x1) _ hz]
  simp only [View.readAt_eq_ld, harg2.read_unread, harg3.read_unread, harg4.read_unread, harg5.read_unread, harg8.read_unread, harg9.read_unread, View.ld_unit_zero (S := S512x128) hz, View.ld_unit_zero (S := S512x1) hz, View.ld_unit_zero (S := S1x512) hz]

/-- The last column block's second output: `k1_pay5` of the first accumulator as just updated. -/
theorem out1_C_5_eq (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond1_0 i) (hc1 : cond1_1 i)
    (x0 : Vec F S512x128 .bf16) (x1 : Vec F S512x128 .bf16) (x2 : Vec F S512x1 .i32) (x3 : Vec F S1x512 .i32) (xs0 : Vec F S512x1 .f32) (xs1 : Vec F S512x1 .f32) :
    out1_C_5 c i arg2 harg2 arg3 harg3 arg4 harg4 arg5 harg5 arg6 harg6 arg7 harg7 arg8 harg8 arg9 harg9 hc0 hc1 x0 x1 x2 x3 xs0 xs1 = k1_pay5 (k1_pay1 xs0 (k1_pay11 i x0 x1 x2 x3)) := by
  unfold out1_C_5
  rw [View.read_writes_eq_canon _ _ _ (cover1_C_5 c i arg2 harg2 arg3 harg3 arg4 harg4 arg5 harg5 arg6 harg6 arg7 harg7 arg8 harg8 arg9 harg9 hc0 hc1 x0 x1 x2 x3 xs0 xs1)]
  unfold kernelRun1_C
  dsimp only
  try sl_unfold_words
  rw [View.canon_unit_zero hz, View.readCov_unit_zero (S := S512x1) _ hz]
  simp only [View.readAt_eq_ld, harg2.read_unread, harg3.read_unread, harg4.read_unread, harg5.read_unread, harg8.read_unread, harg9.read_unread, View.ld_unit_zero (S := S512x128) hz, View.ld_unit_zero (S := S512x1) hz, View.ld_unit_zero (S := S1x512) hz]

/-! ## Point by point -/

/-- After a point of column block 0 the accumulators hold this block's row sums added onto zero. -/
theorem soutsAt1_A (c : Dev nD) (t : Fin cfg1.N) (h0 : t.val % 16 = 0) :
    soutsAt1 V c t.val t.isLt
      = (k1_pay1 (k1_pay6 (F := F)) (k1_pay11 (grid1.coords t) (iblk1 V c 0 t) (iblk1 V c 1 t) (iblk1 V c 2 t) (iblk1 V c 3 t)),
         k1_pay2 (k1_pay9 (F := F) (grid1.coords t)) (k1_pay10 (iblk1 V c 0 t) (iblk1 V c 1 t)) (k1_pay7 (F := F))) := by
  unfold soutsAt1
  rw [outsAt1_A V c t h0]
  unfold sAt1_A
  dsimp only
  rw [sout1_A_0_eq, sout1_A_1_eq]

/-- After any other point they hold this block's row sums added onto what the point before left. -/
theorem soutsAt1_step (c : Dev nD) (t : Fin cfg1.N) (h0 : ¬t.val % 16 = 0) :
    soutsAt1 V c t.val t.isLt
      = (k1_pay1 (soutsAt1 V c (t.val - 1) (Nat.lt_of_le_of_lt (Nat.sub_le _ _) t.isLt)).1 (k1_pay11 (grid1.coords t) (iblk1 V c 0 t) (iblk1 V c 1 t) (iblk1 V c 2 t) (iblk1 V c 3 t)),
         k1_pay2 (k1_pay9 (F := F) (grid1.coords t)) (k1_pay10 (iblk1 V c 0 t) (iblk1 V c 1 t)) (soutsAt1 V c (t.val - 1) (Nat.lt_of_le_of_lt (Nat.sub_le _ _) t.isLt)).2) := by
  by_cases h1 : t.val % 16 = 15
  · rw [show soutsAt1 V c t.val t.isLt = (outsAt1 V c t.val t.isLt).2.2 from rfl, outsAt1_C V c t h1]
    unfold allAt1_C
    dsimp only
    rw [sout1_C_0_eq, sout1_C_1_eq]
  · rw [show soutsAt1 V c t.val t.isLt = (outsAt1 V c t.val t.isLt).2.2 from rfl, outsAt1_B V c t h0 h1]
    unfold sAt1_B
    dsimp only
    rw [sout1_B_0_eq, sout1_B_1_eq]

/-- At a point of column block 15 the two outputs are the read-out of the accumulators as that point leaves them. -/
theorem outsAt1_last (c : Dev nD) (t : Fin cfg1.N) (h1 : t.val % 16 = 15) :
    (outsAt1 V c t.val t.isLt).1 = k1_pay4 (soutsAt1 V c t.val t.isLt).1 (soutsAt1 V c t.val t.isLt).2
      ∧ (outsAt1 V c t.val t.isLt).2.1 = k1_pay5 (soutsAt1 V c t.val t.isLt).1 := by
  rw [show soutsAt1 V c t.val t.isLt = (outsAt1 V c t.val t.isLt).2.2 from rfl, outsAt1_C V c t h1]
  unfold allAt1_C
  dsimp only
  rw [out1_C_4_eq, out1_C_5_eq, sout1_C_0_eq, sout1_C_1_eq]
  exact ⟨rfl, rfl⟩

/-- What the proof data says the body leaves in the two outputs at a point of column block 15. -/
theorem after1_4 (c : Dev nD) (t : Fin cfg1.N) (h1 : t.val % 16 = 15) :
    (dat1 V c).after 4 t = k1_pay4 (soutsAt1 V c t.val t.isLt).1 (soutsAt1 V c t.val t.isLt).2 := by
  rw [after1_4']; exact (outsAt1_last V c t h1).1
theorem after1_5 (c : Dev nD) (t : Fin cfg1.N) (h1 : t.val % 16 = 15) :
    (dat1 V c).after 5 t = k1_pay5 (soutsAt1 V c t.val t.isLt).1 := by
  rw [after1_5']; exact (outsAt1_last V c t h1).2

end Cert.KernelIdeal.Hand

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibColumnCasts.lean ====
/-
  Three shape casts around a unit axis, each read at an index written by coordinates, for any extents and any
  element type. A shape cast keeps the row-major position; a unit axis contributes nothing to it.

    cast_dropSecond   [a, 1, b, c] → [a, b, c]   reads (p, q, r)  at (p, 0, q, r)
    cast_column       [a]          → [a, 1]      reads (p, u)     at p            (a sum kept as a column)
    cast_uncolumn     [a, 1]       → [a]         reads p          at (p, 0)       (a column read as a vector)
-/
import Idealize.ShloMosaic.Lib.Pipeline.Value
import Idealize.ShloMosaic.Lib.ValueIdx

namespace Cert.LibColumnCasts

open Idealize.ShloMosaic Idealize.ShloMosaic.ValueIdx

variable {α : Type}

/-- A cast that drops a unit axis in second place, `[a,1,b,c]` to `[a,b,c]`, reads `(p,q,r)` at `(p,0,q,r)`. -/
theorem cast_dropSecond {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h _ _ (by
    rw [Shape.rowMajor_val_four, Shape.rowMajor_val_three]
    show ((p.val * 1 + 0) * b + q.val) * c + r.val = (p.val * b + q.val) * c + r.val
    rw [Nat.mul_one, Nat.add_zero])

/-- A vector written as one column, `[a]` to `[a,1]`, reads `(p,u)` at `p`, whatever the unit coordinate `u`. -/
theorem cast_column {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column array read as a vector, `[a,1]` to `[a]`, reads `p` at `(p,0)`. -/
theorem cast_uncolumn {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Cert.LibColumnCasts
-- ==== Proof.KIPay.lean ====
/-
  The second kernel's pure payloads read at an index, at the ideal values: the running row totals, the identity block and its
  complement, the exponentials of a block of similarities (a matrix product of two blocks of unit rows scaled by the reciprocal of the
  temperature), the positives' terms, and the last step's guarded quotient, logarithm and 0/1 flag.
-/
import proofs.«141171_j84284438217273_1_alg».proof.Proof.Gen.KernelIdeal.Skeleton
import proofs.«141171_j84284438217273_1_alg».proof.Proof.LibMatmul
import proofs.«141171_j84284438217273_1_alg».proof.Proof.LibRowOps
import proofs.«141171_j84284438217273_1_alg».proof.Proof.LibColumnCasts
import proofs.«141171_j84284438217273_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators

namespace Cert.KernelIdeal.Pay

open Idealize.ShloMosaic Idealize.ShloMosaic.ValueIdx Cert.KernelIdeal Cert.KernelIdeal.Gen

/-! ## Small readings of the vector operations at an index -/

theorem cmpi_apply' {s : Shape} {w : Nat} (pr : CmpIPredicate) (a b : IVec s w) (i : s.Idx) :
    cmpi pr a b i = IntOp.cmpi pr (a i) (b i) := rfl
theorem addi_apply' {s : Shape} {w : Nat} (a b : IVec s w) (i : s.Idx) : addi a b i = a i + b i := rfl
theorem exp_apply' {s : Shape} {φ : FTy} (a : FVec Ideal s φ) (i : s.Idx) : exp a i = Ideal.exp (a i) := rfl
theorem log_apply' {s : Shape} {φ : FTy} (a : FVec Ideal s φ) (i : s.Idx) : log a i = Ideal.log (a i) := rfl

/-- The row of the whole array that row `p` of row block `I` is. -/
def rowOf (I : Fin 16) (p : Fin 512) : Fin 8192 := ⟨I.val * 512 + p.val, by have := I.isLt; have := p.isLt; omega⟩

@[simp] theorem rowOf_val (I : Fin 16) (p : Fin 512) : (rowOf I p).val = I.val * 512 + p.val := rfl

theorem rowOf_inj {I J : Fin 16} {p q : Fin 512} : rowOf I p = rowOf J q ↔ I.val * 512 + p.val = J.val * 512 + q.val := by
  constructor
  · intro h; exact congrArg Fin.val h
  · intro h; exact Fin.ext h

/-- A 0/1 word widened and read as a number. -/
theorem bit_value (c : Bool) : (FloatOps.sitofp (F := Ideal) .f32 ((BitVec.ofBool c).setWidth 32) : EReal) = if c then 1 else 0 := by
  cases c
  · show (((BitVec.setWidth 32 (BitVec.ofBool false)).toInt : ℝ) : EReal) = _
    simp
  · show (((BitVec.setWidth 32 (BitVec.ofBool true)).toInt : ℝ) : EReal) = _
    simp

/-- The global row number of a block's row as a 32-bit word, compared: the words agree exactly when the numbers do. -/
theorem word_eq_iff (a b : Fin 16) (p q : Fin 512) :
    (Scalar.muli (BitVec.ofNat 32 a.val) 512#32 + BitVec.ofNat 32 p.val = Scalar.muli (BitVec.ofNat 32 b.val) 512#32 + BitVec.ofNat 32 q.val)
      ↔ a.val * 512 + p.val = b.val * 512 + q.val := by
  have ha := a.isLt; have hb := b.isLt; have hp := p.isLt; have hq := q.isLt
  have e : ∀ (a p : ℕ), a < 16 → p < 512 → (Scalar.muli (BitVec.ofNat 32 a) 512#32 + BitVec.ofNat 32 p).toNat = a * 512 + p := by
    intro a p ha hp
    show (BitVec.ofNat 32 a * 512#32 + BitVec.ofNat 32 p).toNat = _
    simp only [BitVec.toNat_add, BitVec.toNat_mul, BitVec.toNat_ofNat, Nat.reducePow]
    omega
  constructor
  · intro h; have := congrArg BitVec.toNat h; rw [e _ _ ha hp, e _ _ hb hq] at this; exact this
  · intro h; apply BitVec.eq_of_toNat_eq; rw [e _ _ ha hp, e _ _ hb hq]; exact h

/-! ## The payloads of the second kernel read at an index -/

/-- The running row total: what the accumulator held plus the sum of the row of the block's terms. -/
theorem pay1_apply (v37 : Vec Ideal S512x1 .f32) (v38 : FVec Ideal S512x512 .f32) (p : Fin 512) :
    k1_pay1 (F := Ideal) v37 v38 (ix2 p (0 : Fin 1)) = v37 (ix2 p 0) + ∑ q : Fin 512, v38 (ix2 p q) := by
  unfold k1_pay1
  simp only [shapeCast_self]
  rw [addf_apply, Cert.LibColumnCasts.cast_column, Cert.LibRowOps.rowsum]

theorem pay2_apply (v35 v36 : FVec Ideal S512x512 .f32) (v45 : Vec Ideal S512x1 .f32) (p : Fin 512) :
    k1_pay2 (F := Ideal) v35 v36 v45 (ix2 p (0 : Fin 1)) = v45 (ix2 p 0) + ∑ q : Fin 512, v36 (ix2 p q) * v35 (ix2 p q) := by
  unfold k1_pay2
  simp only [shapeCast_self]
  rw [addf_apply, Cert.LibColumnCasts.cast_column, Cert.LibRowOps.rowsum]
  rfl

/-- The two accumulators start at zero. -/
theorem pay6_apply (j : S512x1.Idx) : k1_pay6 (F := Ideal) j = 0 := by
  unfold k1_pay6
  simp only [shapeCast_self]
  exact Ideal.ofBits_zero_f32
theorem pay7_apply (j : S512x1.Idx) : k1_pay7 (F := Ideal) j = 0 := by
  unfold k1_pay7
  simp only [shapeCast_self]
  exact Ideal.ofBits_zero_f32

/-- The identity block: 1 where the global row and column numbers agree. -/
theorem pay8_apply (i : grid1.Coords) (I J : Fin 16) (hI : (i 0).val = I.val) (hJ : (i 1).val = J.val) (p q : Fin 512) :
    k1_pay8 (F := Ideal) i (ix2 p q) = Cert.Spec.eye (rowOf I p) (rowOf J q) := by
  unfold k1_pay8
  simp only []
  rw [sitofp_apply, extui_apply, cmpi_apply', Cert.LibRowOps.col_bcast_apply, broadcastTo_1b_ab_apply, addi_apply', addi_apply',
    broadcast_apply, broadcast_apply, iota_single_apply, iota_single_apply, hI, hJ]
  show (FloatOps.sitofp (F := Ideal) .f32 ((BitVec.ofBool (_ == _)).setWidth 32) : EReal) = _
  rw [bit_value]
  unfold Cert.Spec.eye
  by_cases h : I.val * 512 + p.val = J.val * 512 + q.val
  · rw [if_pos (rowOf_inj.mpr h), if_pos]
    exact beq_iff_eq.mpr ((word_eq_iff I J p q).mpr h)
  · rw [if_neg (fun e => h (rowOf_inj.mp e)), if_neg]
    intro hb
    exact h ((word_eq_iff I J p q).mp (beq_iff_eq.mp hb))

/-- The named scale of the similarities is the reciprocal of the temperature's pattern. -/
theorem inv_temperature :
    Named.named (F := Ideal) Cert.KernelIdeal.κ "inv_temperature" (φ := .f32) 0x41200000#32 = ((134217728 / 13421773 : ℝ) : EReal) :=
  IdealRules.named_const.ideal_named_scalar _ _ _ _ rfl

/-- The temperature's pattern denotes 13421773 / 2^27. -/
theorem tempD_val : Cert.Spec.tempD = ((13421773 / 134217728 : ℝ) : EReal) := by
  unfold Cert.Spec.tempD
  simp [Ideal.ofBits, Ideal.ieee, -EReal.coe_mul]; norm_num

/-- Dividing by the temperature is multiplying by the named scale. -/
theorem div_tempD (d : EReal) :
    Ideal.div d Cert.Spec.tempD = d * Named.named (F := Ideal) Cert.KernelIdeal.κ "inv_temperature" (φ := .f32) 0x41200000#32 := by
  rw [tempD_val, inv_temperature, Ideal.div_coe (by norm_num : (13421773 / 134217728 : ℝ) ≠ 0)]
  congr 2; norm_num

/-- The exponentials of the block's similarities, from the two blocks of unit rows. -/
theorem pay10_apply (v3 v5 : FVec Ideal S512x128 .bf16) (p q : Fin 512) :
    k1_pay10 (F := Ideal) v3 v5 (ix2 p q)
      = Ideal.exp ((∑ k : Fin 128, v3 (ix2 p k) * v5 (ix2 q k))
          * Named.named (F := Ideal) Cert.KernelIdeal.κ "inv_temperature" (φ := .f32) 0x41200000#32) := by
  unfold k1_pay10
  simp only [shapeCast_self]
  rw [exp_apply', mulf_apply, broadcast_apply]
  have hm := Cert.LibMatmul.matmul_zero_eq (φ₁ := .bf16) (φ₂ := .bf16) dot_S512x128_S128x512_S512x512_1_0_0_1_n_n rfl rfl rfl rfl rfl rfl none v3
    (transpose S128x512 [1, 0] v5 transposes_S512x128_p1_0_S128x512)
  refine congrArg (fun z => Ideal.exp (z * _)) ?_
  refine (congrFun hm (ix2 p q)).trans ?_
  rw [Cert.LibMatmul.MM_apply]
  exact Finset.sum_congr rfl fun k _ => by rw [transpose_ix2_apply]

/-- The block of the identity's complement. -/
theorem pay9_apply (i : grid1.Coords) (I J : Fin 16) (hI : (i 0).val = I.val) (hJ : (i 1).val = J.val) (p q : Fin 512) :
    k1_pay9 (F := Ideal) i (ix2 p q) = 1 - Cert.Spec.eye (rowOf I p) (rowOf J q) := by
  unfold k1_pay9
  rw [subf_apply, broadcast_apply, pay8_apply i I J hI hJ]
  exact congrArg (· - _) Cert.Spec.ofBits_one

/-- The block of the positives' terms: the exponential times (same label − identity). -/
theorem pay11_apply (i : grid1.Coords) (I J : Fin 16) (hI : (i 0).val = I.val) (hJ : (i 1).val = J.val)
    (v3 v5 : FVec Ideal S512x128 .bf16) (v24 : Vec Ideal S512x1 .i32) (v26 : Vec Ideal S1x512 .i32) (p q : Fin 512) :
    k1_pay11 (F := Ideal) i v3 v5 v24 v26 (ix2 p q)
      = k1_pay10 (F := Ideal) v3 v5 (ix2 p q)
          * ((if v24 (ix2 p (0 : Fin 1)) = v26 (ix2 (0 : Fin 1) q) then 1 else 0) - Cert.Spec.eye (rowOf I p) (rowOf J q)) := by
  unfold k1_pay11
  simp only [shapeCast_self]
  rw [mulf_apply, subf_apply, pay8_apply i I J hI hJ, sitofp_apply, extui_apply, cmpi_apply', Cert.LibRowOps.col_bcast_apply,
    broadcastTo_1b_ab_apply]
  refine congrArg (fun z : EReal => k1_pay10 (F := Ideal) v3 v5 (ix2 p q) * (z - Cert.Spec.eye (rowOf I p) (rowOf J q))) ?_
  show (FloatOps.sitofp (F := Ideal) .f32 ((BitVec.ofBool (_ == _)).setWidth 32) : EReal) = _
  rw [bit_value]
  by_cases h : v24 (ix2 p (0 : Fin 1)) = v26 (ix2 (0 : Fin 1) q)
  · rw [if_pos h, if_pos (beq_iff_eq.mpr h)]
  · rw [if_neg h, if_neg (fun hb => h (beq_iff_eq.mp hb))]

/-- The test "the positives weigh something". -/
theorem pay3_apply (v56 : Vec Ideal S512x1 .f32) (j : S512x1.Idx) :
    k1_pay3 (F := Ideal) v56 j = BitVec.ofBool (decide ((0 : EReal) < v56 j)) := by
  unfold k1_pay3
  rw [cmpf_apply, broadcast_apply]
  show Ideal.cmp .ogt (v56 j) (Ideal.ofBits .f32 0x00000000#32) = _
  rw [Ideal.ofBits_zero_f32]
  rfl

/-- The 0/1 flag of a kept row. -/
theorem pay5_apply (v56 : Vec Ideal S512x1 .f32) (j : S512x1.Idx) :
    k1_pay5 (F := Ideal) v56 j = if (0 : EReal) < v56 j then 1 else 0 := by
  unfold k1_pay5
  rw [sitofp_apply, extui_apply, pay3_apply, bit_value]
  by_cases h : (0 : EReal) < v56 j
  · rw [if_pos h, if_pos (decide_eq_true h)]
  · rw [if_neg h, if_neg (by simpa using h)]

/-- A row's loss from the two totals: minus the logarithm of their guarded quotient. -/
theorem pay4_apply (v56 v57 : Vec Ideal S512x1 .f32) (j : S512x1.Idx) :
    k1_pay4 (F := Ideal) v56 v57 j
      = -(Ideal.log (Ideal.div (if (0 : EReal) < v56 j then v56 j else 1) (if (0 : EReal) < v56 j then v57 j else 1))) := by
  unfold k1_pay4
  rw [subf_apply, broadcast_apply, log_apply', divf_apply, select_apply, select_apply, pay3_apply]
  simp only [broadcast_apply, Ideal.ofBits_def, Ideal.ofBits_zero_f32, Cert.Spec.ofBits_one, zero_sub]
  by_cases h : (0 : EReal) < v56 j
  · rw [if_pos h, if_pos h, decide_eq_true h]; rfl
  · rw [if_neg h, if_neg h, decide_eq_false h]; rfl

end Cert.KernelIdeal.Pay
end
-- ==== Proof.KIReg1Reads.lean ====
/- Region 1's blocks read at an index, and its two output arrays from what the last column block of every
   row block leaves. Point `t` of the 16x16 grid is row block `t / 16`, column block `t % 16`; the four input
   windows' blocks are restrictions of their arrays to the rows of the row block (windows 0 and 2) or of the
   column block (windows 1 and 3); the outputs' blocks are written back at the points of column block 15 and
   tile the 8192 rows, row `r` lying in row block `r / 512`. -/
import proofs.«141171_j84284438217273_1_alg».proof.Proof.KIReg1
import proofs.«141171_j84284438217273_1_alg».proof.Proof.KIPay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.Pay (rowOf rowOf_val)

variable {F : FTy → Type} [FloatOps F] [Named F]

/-! ## The grid -/

theorem N1_eq : cfg1.N = 256 := N_1

/-- The row block of point `t`. -/
def rowBlk (t : Fin cfg1.N) : Fin 16 := ⟨t.val / 16, by have := t.isLt; have h : cfg1.N = 256 := N_1; omega⟩

/-- The column block of point `t`. -/
def colBlk (t : Fin cfg1.N) : Fin 16 := ⟨t.val % 16, by omega⟩

@[simp] theorem rowBlk_val (t : Fin cfg1.N) : (rowBlk t).val = t.val / 16 := rfl
@[simp] theorem colBlk_val (t : Fin cfg1.N) : (colBlk t).val = t.val % 16 := rfl

/-- The first grid coordinate of a point is its row block, -/
theorem coords1_0 : ∀ t : Fin cfg1.N, ((grid1.coords t) 0).val = (rowBlk t).val :=
  (by decide +kernel : ∀ t : Fin grid1.N, ((grid1.coords t) 0).val = t.val / 16)

/-- the second its column block. -/
theorem coords1_1 : ∀ t : Fin cfg1.N, ((grid1.coords t) 1).val = (colBlk t).val :=
  (by decide +kernel : ∀ t : Fin grid1.N, ((grid1.coords t) 1).val = t.val % 16)

/-- The printed index maps over the grid: windows 0, 2, 4, 5 take block (row block, 0), window 1 block
    (column block, 0), window 3 block (0, column block). -/
theorem idx_facts1_0 : ∀ t : Fin cfg1.N, win1_0.index t (0 : Fin 2) = t.val / 16 ∧ win1_0.index t (1 : Fin 2) = 0 :=
  (by decide +kernel : ∀ t : Fin grid1.N, _)
theorem idx_facts1_1 : ∀ t : Fin cfg1.N, win1_1.index t (0 : Fin 2) = t.val % 16 ∧ win1_1.index t (1 : Fin 2) = 0 :=
  (by decide +kernel : ∀ t : Fin grid1.N, _)
theorem idx_facts1_2 : ∀ t : Fin cfg1.N, win1_2.index t (0 : Fin 2) = t.val / 16 ∧ win1_2.index t (1 : Fin 2) = 0 :=
  (by decide +kernel : ∀ t : Fin grid1.N, _)
theorem idx_facts1_3 : ∀ t : Fin cfg1.N, win1_3.index t (0 : Fin 2) = 0 ∧ win1_3.index t (1 : Fin 2) = t.val % 16 :=
  (by decide +kernel : ∀ t : Fin grid1.N, _)
theorem idx_facts1_4 : ∀ t : Fin cfg1.N, win1_4.index t (0 : Fin 2) = t.val / 16 ∧ win1_4.index t (1 : Fin 2) = 0 :=
  (by decide +kernel : ∀ t : Fin grid1.N, _)
theorem idx_facts1_5 : ∀ t : Fin cfg1.N, win1_5.index t (0 : Fin 2) = t.val / 16 ∧ win1_5.index t (1 : Fin 2) = 0 :=
  (by decide +kernel : ∀ t : Fin grid1.N, _)

section Region1
variable (V : (c : Dev nD) → (b : Ref sig .tc) → Buf (Elt F) ((c : Thread nD τ).loc b))

/-! ## The input windows' blocks at an index -/

/-- Window 0's block at point `t`: the rows of `t`'s row block of the scaled embeddings. -/
theorem iblk1_0_read (c : Dev nD) (t : Fin cfg1.N) (p : Fin 512) (k : Fin 128) :
    iblk1 V c 0 t (ix2 p k) = V c main_v0 (ix2 (rowOf (rowBlk t) p) k) := by
  obtain ⟨e0, e1⟩ := idx_facts1_0 t
  show V c main_v0 (((cfg1.win 0).blk t).view.emb (ix2 p k)) = _
  refine congrArg (V c main_v0) (funext fun a => Fin.ext ?_)
  match a with
  | ⟨0, _⟩ => show win1_0.index t (0 : Fin 2) * 512 + 1 * p.val = (t.val / 16) * 512 + p.val; rw [e0]; omega
  | ⟨1, _⟩ => show win1_0.index t (1 : Fin 2) * 128 + 1 * k.val = k.val; rw [e1]; omega

/-- Window 1's block at point `t`: the rows of `t`'s column block of the scaled embeddings. -/
theorem iblk1_1_read (c : Dev nD) (t : Fin cfg1.N) (q : Fin 512) (k : Fin 128) :
    iblk1 V c 1 t (ix2 q k) = V c main_v0 (ix2 (rowOf (colBlk t) q) k) := by
  obtain ⟨e0, e1⟩ := idx_facts1_1 t
  show V c main_v0 (((cfg1.win 1).blk t).view.emb (ix2 q k)) = _
  refine congrArg (V c main_v0) (funext fun a => Fin.ext ?_)
  match a with
  | ⟨0, _⟩ => show win1_1.index t (0 : Fin 2) * 512 + 1 * q.val = (t.val % 16) * 512 + q.val; rw [e0]; omega
  | ⟨1, _⟩ => show win1_1.index t (1 : Fin 2) * 128 + 1 * k.val = k.val; rw [e1]; omega

/-- Window 2's block at point `t`: the labels of `t`'s row block, as a column. -/
theorem iblk1_2_read (c : Dev nD) (t : Fin cfg1.N) (p : Fin 512) :
    iblk1 V c 2 t (ix2 p (0 : Fin 1)) = V c main_v1 (ix2 (rowOf (rowBlk t) p) (0 : Fin 1)) := by
  obtain ⟨e0, e1⟩ := idx_facts1_2 t
  show V c main_v1 (((cfg1.win 2).blk t).view.emb (ix2 p (0 : Fin 1))) = _
  refine congrArg (V c main_v1) (funext fun a => Fin.ext ?_)
  match a with
  | ⟨0, _⟩ => show win1_2.index t (0 : Fin 2) * 512 + 1 * p.val = (t.val / 16) * 512 + p.val; rw [e0]; omega
  | ⟨1, _⟩ => show win1_2.index t (1 : Fin 2) * 1 + 1 * 0 = 0; rw [e1]

/-- Window 3's block at point `t`: the labels of `t`'s column block, as a row. -/
theorem iblk1_3_read (c : Dev nD) (t : Fin cfg1.N) (q : Fin 512) :
    iblk1 V c 3 t (ix2 (0 : Fin 1) q) = V c main_v2 (ix2 (0 : Fin 1) (rowOf (colBlk t) q)) := by
  obtain ⟨e0, e1⟩ := idx_facts1_3 t
  show V c main_v2 (((cfg1.win 3).blk t).view.emb (ix2 (0 : Fin 1) q)) = _
  refine congrArg (V c main_v2) (funext fun a => Fin.ext ?_)
  match a with
  | ⟨0, _⟩ => show win1_3.index t (0 : Fin 2) * 1 + 1 * 0 = 0; rw [e0]
  | ⟨1, _⟩ => show win1_3.index t (1 : Fin 2) * 512 + 1 * q.val = (t.val % 16) * 512 + q.val; rw [e1]; omega

/-! ## The two output arrays -/

/-- A 512 × 1 block that holds, at row `p`, an array's entry at row `p` of row block `b`, is that array read
    where the block sits: at rows `b·512 …`, the one column. -/
theorem out_block_eq (A : S512x1.Idx → Elt F .f32) (G : S8192x1.Idx → Elt F .f32) (b : ℕ) (hb : b < 16)
    (e : S512x1.Idx → S8192x1.Idx)
    (he0 : ∀ j, (e j 0).val = b * 512 + 1 * (j 0).val) (he1 : ∀ j, (e j 1).val = 0 * 1 + 1 * (j 1).val)
    (hA : ∀ p : Fin 512, A (ix2 p (0 : Fin 1)) = G (ix2 (rowOf ⟨b, hb⟩ p) (0 : Fin 1))) (j : S512x1.Idx) :
    A j = G (e j) := by
  obtain ⟨p, z, rfl⟩ : ∃ (p : Fin 512) (z : Fin 1), j = ix2 p z := ⟨j 0, j 1, eq_ix2 j⟩
  obtain rfl : z = 0 := Fin.ext (by omega)
  rw [hA p]
  refine congrArg G (funext fun a => Fin.ext ?_)
  match a with
  | ⟨0, _⟩ => show b * 512 + p.val = (e (ix2 p (0 : Fin 1)) 0).val; rw [he0]; show b * 512 + p.val = b * 512 + 1 * p.val; omega
  | ⟨1, _⟩ => show 0 = (e (ix2 p (0 : Fin 1)) 1).val; rw [he1]; rfl

/-- An index of output 4's array is in point `t`'s block iff each coordinate is in the block's range on its axis. -/
theorem mem_blk1_4 (t : Fin cfg1.N) (i : S8192x1.Idx) :
    i ∈ ((cfg1.win 4).blk t).view.set ↔ ∀ a : Fin 2, win1_4.index t a * S512x1.size a ≤ (i a).val ∧ (i a).val < win1_4.index t a * S512x1.size a + S512x1.size a := by
  show i ∈ ((View.whole main_v3_0).slice (win1_4.rect t)).set ↔ _
  rw [View.set_slice_whole, Rect.mem_set_unit]
  exact Iff.rfl

theorem mem_blk1_5 (t : Fin cfg1.N) (i : S8192x1.Idx) :
    i ∈ ((cfg1.win 5).blk t).view.set ↔ ∀ a : Fin 2, win1_5.index t a * S512x1.size a ≤ (i a).val ∧ (i a).val < win1_5.index t a * S512x1.size a + S512x1.size a := by
  show i ∈ ((View.whole main_v3_1).slice (win1_5.rect t)).set ↔ _
  rw [View.set_slice_whole, Rect.mem_set_unit]
  exact Iff.rfl

/-- Every row of output 4 is in the block some writing point writes back: row `r` in that of the last column
    block of row block `r / 512`. -/
theorem covered1_4 (i : S8192x1.Idx) :
    ∃ t : Fin cfg1.N, (cfg1.win 4).flush t = true ∧ i ∈ ((cfg1.win 4).blk t).view.set := by
  have hi0 : (i 0).val < 8192 := (i 0).isLt
  have hi1 : (i 1).val < 1 := (i 1).isLt
  have hN : cfg1.N = 256 := N_1
  let t : Fin cfg1.N := ⟨(i 0).val / 512 * 16 + 15, by rw [hN]; omega⟩
  obtain ⟨e0, e1⟩ := idx_facts1_4 t
  have ht : t.val = (i 0).val / 512 * 16 + 15 := rfl
  refine ⟨t, (flush1_4 t).mpr (by rw [ht]; omega), ?_⟩
  rw [mem_blk1_4]
  intro a
  match a with
  | ⟨0, _⟩ => show win1_4.index t (0 : Fin 2) * 512 ≤ (i 0).val ∧ (i 0).val < win1_4.index t (0 : Fin 2) * 512 + 512; rw [e0, ht]; omega
  | ⟨1, _⟩ => show win1_4.index t (1 : Fin 2) * 1 ≤ (i 1).val ∧ (i 1).val < win1_4.index t (1 : Fin 2) * 1 + 1; rw [e1]; omega

theorem covered1_5 (i : S8192x1.Idx) :
    ∃ t : Fin cfg1.N, (cfg1.win 5).flush t = true ∧ i ∈ ((cfg1.win 5).blk t).view.set := by
  have hi0 : (i 0).val < 8192 := (i 0).isLt
  have hi1 : (i 1).val < 1 := (i 1).isLt
  have hN : cfg1.N = 256 := N_1
  let t : Fin cfg1.N := ⟨(i 0).val / 512 * 16 + 15, by rw [hN]; omega⟩
  obtain ⟨e0, e1⟩ := idx_facts1_5 t
  have ht : t.val = (i 0).val / 512 * 16 + 15 := rfl
  refine ⟨t, (flush1_5 t).mpr (by rw [ht]; omega), ?_⟩
  rw [mem_blk1_5]
  intro a
  match a with
  | ⟨0, _⟩ => show win1_5.index t (0 : Fin 2) * 512 ≤ (i 0).val ∧ (i 0).val < win1_5.index t (0 : Fin 2) * 512 + 512; rw [e0, ht]; omega
  | ⟨1, _⟩ => show win1_5.index t (1 : Fin 2) * 1 ≤ (i 1).val ∧ (i 1).val < win1_5.index t (1 : Fin 2) * 1 + 1; rw [e1]; omega

/-- WHAT A WRITING POINT WRITES BACK into output 4 is its block of `G4`, when the body leaves there, at row `p`,
    `G4`'s entry at row `p` of the point's row block. -/
theorem flushed1_4_eq (c : Dev nD) (G4 : S8192x1.Idx → Elt F .f32)
    (h : ∀ t : Fin cfg1.N, t.val % 16 = 15 → ∀ p : Fin 512,
      (dat1 V c).after 4 t (ix2 p (0 : Fin 1)) = G4 (ix2 (rowOf (rowBlk t) p) (0 : Fin 1)))
    (t : Fin cfg1.N) (ht : t.val % 16 = 15) :
    (dat1 V c).flushed 4 t = ((cfg1.win 4).blk t).view.read (Elt F) G4 := by
  obtain ⟨e0, e1⟩ := idx_facts1_4 t
  funext j
  show (dat1 V c).after 4 t ((cfg1.win 4).xinj (grid1.coords t) j) = G4 (((cfg1.win 4).blk t).view.emb j)
  refine out_block_eq (fun j => (dat1 V c).after 4 t ((cfg1.win 4).xinj (grid1.coords t) j)) G4 (t.val / 16) (rowBlk t).isLt
    (fun j => ((cfg1.win 4).blk t).view.emb j) (fun j => ?_) (fun j => ?_) (fun p => ?_) j
  · show win1_4.index t (0 : Fin 2) * 512 + 1 * (j 0).val = _
    rw [e0]
  · show win1_4.index t (1 : Fin 2) * 1 + 1 * (j 1).val = _
    rw [e1]
  · have ex : (cfg1.win 4).xinj (grid1.coords t) (ix2 p (0 : Fin 1)) = ix2 p (0 : Fin 1) :=
      funext fun a => Fin.ext (by match a with | ⟨0, _⟩ => rfl | ⟨1, _⟩ => rfl)
    show (dat1 V c).after 4 t ((cfg1.win 4).xinj (grid1.coords t) (ix2 p (0 : Fin 1))) = _
    rw [ex]
    exact h t ht p

theorem flushed1_5_eq (c : Dev nD) (G5 : S8192x1.Idx → Elt F .f32)
    (h : ∀ t : Fin cfg1.N, t.val % 16 = 15 → ∀ p : Fin 512,
      (dat1 V c).after 5 t (ix2 p (0 : Fin 1)) = G5 (ix2 (rowOf (rowBlk t) p) (0 : Fin 1)))
    (t : Fin cfg1.N) (ht : t.val % 16 = 15) :
    (dat1 V c).flushed 5 t = ((cfg1.win 5).blk t).view.read (Elt F) G5 := by
  obtain ⟨e0, e1⟩ := idx_facts1_5 t
  funext j
  show (dat1 V c).after 5 t ((cfg1.win 5).xinj (grid1.coords t) j) = G5 (((cfg1.win 5).blk t).view.emb j)
  refine out_block_eq (fun j => (dat1 V c).after 5 t ((cfg1.win 5).xinj (grid1.coords t) j)) G5 (t.val / 16) (rowBlk t).isLt
    (fun j => ((cfg1.win 5).blk t).view.emb j) (fun j => ?_) (fun j => ?_) (fun p => ?_) j
  · show win1_5.index t (0 : Fin 2) * 512 + 1 * (j 0).val = _
    rw [e0]
  · show win1_5.index t (1 : Fin 2) * 1 + 1 * (j 1).val = _
    rw [e1]
  · have ex : (cfg1.win 5).xinj (grid1.coords t) (ix2 p (0 : Fin 1)) = ix2 p (0 : Fin 1) :=
      funext fun a => Fin.ext (by match a with | ⟨0, _⟩ => rfl | ⟨1, _⟩ => rfl)
    show (dat1 V c).after 5 t ((cfg1.win 5).xinj (grid1.coords t) (ix2 p (0 : Fin 1))) = _
    rw [ex]
    exact h t ht p

/-- OUTPUT 4 after the region is `G4`, when the last column block of every row block leaves `G4`'s rows of
    that row block in the window's buffer. -/
theorem final1_4 (c : Dev nD) (G4 : S8192x1.Idx → Elt F .f32)
    (h : ∀ t : Fin cfg1.N, t.val % 16 = 15 → ∀ p : Fin 512,
      (dat1 V c).after 4 t (ix2 p (0 : Fin 1)) = G4 (ix2 (rowOf (rowBlk t) p) (0 : Fin 1))) :
    (dat1 V c).arrAt 4 cfg1.N = G4 :=
  (dat1 V c).arrAt_eq_of_cover 4 G4 (fun t hf => flushed1_4_eq V c G4 h t ((flush1_4 t).mp hf)) covered1_4

/-- OUTPUT 5 after the region, likewise. -/
theorem final1_5 (c : Dev nD) (G5 : S8192x1.Idx → Elt F .f32)
    (h : ∀ t : Fin cfg1.N, t.val % 16 = 15 → ∀ p : Fin 512,
      (dat1 V c).after 5 t (ix2 p (0 : Fin 1)) = G5 (ix2 (rowOf (rowBlk t) p) (0 : Fin 1))) :
    (dat1 V c).arrAt 5 cfg1.N = G5 :=
  (dat1 V c).arrAt_eq_of_cover 5 G5 (fun t hf => flushed1_5_eq V c G5 h t ((flush1_5 t).mp hf)) covered1_5

end Region1

end Cert.KernelIdeal.Hand

end
-- ==== Proof.LibBlockSum.lean ====
/-
  Sums over a long axis taken block by block.

  A kernel that walks an axis of extent `N = T * R` in `T` blocks of `R` rows and keeps a running total adds up, in the
  end, the same terms as one sum over the whole axis: in a commutative monoid (the extended reals under `+` are one, infinities
  included) only the grouping differs.  Stated over an arbitrary commutative monoid, for literal or symbolic extents.
-/
import Idealize.ShloMosaic.Lib.ValueIdx

namespace Cert.LibBlockSum

open Finset

variable {M : Type*} [AddCommMonoid M]

/-- Row `r` of block `t`, as a row of the whole axis: `t * R + r`. -/
def row {T R : ℕ} (t : Fin T) (r : Fin R) : Fin (T * R) :=
  ⟨t.val * R + r.val, by
    have ht := t.isLt
    have hr := r.isLt
    calc t.val * R + r.val < t.val * R + R := by omega
      _ = (t.val + 1) * R := by ring
      _ ≤ T * R := Nat.mul_le_mul_right R ht⟩

@[simp] theorem row_val {T R : ℕ} (t : Fin T) (r : Fin R) : (row t r).val = t.val * R + r.val := rfl

/-- A sum over an axis of extent `T * R` is the sum over the `T` blocks of the sums over each block's `R` rows. -/
theorem sum_blocks (T R : ℕ) (f : Fin (T * R) → M) :
    ∑ i, f i = ∑ t : Fin T, ∑ r : Fin R, f (row t r) := by
  rw [← Equiv.sum_comp finProdFinEquiv f, Fintype.sum_prod_type]
  refine Finset.sum_congr rfl fun t _ => Finset.sum_congr rfl fun r _ => congrArg f ?_
  apply Fin.ext
  simp only [finProdFinEquiv_apply_val, row_val]
  ring

/-- The same over an axis whose extent `N` is given as a number with `T * R = N` (for instance `20 * 5000 = 100000`):
    the row `t * R + r` is named by its value. -/
theorem sum_blocks_of_eq {N : ℕ} (T R : ℕ) (h : T * R = N) (f : Fin N → M) :
    ∑ i, f i = ∑ t : Fin T, ∑ r : Fin R,
      f ⟨t.val * R + r.val, h ▸ (row t r).isLt⟩ := by
  subst h
  exact sum_blocks T R f

/-- A running total: start from `0`, add `g 0`, then `g 1`, … — what an accumulator holds after `k` steps. -/
def running (g : ℕ → M) : ℕ → M
  | 0 => 0
  | k + 1 => running g k + g k

@[simp] theorem running_zero (g : ℕ → M) : running g 0 = 0 := rfl
@[simp] theorem running_succ (g : ℕ → M) (k : ℕ) : running g (k + 1) = running g k + g k := rfl

/-- After `k` steps the accumulator holds the sum of the first `k` contributions. -/
theorem running_eq_sum_range (g : ℕ → M) (k : ℕ) : running g k = ∑ t ∈ Finset.range k, g t := by
  induction k with
  | zero => simp
  | succ k ih => rw [running_succ, ih, Finset.sum_range_succ]

/-- After all `T` steps: the sum over the `T` blocks. -/
theorem running_eq_sum_fin (g : ℕ → M) (T : ℕ) : running g T = ∑ t : Fin T, g t.val := by
  rw [running_eq_sum_range, Finset.sum_range]

/-- An accumulator fed block sums of `f` ends at the sum of `f` over the whole axis. -/
theorem running_blocks (T R : ℕ) (f : Fin (T * R) → M) (g : ℕ → M)
    (hg : ∀ t : Fin T, g t.val = ∑ r : Fin R, f (row t r)) :
    running g T = ∑ i, f i := by
  rw [running_eq_sum_fin, sum_blocks]
  exact Finset.sum_congr rfl fun t _ => hg t

end Cert.LibBlockSum
-- ==== Proof.KIAlgebra.lean ====
/- The loss taken block by block. The 8192 columns are walked in 16 blocks of 512 and each row keeps
   running totals of its positives' weight and of all the other rows' weight; after the last block the
   totals are the specification's row sums, since addition on the extended reals is commutative and
   associative, infinities included. A skipped row's loss is `-log (1 / 1) = 0`, so the sum of every
   row's loss is the sum over the kept rows, and the mean over the kept rows is the loss. -/
import proofs.«141171_j84284438217273_1_alg».proof.Proof.Spec
import proofs.«141171_j84284438217273_1_alg».proof.Proof.LibBlockSum
import proofs.«141171_j84284438217273_1_alg».proof.Proof.KIPay

noncomputable section

namespace Cert.Spec.Blocks

open Idealize.ShloMosaic Cert.Spec Cert.LibBlockSum
open Cert.KernelIdeal.Pay (rowOf rowOf_val rowOf_inj)
open scoped BigOperators

/-! ## Rows by block -/

/-- A sum over the 8192 rows is the sum over the 16 row blocks of the sums over each block's 512 rows. -/
theorem sum_rows (f : Fin 8192 → EReal) : ∑ i : Fin 8192, f i = ∑ I : Fin 16, ∑ p : Fin 512, f (rowOf I p) :=
  (sum_blocks_of_eq 16 512 (by norm_num) f).trans
    (Finset.sum_congr rfl fun I _ => Finset.sum_congr rfl fun p _ => congrArg f (Fin.ext rfl))

/-! ## The running totals of a row -/

/-- What column block `J` adds to the positives' weight of row `p` of row block `I`. -/
def posBlock (x : Fin 8192 → Fin 128 → EReal) (lab : Fin 8192 → BitVec 32) (I J : Fin 16) (p : Fin 512) : EReal :=
  ∑ q : Fin 512, ex x (rowOf I p) (rowOf J q) * (same lab (rowOf I p) (rowOf J q) - eye (rowOf I p) (rowOf J q))

/-- What column block `J` adds to the weight of all the other rows. -/
def allBlock (x : Fin 8192 → Fin 128 → EReal) (I J : Fin 16) (p : Fin 512) : EReal :=
  ∑ q : Fin 512, ex x (rowOf I p) (rowOf J q) * (1 - eye (rowOf I p) (rowOf J q))

/-- The positives' running total after the first `n` column blocks. -/
def posRun (x : Fin 8192 → Fin 128 → EReal) (lab : Fin 8192 → BitVec 32) (I : Fin 16) (p : Fin 512) : ℕ → EReal :=
  running fun n => if h : n < 16 then posBlock x lab I ⟨n, h⟩ p else 0

/-- The running total of all the other rows after the first `n` column blocks. -/
def allRun (x : Fin 8192 → Fin 128 → EReal) (I : Fin 16) (p : Fin 512) : ℕ → EReal :=
  running fun n => if h : n < 16 then allBlock x I ⟨n, h⟩ p else 0

theorem posRun_zero (x : Fin 8192 → Fin 128 → EReal) (lab : Fin 8192 → BitVec 32) (I : Fin 16) (p : Fin 512) :
    posRun x lab I p 0 = 0 := rfl

theorem posRun_succ (x : Fin 8192 → Fin 128 → EReal) (lab : Fin 8192 → BitVec 32) (I : Fin 16) (p : Fin 512)
    (n : ℕ) (h : n < 16) : posRun x lab I p (n + 1) = posRun x lab I p n + posBlock x lab I ⟨n, h⟩ p := by
  unfold posRun
  rw [running_succ, dif_pos h]

theorem allRun_zero (x : Fin 8192 → Fin 128 → EReal) (I : Fin 16) (p : Fin 512) : allRun x I p 0 = 0 := rfl

theorem allRun_succ (x : Fin 8192 → Fin 128 → EReal) (I : Fin 16) (p : Fin 512)
    (n : ℕ) (h : n < 16) : allRun x I p (n + 1) = allRun x I p n + allBlock x I ⟨n, h⟩ p := by
  unfold allRun
  rw [running_succ, dif_pos h]

/-- After the sixteenth block the positives' total is the row's sum over all 8192 columns. -/
theorem posRun_full (x : Fin 8192 → Fin 128 → EReal) (lab : Fin 8192 → BitVec 32) (I : Fin 16) (p : Fin 512) :
    posRun x lab I p 16 = posSum x lab (rowOf I p) := by
  unfold posRun posSum
  rw [running_eq_sum_fin, sum_rows]
  refine Finset.sum_congr rfl fun J _ => ?_
  rw [dif_pos J.isLt]
  rfl

/-- After the sixteenth block the other rows' total is the row's sum over all 8192 columns. -/
theorem allRun_full (x : Fin 8192 → Fin 128 → EReal) (I : Fin 16) (p : Fin 512) :
    allRun x I p 16 = allSum x (rowOf I p) := by
  unfold allRun allSum
  rw [running_eq_sum_fin, sum_rows]
  refine Finset.sum_congr rfl fun J _ => ?_
  rw [dif_pos J.isLt]
  rfl

/-! ## Skipped rows -/

/-- `-log (1 / 1) = 0` on the extended reals. -/
theorem neg_log_div_one_one : -(Ideal.log (Ideal.div 1 1)) = 0 := by
  have h1 : Ideal.div (1 : EReal) 1 = 1 := by
    have h := Ideal.div_coe (y := 1) one_ne_zero (1 : EReal)
    rw [EReal.coe_one] at h
    rw [h, one_div_one, EReal.coe_one, mul_one]
  rw [h1, ← EReal.coe_one, Ideal.log_coe, if_neg (by norm_num), Real.log_one, EReal.coe_zero, neg_zero]

/-- A skipped row's loss is zero. -/
theorem rowLoss_of_not_valid (x : Fin 8192 → Fin 128 → EReal) (lab : Fin 8192 → BitVec 32) (i : Fin 8192)
    (h : ¬ valid x lab i) : rowLoss x lab i = 0 := by
  unfold rowLoss
  rw [if_neg h, if_neg h]
  exact neg_log_div_one_one

/-- The mean of every row's loss over the kept rows is the loss: a skipped row adds nothing. -/
theorem loss_of_rows (x : Fin 8192 → Fin 128 → EReal) (lab : Fin 8192 → BitVec 32) (out0 out1 : Fin 8192 → EReal)
    (h0 : ∀ i, out0 i = -(Ideal.log (Ideal.div (if (0 : EReal) < posSum x lab i then posSum x lab i else 1)
      (if (0 : EReal) < posSum x lab i then allSum x i else 1))))
    (h1 : ∀ i, out1 i = if (0 : EReal) < posSum x lab i then 1 else 0) :
    Ideal.div (∑ i : Fin 8192, out0 i) (max (∑ i : Fin 8192, out1 i) 1) = refLoss x lab := by
  have e0 : ∀ i, out0 i = if valid x lab i then rowLoss x lab i else 0 := fun i => by
    have hr : out0 i = rowLoss x lab i := (h0 i).trans rfl
    by_cases hv : valid x lab i
    · rw [if_pos hv, hr]
    · rw [if_neg hv, hr, rowLoss_of_not_valid x lab i hv]
  have e1 : ∀ i, out1 i = if valid x lab i then 1 else 0 := fun i => (h1 i).trans rfl
  unfold refLoss nValid
  rw [Finset.sum_congr rfl fun i _ => e0 i, Finset.sum_congr rfl fun i _ => e1 i]

/-! ## The similarity as a product -/

/-- Where dividing by the temperature is multiplying by `c`, the weight of a pair of rows is the
    exponential of their inner product times `c`. -/
theorem ex_of_dots (x : Fin 8192 → Fin 128 → EReal) (i j : Fin 8192) (c : EReal)
    (hc : ∀ d : EReal, Ideal.div d tempD = d * c) : ex x i j = Ideal.exp (dots x i j * c) := by
  unfold ex sim
  rw [hc]

end Cert.Spec.Blocks

end
-- ==== Proof.KIPay2.lean ====
/-
  A grid point's block of terms in the words of the specification: when the two row blocks hold the unit rows of row block I and
  of column block J, and the two label blocks hold their labels, the positives' terms of the block sum, row by row, to the
  specification's block sum, and likewise the terms of all the other rows.
-/
import proofs.«141171_j84284438217273_1_alg».proof.Proof.KIPay
import proofs.«141171_j84284438217273_1_alg».proof.Proof.KIAlgebra

noncomputable section

open scoped BigOperators

namespace Cert.KernelIdeal.Pay

open Idealize.ShloMosaic Idealize.ShloMosaic.ValueIdx Cert.KernelIdeal Cert.KernelIdeal.Gen Cert.Spec Cert.Spec.Blocks

variable (x : Fin 8192 → Fin 128 → EReal) (lab : Fin 8192 → BitVec 32)
variable (i : grid1.Coords) (I J : Fin 16) (hI : (i 0).val = I.val) (hJ : (i 1).val = J.val)
variable (v3 v5 : FVec Ideal S512x128 .bf16) (v24 : Vec Ideal S512x1 .i32) (v26 : Vec Ideal S1x512 .i32)
variable (hQ : ∀ (p : Fin 512) (k : Fin 128), v3 (ix2 p k) = emb x (rowOf I p) k)
variable (hK : ∀ (q : Fin 512) (k : Fin 128), v5 (ix2 q k) = emb x (rowOf J q) k)
variable (hL1 : ∀ p : Fin 512, v24 (ix2 p (0 : Fin 1)) = lab (rowOf I p))
variable (hL2 : ∀ q : Fin 512, v26 (ix2 (0 : Fin 1) q) = lab (rowOf J q))

include hQ hK in
/-- The block's exponentials are the specification's. -/
theorem pay10_spec (p q : Fin 512) : k1_pay10 (F := Ideal) v3 v5 (ix2 p q) = ex x (rowOf I p) (rowOf J q) := by
  rw [pay10_apply, ex_of_dots x _ _ _ div_tempD]
  unfold dots
  exact congrArg (fun z : EReal => Ideal.exp (z * _)) (Finset.sum_congr rfl fun k _ => by rw [hQ, hK])

include hI hJ hQ hK hL1 hL2 in
/-- Row p of the block's positives' terms sums to the specification's block sum. -/
theorem posBlock_eq (p : Fin 512) :
    ∑ q : Fin 512, k1_pay11 (F := Ideal) i v3 v5 v24 v26 (ix2 p q) = posBlock x lab I J p := by
  unfold posBlock
  refine Finset.sum_congr rfl fun q _ => ?_
  rw [pay11_apply i I J hI hJ, pay10_spec x I J v3 v5 hQ hK, hL1, hL2]
  rfl

include hI hJ hQ hK in
/-- Row p of the block's terms of all the other rows sums to the specification's block sum. -/
theorem allBlock_eq (p : Fin 512) :
    ∑ q : Fin 512, k1_pay10 (F := Ideal) v3 v5 (ix2 p q) * k1_pay9 (F := Ideal) i (ix2 p q) = allBlock x I J p := by
  unfold allBlock
  refine Finset.sum_congr rfl fun q _ => ?_
  rw [pay9_apply i I J hI hJ, pay10_spec x I J v3 v5 hQ hK]

end Cert.KernelIdeal.Pay

end
-- ==== Proof.KIReg1Value.lean ====
/-
  What the second kernel's two carried totals hold after each grid point, in the words of the specification: after the point of
  row block I and column block J, row p of the first total is the running sum of the positives' block sums of blocks 0..J, and
  row p of the second the running sum of the block sums over all the other rows; so at the last column block they are the row's two
  sums over all 8192 columns, and what the last step writes out is the row's loss and its 0/1 flag.
-/
import proofs.«141171_j84284438217273_1_alg».proof.Proof.KIReg1Pieces
import proofs.«141171_j84284438217273_1_alg».proof.Proof.KIReg1Reads
import proofs.«141171_j84284438217273_1_alg».proof.Proof.KIPay2

noncomputable section

open scoped BigOperators

namespace Cert.KernelIdeal.Hand

open Cert.KernelIdeal Cert.KernelIdeal.Gen Cert.KernelIdeal.Pay Cert.Spec Cert.Spec.Blocks
open Idealize.ShloMosaic Idealize.ShloMosaic.TcCoe Idealize.ShloMosaic.ValueIdx
open Idealize.SL.Sem

variable (V : (c : Dev nD) → (b : Ref sig .tc) → Buf (Elt Ideal) ((c : Thread nD τ).loc b))
variable (x : Fin 8192 → Fin 128 → EReal) (lab : Fin 8192 → BitVec 32) (c : Dev nD)
variable (hV0 : ∀ (i : Fin 8192) (k : Fin 128), (V c main_v0 : S8192x128.Idx → EReal) (ix2 i k) = emb x i k)
variable (hV1 : ∀ i : Fin 8192, (V c main_v1 : S8192x1.Idx → BitVec 32) (ix2 i (0 : Fin 1)) = lab i)
variable (hV2 : ∀ j : Fin 8192, (V c main_v2 : S1x8192.Idx → BitVec 32) (ix2 (0 : Fin 1) j) = lab j)

theorem posRun_next (I : Fin 16) (p : Fin 512) (J : Fin 16) :
    posRun x lab I p (J.val + 1) = posRun x lab I p J.val + posBlock x lab I J p := posRun_succ x lab I p J.val J.isLt
theorem allRun_next (I : Fin 16) (p : Fin 512) (J : Fin 16) :
    allRun x I p (J.val + 1) = allRun x I p J.val + allBlock x I J p := allRun_succ x I p J.val J.isLt

include hV0 hV1 hV2 in
/-- One point's step of the first total: what it held plus the positives' block sum of the point's block. -/
theorem step_pos (t : Fin cfg1.N) (s : Vec Ideal S512x1 .f32) (p : Fin 512) :
    k1_pay1 (F := Ideal) s (k1_pay11 (grid1.coords t) (iblk1 V c 0 t) (iblk1 V c 1 t) (iblk1 V c 2 t) (iblk1 V c 3 t)) (ix2 p (0 : Fin 1))
      = s (ix2 p 0) + posBlock x lab (rowBlk t) (colBlk t) p := by
  rw [pay1_apply]
  exact congrArg (s (ix2 p 0) + ·) (posBlock_eq x lab (grid1.coords t) (rowBlk t) (colBlk t) (coords1_0 t) (coords1_1 t)
    (iblk1 V c 0 t) (iblk1 V c 1 t) (iblk1 V c 2 t) (iblk1 V c 3 t)
    (fun p k => (iblk1_0_read V c t p k).trans (hV0 _ _)) (fun q k => (iblk1_1_read V c t q k).trans (hV0 _ _))
    (fun p => (iblk1_2_read V c t p).trans (hV1 _)) (fun q => (iblk1_3_read V c t q).trans (hV2 _)) p)

include hV0 in
/-- One point's step of the second total. -/
theorem step_all (t : Fin cfg1.N) (s : Vec Ideal S512x1 .f32) (p : Fin 512) :
    k1_pay2 (F := Ideal) (k1_pay9 (grid1.coords t)) (k1_pay10 (iblk1 V c 0 t) (iblk1 V c 1 t)) s (ix2 p (0 : Fin 1))
      = s (ix2 p 0) + allBlock x (rowBlk t) (colBlk t) p := by
  rw [pay2_apply]
  exact congrArg (s (ix2 p 0) + ·) (allBlock_eq x (grid1.coords t) (rowBlk t) (colBlk t) (coords1_0 t) (coords1_1 t)
    (iblk1 V c 0 t) (iblk1 V c 1 t)
    (fun p k => (iblk1_0_read V c t p k).trans (hV0 _ _)) (fun q k => (iblk1_1_read V c t q k).trans (hV0 _ _)) p)

include hV0 hV1 hV2 in
/-- After the point of row block I and column block J the two totals are the running sums through block J. -/
theorem scratch_run : ∀ (n : ℕ) (hn : n < cfg1.N) (p : Fin 512),
    (soutsAt1 V c n hn).1 (ix2 p (0 : Fin 1)) = posRun x lab (rowBlk ⟨n, hn⟩) p ((colBlk ⟨n, hn⟩).val + 1)
    ∧ (soutsAt1 V c n hn).2 (ix2 p (0 : Fin 1)) = allRun x (rowBlk ⟨n, hn⟩) p ((colBlk ⟨n, hn⟩).val + 1) := by
  intro n
  induction n using Nat.strong_induction_on with
  | _ n ih =>
    intro hn p
    have hN : n < 256 := lt_of_lt_of_eq hn (show cfg1.N = 256 from N_1)
    rw [posRun_next, allRun_next]
    by_cases h0 : n % 16 = 0
    · have hJ : (colBlk ⟨n, hn⟩).val = 0 := h0
      rw [soutsAt1_A V c ⟨n, hn⟩ h0, hJ, posRun_zero, allRun_zero]
      exact ⟨(step_pos V x lab c hV0 hV1 hV2 ⟨n, hn⟩ _ p).trans (congrArg (· + _) (pay6_apply _)),
        (step_all V x c hV0 ⟨n, hn⟩ _ p).trans (congrArg (· + _) (pay7_apply _))⟩
    · have hn' : n - 1 < cfg1.N := Nat.lt_of_le_of_lt (Nat.sub_le _ _) hn
      have hI : rowBlk ⟨n - 1, hn'⟩ = rowBlk ⟨n, hn⟩ := Fin.ext (by show (n - 1) / 16 = n / 16; omega)
      have hJ : (colBlk ⟨n - 1, hn'⟩).val + 1 = (colBlk ⟨n, hn⟩).val := by show (n - 1) % 16 + 1 = n % 16; omega
      have := ih (n - 1) (by omega) hn' p
      rw [hI, hJ] at this
      rw [soutsAt1_step V c ⟨n, hn⟩ h0]
      exact ⟨(step_pos V x lab c hV0 hV1 hV2 ⟨n, hn⟩ _ p).trans (congrArg (· + _) this.1),
        (step_all V x c hV0 ⟨n, hn⟩ _ p).trans (congrArg (· + _) this.2)⟩

include hV0 hV1 hV2 in
/-- At a point of the last column block the two totals are the row's two sums over all the columns. -/
theorem scratch_last (t : Fin cfg1.N) (h1 : t.val % 16 = 15) (p : Fin 512) :
    (soutsAt1 V c t.val t.isLt).1 (ix2 p (0 : Fin 1)) = posSum x lab (rowOf (rowBlk t) p)
    ∧ (soutsAt1 V c t.val t.isLt).2 (ix2 p (0 : Fin 1)) = allSum x (rowOf (rowBlk t) p) := by
  have h := scratch_run V x lab c hV0 hV1 hV2 t.val t.isLt p
  have hJ : (colBlk ⟨t.val, t.isLt⟩).val + 1 = 16 := by show t.val % 16 + 1 = 16; omega
  rw [hJ, posRun_full, allRun_full] at h
  exact h

/-- The loss of a row from its two sums, as the last step computes it. -/
def lossOf (a b : EReal) : EReal := -(Ideal.log (Ideal.div (if (0 : EReal) < a then a else 1) (if (0 : EReal) < a then b else 1)))

include hV0 hV1 hV2 in
/-- What the last step leaves in the two output blocks: each row's loss and its 0/1 flag. -/
theorem outs_last (t : Fin cfg1.N) (h1 : t.val % 16 = 15) (p : Fin 512) :
    ((dat1 V c).after 4 t : S512x1.Idx → EReal) (ix2 p (0 : Fin 1)) = lossOf (posSum x lab (rowOf (rowBlk t) p)) (allSum x (rowOf (rowBlk t) p))
    ∧ ((dat1 V c).after 5 t : S512x1.Idx → EReal) (ix2 p (0 : Fin 1)) = (if (0 : EReal) < posSum x lab (rowOf (rowBlk t) p) then (1 : EReal) else 0) := by
  have hs := scratch_last V x lab c hV0 hV1 hV2 t h1 p
  have ho := outsAt1_last V c t h1
  constructor
  · rw [after1_4', ho.1]
    refine (pay4_apply _ _ _).trans ?_
    unfold lossOf
    rw [hs.1, hs.2]
  · rw [after1_5', ho.2]
    refine (pay5_apply _ _).trans ?_
    rw [hs.1]

include hV0 hV1 hV2 in
/-- The two output arrays after the region, as functions of the row. -/
theorem final_rows :
    ((dat1 V c).arrAt 4 cfg1.N : S8192x1.Idx → EReal) = (fun y : S8192x1.Idx => lossOf (posSum x lab (y 0)) (allSum x (y 0)))
    ∧ ((dat1 V c).arrAt 5 cfg1.N : S8192x1.Idx → EReal) = (fun y : S8192x1.Idx => if (0 : EReal) < posSum x lab (y 0) then (1 : EReal) else 0) :=
  ⟨final1_4 V c _ fun t h1 p => (outs_last V x lab c hV0 hV1 hV2 t h1 p).1,
   final1_5 V c _ fun t h1 p => (outs_last V x lab c hV0 hV1 hV2 t h1 p).2⟩

end Cert.KernelIdeal.Hand

end
-- ==== Proof.KIHost.lean ====
/- The two stretches of host operations of @main read as functions of the buffers' contents before them, for any
   contents: the label vector laid out as a column and as a row, every other buffer kept; and the closing
   quotient of two column sums, the denominator floored at one. -/
import proofs.«141171_j84284438217273_1_alg».proof.Proof.Gen.KernelIdeal.Launch
import proofs.«141171_j84284438217273_1_alg».proof.Proof.Gen.KernelIdeal.Regions
import proofs.«141171_j84284438217273_1_alg».proof.Proof.LibColumnCasts
import proofs.«141171_j84284438217273_1_alg».proof.Proof.Spec
import Idealize.ShloMosaic.Lib.StableHlo.Run
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators

variable {F : FTy → Type} [FloatOps F] [Named F]

/-! ## The first stretch: the labels as a column and as a row -/

/-- After the first stretch the column array holds the label vector cast to a column. -/
theorem labels_col (W : Valuation τ sig (Elt F)) :
    StableHlo.after (hostOps1 (F := F)) W (Proc.devRef .tc main_v1)
      = shapeCast S8192x1 (W (Proc.devRef .tc main_arg1)) shapeCasts_S8192_S8192x1 := by
  after_results
  rfl

/-- After the first stretch the row array holds the label vector cast to a row. -/
theorem labels_row (W : Valuation τ sig (Elt F)) :
    StableHlo.after (hostOps1 (F := F)) W (Proc.devRef .tc main_v2)
      = shapeCast S1x8192 (W (Proc.devRef .tc main_arg1)) shapeCasts_S8192_S1x8192 := by
  after_results
  rfl

/-- The column's entry (i, 0) is label i. -/
theorem labels_col_apply (W : Valuation τ sig (Elt F)) (i : Fin 8192) :
    (StableHlo.after (hostOps1 (F := F)) W (Proc.devRef .tc main_v1) : S8192x1.Idx → Elt F .i32) (ix2 i (0 : Fin 1))
      = (W (Proc.devRef .tc main_arg1) : S8192.Idx → Elt F .i32) (ix1 i) :=
  (congrFun (labels_col W) (ix2 i (0 : Fin 1))).trans
    (Cert.LibColumnCasts.cast_column (a := 8192) (W (Proc.devRef .tc main_arg1)) shapeCasts_S8192_S8192x1 i (0 : Fin 1))

/-- The row's entry (0, j) is label j. -/
theorem labels_row_apply (W : Valuation τ sig (Elt F)) (j : Fin 8192) :
    (StableHlo.after (hostOps1 (F := F)) W (Proc.devRef .tc main_v2) : S1x8192.Idx → Elt F .i32) (ix2 (0 : Fin 1) j)
      = (W (Proc.devRef .tc main_arg1) : S8192.Idx → Elt F .i32) (ix1 j) :=
  (congrFun (labels_row W) (ix2 (0 : Fin 1) j)).trans
    (shapeCast_a_1a_apply (a := 8192) (W (Proc.devRef .tc main_arg1)) shapeCasts_S8192_S1x8192 (0 : Fin 1) j)

/-- The first stretch writes the column and the row only: every other buffer keeps its contents. -/
theorem hostOps1_keeps (W : Valuation τ sig (Elt F)) (b : Ref sig .tc) (hb : b ∉ ([main_v1, main_v2] : List (Ref sig .tc))) :
    StableHlo.after (hostOps1 (F := F)) W (Proc.devRef .tc b) = W (Proc.devRef .tc b) :=
  StableHlo.after_of_writes_sub hostOps1 W hostOps1_writes hb

/-! ## The second stretch: the quotient of two column sums -/

/-- After the second stretch the result holds the sum of the first column over the larger of the sum of the second
    column and one. -/
theorem tail_eq (W : Valuation τ sig (Elt F)) :
    StableHlo.after (hostOps2 (F := F)) W (Proc.devRef .tc main_v7)
      = Host.divf
          (Host.reduceAdd (W (Proc.devRef .tc main_v3_0) : FVec F S8192x1 .f32) (constant S_ .f32 0x00000000#32) reducesTo_S8192x1_S_d0_1 h_S_)
          (maximumf
            (Host.reduceAdd (W (Proc.devRef .tc main_v3_1) : FVec F S8192x1 .f32) (constant S_ .f32 0x00000000#32) reducesTo_S8192x1_S_d0_1 h_S_)
            (constant S_ .f32 0x3F800000#32)) := by
  after_results

/-- The second stretch writes its seven results only: every other buffer keeps its contents. -/
theorem hostOps2_keeps (W : Valuation τ sig (Elt F)) (b : Ref sig .tc)
    (hb : b ∉ ([main_cst, main_v4, main_cst_0, main_v5, main_cst_1, main_v6, main_v7] : List (Ref sig .tc))) :
    StableHlo.after (hostOps2 (F := F)) W (Proc.devRef .tc b) = W (Proc.devRef .tc b) :=
  StableHlo.after_of_writes_sub hostOps2 W hostOps2_writes hb

/-- At the ideal values the host's sum of a one-column array over both axes, from the zero word, is the sum of the
    column's entries. -/
theorem column_total (x : S8192x1.Idx → EReal) (j : S_.Idx) :
    Host.reduceAdd (F := Ideal) (φ := .f32) x (constant S_ .f32 0x00000000#32) reducesTo_S8192x1_S_d0_1 h_S_ j
      = ∑ i : Fin 8192, x (ix2 i (0 : Fin 1)) := by
  refine (Ideal.hostReduceAdd_total reducesTo_S8192x1_S_d0_1 (fun b => b.elim0) x _ j).trans ?_
  show Ideal.ofBits .f32 0x00000000#32 + ∑ i : S8192x1.Idx, x i = _
  rw [Ideal.ofBits_zero_f32, zero_add, sum_idx2 (n0 := 8192) (n1 := 1) x]
  exact Finset.sum_congr rfl fun i _ => Fin.sum_univ_one _

/-- The two columns the second stretch sums, as functions of the index. -/
abbrev col0 (W : Valuation τ sig (Elt Ideal)) : S8192x1.Idx → EReal := W (Proc.devRef .tc main_v3_0)
abbrev col1 (W : Valuation τ sig (Elt Ideal)) : S8192x1.Idx → EReal := W (Proc.devRef .tc main_v3_1)

/-- At the ideal values: the sum of the first column's entries divided by the larger of the sum of the second
    column's entries and one. -/
theorem tail_value (W : Valuation τ sig (Elt Ideal)) :
    (StableHlo.after (hostOps2 (F := Ideal)) W (Proc.devRef .tc main_v7) : S_.Idx → EReal)
      = fun _ => Ideal.div (∑ i : Fin 8192, col0 W (ix2 i (0 : Fin 1))) (max (∑ i : Fin 8192, col1 W (ix2 i (0 : Fin 1))) 1) := by
  rw [tail_eq]
  funext j
  show Ideal.div (Host.reduceAdd (F := Ideal) (φ := .f32) (col0 W) (constant S_ .f32 0x00000000#32) reducesTo_S8192x1_S_d0_1 h_S_ j)
      (max (Host.reduceAdd (F := Ideal) (φ := .f32) (col1 W) (constant S_ .f32 0x00000000#32) reducesTo_S8192x1_S_d0_1 h_S_ j)
        (Ideal.ofBits .f32 0x3F800000#32)) = _
  rw [column_total, column_total, Cert.Spec.ofBits_one]

/-- The same, for columns named by the caller. -/
theorem tail_value_of (W : Valuation τ sig (Elt Ideal)) (a b : S8192x1.Idx → EReal)
    (ha : W (Proc.devRef .tc main_v3_0) = a) (hb : W (Proc.devRef .tc main_v3_1) = b) :
    (StableHlo.after (hostOps2 (F := Ideal)) W (Proc.devRef .tc main_v7) : S_.Idx → EReal)
      = fun _ => Ideal.div (∑ i : Fin 8192, a (ix2 i (0 : Fin 1))) (max (∑ i : Fin 8192, b (ix2 i (0 : Fin 1))) 1) := by
  subst ha hb
  exact tail_value W

end Cert.KernelIdeal.Hand

end
-- ==== Proof.KIValue.lean ====
/-
  The idealized kernel program's result as a function of its two argument arrays: the first region leaves the rows scaled to unit
  length, the reshapes lay the labels out as a column and as a row, the second region leaves each row's loss and its 0/1 flag,
  and the closing host operations divide the sum of the losses by the larger of the number of kept rows and 1 — the
  specification's loss.
-/
import proofs.«141171_j84284438217273_1_alg».proof.Proof.KIRun
import proofs.«141171_j84284438217273_1_alg».proof.Proof.KIReg0Value
import proofs.«141171_j84284438217273_1_alg».proof.Proof.KIReg1Value
import proofs.«141171_j84284438217273_1_alg».proof.Proof.KIHost
import proofs.«141171_j84284438217273_1_alg».proof.Proof.KIAlgebra

noncomputable section

open scoped BigOperators

namespace Cert.KernelIdeal.Hand

open Cert.KernelIdeal Cert.KernelIdeal.Gen Cert.KernelIdeal.Pay Cert.Spec Cert.Spec.Blocks
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The embeddings and the labels as the specification takes them. -/
def xOf : Fin 8192 → Fin 128 → EReal := fun i k => (m ((c : Thread nD τ).loc main_arg0) : S8192x128.Idx → EReal) (ix2 i k)
def labOf : Fin 8192 → BitVec 32 := fun i => (m ((c : Thread nD τ).loc main_arg1) : S8192.Idx → BitVec 32) (ix1 i)

/-- The second region finds the rows scaled to unit length. -/
theorem entry_rows (i : Fin 8192) (k : Fin 128) :
    (V2 m ρ c main_v0 : S8192x128.Idx → EReal) (ix2 i k) = emb (xOf m c) i k := by
  have h1 : W2 m ρ c (Proc.devRef .tc main_v0) = W1 m ρ c (Proc.devRef .tc main_v0) := hostOps1_keeps (W1 m ρ c) main_v0 (by decide)
  have h2 := W1_main_v0 m ρ c
  have h3 := normalised_eq (V0 m ρ) c i k
  show (W2 m ρ c (Proc.devRef .tc main_v0) : S8192x128.Idx → EReal) (ix2 i k) = _
  rw [h1, h2]
  exact h3

/-- The second region finds the labels laid out as a column. -/
theorem entry_col (i : Fin 8192) : (V2 m ρ c main_v1 : S8192x1.Idx → BitVec 32) (ix2 i (0 : Fin 1)) = labOf m c i := by
  show (StableHlo.after hostOps1 (W1 m ρ c) (Proc.devRef .tc main_v1) : S8192x1.Idx → BitVec 32) (ix2 i (0 : Fin 1)) = _
  rw [labels_col_apply (W1 m ρ c) i, W1_of_ne m ρ c main_arg1 (by decide)]
  rfl

/-- The second region finds the labels laid out as a row. -/
theorem entry_row (j : Fin 8192) : (V2 m ρ c main_v2 : S1x8192.Idx → BitVec 32) (ix2 (0 : Fin 1) j) = labOf m c j := by
  show (StableHlo.after hostOps1 (W1 m ρ c) (Proc.devRef .tc main_v2) : S1x8192.Idx → BitVec 32) (ix2 (0 : Fin 1) j) = _
  rw [labels_row_apply (W1 m ρ c) j, W1_of_ne m ρ c main_arg1 (by decide)]
  rfl

/-- THE VALUE: the result buffer after the run holds the specification's loss of the argument arrays. -/
theorem result_value :
    (W4 m ρ c (Proc.devRef .tc main_v7) : S_.Idx → EReal) = fun _ => refLoss (xOf m c) (labOf m c) := by
  have hrows := final_rows (V2 m ρ) (xOf m c) (labOf m c) c (entry_rows m ρ c) (entry_col m ρ c) (entry_row m ρ c)
  have ha : W3 m ρ c (Proc.devRef .tc main_v3_0) = (fun y : S8192x1.Idx => lossOf (posSum (xOf m c) (labOf m c) (y 0)) (allSum (xOf m c) (y 0))) :=
    (W3_main_v3_0 m ρ c).trans hrows.1
  have hb : W3 m ρ c (Proc.devRef .tc main_v3_1) = (fun y : S8192x1.Idx => if (0 : EReal) < posSum (xOf m c) (labOf m c) (y 0) then (1 : EReal) else 0) :=
    (W3_main_v3_1 m ρ c).trans hrows.2
  refine (tail_value_of (W3 m ρ c) _ _ ha hb).trans ?_
  funext _
  exact loss_of_rows (xOf m c) (labOf m c) _ _ (fun i => rfl) (fun i => rfl)

end Cert.KernelIdeal.Hand

end
-- ==== Proof.Algebraic.lean ====
/- The closing claim: at the ideal instance the kernel program and the reference program, run from memories that agree on
   the two argument arrays, both terminate with the SAME result — the specification's loss of the embeddings and the
   labels — and leave their arguments unchanged. The kernel's side is its run (every unscoped buffer at the last
   boundary's contents) read at the result and the arguments; the reference's side is its run's composed term, which
   is the same loss; the agreement of the argument arrays identifies the two. -/
import proofs.«141171_j84284438217273_1_alg».proof.Defs
import proofs.«141171_j84284438217273_1_alg».proof.Proof.Gen.KernelIdeal
import proofs.«141171_j84284438217273_1_alg».proof.Proof.Gen.ReferenceIdeal
import proofs.«141171_j84284438217273_1_alg».proof.Proof.Gen.Pre_finite_inputs
import proofs.«141171_j84284438217273_1_alg».proof.Proof.Gen.ReferenceIdeal.Run
import proofs.«141171_j84284438217273_1_alg».proof.Proof.RefValue
import proofs.«141171_j84284438217273_1_alg».proof.Proof.KIValue

noncomputable section

namespace Cert.Proof.Alg

open Idealize.ShloMosaic Idealize.ShloMosaic.TcCoe Idealize.SL.Sem

/-- Both programs end with the specification's loss of the kernel's argument arrays in their result buffers, and with
    their arguments as launched. -/
theorem algebraic : Cert.algebraic_KernelIdeal_ReferenceIdeal := by
  intro m ρ m' ρ' _ hagree
  refine ⟨fun c => fun _ => Cert.Spec.refLoss (Cert.KernelIdeal.Hand.xOf m c) (Cert.KernelIdeal.Hand.labOf m c), ?_, ?_⟩
  · -- the kernel: its run's last boundary read at the result buffer and at the two arguments
    refine (θ_run Cert.KernelIdeal.defs _ _).mono (fun r h c => ⟨?_, ?_, ?_⟩) (Cert.KernelIdeal.Hand.run_main (F := Ideal) m ρ)
    · exact (h c _ (Cert.KernelIdeal.Hand.mem_uc Cert.KernelIdeal.main_v7 (by decide))).trans (Cert.KernelIdeal.Hand.result_value m ρ c)
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
  · -- the reference: its composed term is the same loss, of arguments that agree with the kernel's
    refine (θ_run Cert.ReferenceIdeal.defs _ _).mono (fun _ h c => ⟨?_, (h c).2⟩) (Cert.ReferenceIdeal.Value.run (F := Ideal) m' ρ')
    rw [(h c).1, Cert.ReferenceIdeal.RefValue.res_eq, (hagree c).1, (hagree c).2]
    rfl

end Cert.Proof.Alg

end
-- ==== Proof.lean ====
/- The proof of Cert.Claim for the contrastive loss over 8192 embeddings of 128 coordinates with integer labels.

   WHAT BOTH PROGRAMS COMPUTE. Each row of the embeddings is scaled to unit length, its length floored at a small
   positive constant. The similarity of rows i and j is their inner product over the temperature: the reference DIVIDES
   by the temperature's word, the kernel MULTIPLIES by a named constant, the reciprocal of that word's real value. For
   every row i two sums of exponentials of similarities are taken over the OTHER rows j ≠ i: one over the rows that
   carry i's label, one over all of them. A row whose first sum is positive is kept and contributes minus the logarithm
   of the quotient of the first sum by the second; a row with no such partner is skipped — both sums are replaced by
   one, so it contributes minus the logarithm of one. The result is the sum of the contributions over the number of kept
   rows, that number floored at one.

   HOW THE KERNEL DIFFERS. A first kernel call scales the rows block by block (eight blocks of 1024 rows). A second
   call walks the 16 × 16 grid of 512 × 512 blocks of the similarity matrix: for a block of rows it clears two
   accumulators at the first block of columns, adds each block's two partial row sums into them, and at the last block
   of columns turns the accumulated sums into the rows' contributions and their 0/1 flags. Seven host operations then
   sum the contributions, sum the flags, floor the count at one and divide.

   WHICH LAWS JOIN THE TWO SIDES, at the ideal instance (floats are extended reals, operations exact, format changes
   the identity): a sum over 8192 columns is the sum over 16 blocks of the sums over their 512 columns — regrouping of
   a finite sum in the commutative monoid of the extended reals, from the accumulators' zero; x / D = x · (1 / D) for
   the real, nonzero temperature D, which identifies the kernel's product with the reference's quotient; and
   −log (1 / 1) = 0 for a skipped row, so that summing the kernel's contributions over all rows is the reference's sum
   over the kept rows only.

   THE FIVE CONJUNCTS. The three frames (each program terminates on every weakly fair execution, faults nowhere and
   leaves its argument arrays as launched) and the statement that the idealized kernel is the word-level kernel's
   sanctioned idealization (its one named constant) are in Proof/Frames.lean; the equality of the two idealized
   programs' results is in Proof/Algebraic.lean, over the kernel's run (Proof/KIRun.lean: every buffer's final
   contents), its value (Proof/KIValue.lean) and the reference's value (Proof/RefValue.lean), both the one function
   Cert.Spec.refLoss (Proof/Spec.lean) of the argument arrays. They are assembled here behind the witnesses of the
   programs' stated facts (the generated Proof/Gen/ instances). -/
import proofs.«141171_j84284438217273_1_alg».proof.Defs
import proofs.«141171_j84284438217273_1_alg».proof.Proof.Gen.Kernel
import proofs.«141171_j84284438217273_1_alg».proof.Proof.Gen.KernelIdeal
import proofs.«141171_j84284438217273_1_alg».proof.Proof.Gen.ReferenceIdeal
import proofs.«141171_j84284438217273_1_alg».proof.Proof.Gen.Pre_finite_inputs
import proofs.«141171_j84284438217273_1_alg».proof.Proof.Frames
import proofs.«141171_j84284438217273_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, Alg.algebraic⟩

end Cert.Proof

end
